-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20000 : Shape := ⟨2, ![4096, 20000]⟩
abbrev S20000x128 : Shape := ⟨2, ![20000, 128]⟩
abbrev S128 : Shape := ⟨1, ![128]⟩
abbrev S_ : Shape := ⟨0, ![]⟩

class Facts : Prop where
  bcast_S_S4096x20000 : S_.BroadcastsInDim S4096x20000 (![] : Fin 0 → Fin S4096x20000.rank)
  reducesTo_S4096x20000_S_d0_1 : S4096x20000.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x20000 .f32) (main_arg1 : FVec F S20000x128 .f32) (main_arg2 : FVec F S128 .f32) (main_arg3 : FVec F S128 .f32) : IVec S_ 1 :=
  let main_v0 : FVec F S4096x20000 .f32 := Host.absf main_arg0
  let main_cst : FVec F S_ .f32 := constant S_ .f32 0x7F800000#32
  let main_v1 : FVec F S4096x20000 .f32 := broadcastInDim S4096x20000 ![] bcast_S_S4096x20000 main_cst
  let main_v2 : IVec S4096x20000 1 := cmpf .olt main_v0 main_v1
  let main_c : IVec S_ 1 := constantI S_ 1 1#1
  let main_v3 : IVec S_ 1 := (fun x v => Host.reduce IntOp.andi x v reducesTo_S4096x20000_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x20000 : Shape := ⟨2, ![4096, 20000]⟩
abbrev S20000x128 : Shape := ⟨2, ![20000, 128]⟩
abbrev S128 : Shape := ⟨1, ![128]⟩
abbrev S20000x4096 : Shape := ⟨2, ![20000, 4096]⟩
abbrev S128x1 : Shape := ⟨2, ![128, 1]⟩
abbrev S4096x128 : Shape := ⟨2, ![4096, 128]⟩
abbrev S800x2048 : Shape := ⟨2, ![800, 2048]⟩
abbrev S800x128 : Shape := ⟨2, ![800, 128]⟩
abbrev S128x4096 : Shape := ⟨2, ![128, 4096]⟩
abbrev S128x2048 : Shape := ⟨2, ![128, 2048]⟩
abbrev S4096 : Shape := ⟨1, ![4096]⟩
abbrev S1x4096 : Shape := ⟨2, ![1, 4096]⟩
abbrev S20000 : Shape := ⟨1, ![20000]⟩

abbrev nBuf : Space → Nat
  | .hbm => 9
  | .vmem => 10
  | .smem => 0
  | _ => 0

abbrev bufTy : (tb : Table) → Fin (tcTables nBuf tb) → BufTy
  | .hbm, ⟨0, _⟩ => ⟨S4096x20000, .f32⟩
  | .hbm, ⟨1, _⟩ => ⟨S20000x128, .f32⟩
  | .hbm, ⟨2, _⟩ => ⟨S128, .f32⟩
  | .hbm, ⟨3, _⟩ => ⟨S128, .f32⟩
  | .hbm, ⟨4, _⟩ => ⟨S20000x4096, .f32⟩
  | .hbm, ⟨5, _⟩ => ⟨S128x1, .f32⟩
  | .hbm, ⟨6, _⟩ => ⟨S128x1, .f32⟩
  | .hbm, ⟨7, _⟩ => ⟨S4096x128, .f32⟩
  | .hbm, ⟨8, _⟩ => ⟨S20000, .i32⟩
  | .local _ .vmem, ⟨0, _⟩ => ⟨S800x2048, .f32⟩
  | .local _ .vmem, ⟨1, _⟩ => ⟨S800x2048, .f32⟩
  | .local _ .vmem, ⟨2, _⟩ => ⟨S800x2048, .f32⟩
  | .local _ .vmem, ⟨3, _⟩ => ⟨S800x2048, .f32⟩
  | .local _ .vmem, ⟨4, _⟩ => ⟨S800x128, .f32⟩
  | .local _ .vmem, ⟨5, _⟩ => ⟨S800x128, .f32⟩
  | .local _ .vmem, ⟨6, _⟩ => ⟨S128x1, .f32⟩
  | .local _ .vmem, ⟨7, _⟩ => ⟨S128x1, .f32⟩
  | .local _ .vmem, ⟨8, _⟩ => ⟨S4096x128, .f32⟩
  | .local _ .vmem, ⟨9, _⟩ => ⟨S128x4096, .f32⟩
  | _, _ => ⟨S4096x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32 : BitVec 32 := 24#32
  let v16 : BitVec 1 := Scalar.cmpi .eq arg0 c24_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  transposes_S4096x20000_S20000x4096_1_0 : S4096x20000.Transposes [1, 0] S20000x4096
  shapeCasts_S128_S128x1 : S128.ShapeCasts S128x1
  inb_S800x128_S800x128_0_0 : ∀ a, (![0, 0] : Fin 2 → Nat) a + S800x128.size a ≤ S800x128.size a
  h_S800x128 : 0 < S800x128.numel
  bitsLt_bf16_f32 : FTy.bits .bf16 < FTy.bits .f32
  inb_S800x2048_S800x2048_0_0 : ∀ a, (![0, 0] : Fin 2 → Nat) a + S800x2048.size a ≤ S800x2048.size a
  h_S800x2048 : 0 < S800x2048.numel
  shapeCasts_S800x2048_S800x2048 : S800x2048.ShapeCasts S800x2048
  inb_S128x4096_S128x2048_0_0 : ∀ a, (![0, 0] : Fin 2 → Nat) a + S128x2048.size a ≤ S128x4096.size a
  h_S128x2048 : 0 < S128x2048.numel
  shapeCasts_S128x2048_S128x2048 : S128x2048.ShapeCasts S128x2048
  inb_S128x4096_S128x2048_0_2048 : ∀ a, (![0, 2048] : Fin 2 → Nat) a + S128x2048.size a ≤ S128x4096.size a
  inb_S128x4096_S128x4096_0_0 : ∀ a, (![0, 0] : Fin 2 → Nat) a + S128x4096.size a ≤ S128x4096.size a
  h_S128x4096 : 0 < S128x4096.numel
  reduces_S128x4096_S4096 : S128x4096.Reduces [0] S4096
  shapeCasts_S4096_S1x4096 : S4096.ShapeCasts S1x4096
  broadcasts_S1x4096_S128x4096 : S1x4096.Broadcasts S128x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  transposes_S128x4096_p1_0_S4096x128 : S128x4096.Transposes [1, 0] S4096x128
  inb_S4096x128_S4096x128_0_0 : ∀ a, (![0, 0] : Fin 2 → Nat) a + S4096x128.size a ≤ S4096x128.size a
  h_S4096x128 : 0 < S4096x128.numel
  dot_S800x128_S800x2048_S128x2048_0_0_1_1_n_n_wf : DotDims.WF S800x128 S800x2048 S128x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x2048.size a ≤ S20000x4096.size a
  hwx0_0 : ∀ i : grid0.Coords, EltTy.bits .f32 = 32 ∨ (Rect.block (s := S20000x4096) S800x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x2048.size a ≤ S20000x4096.size a
  hwx0_1 : ∀ i : grid0.Coords, EltTy.bits .f32 = 32 ∨ (Rect.block (s := S20000x4096) S800x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x128.size a ≤ S20000x128.size a
  hwx0_2 : ∀ i : grid0.Coords, EltTy.bits .f32 = 32 ∨ (Rect.block (s := S20000x128) S800x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .f32 = 32 ∨ (Rect.block (s := S4096x128) S4096x128.size (cc0_transform_5 i) (hinb0_5 i)).WholeWords (EltTy.packing .f32)

variable [Facts₀]

def dot_S800x128_S800x2048_S128x2048_0_0_1_1_n_n : DotDims S800x128 S800x2048 S128x2048 where
  lhsContracting := [0]
  rhsContracting := [0]
  lhsNonContracting := [1]
  rhsNonContracting := [1]
  lhsBatch := []
  rhsBatch := []
  wf := dot_S800x128_S800x2048_S128x2048_0_0_1_1_n_n_wf

abbrev win0_0 : Pipeline.Window sig grid0 :=
  Pipeline.Window.ofSpec (Memref.whole main_v0) S800x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S800x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S800x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4096x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x20000 : Shape := ⟨2, ![4096, 20000]⟩
abbrev S20000x128 : Shape := ⟨2, ![20000, 128]⟩
abbrev S128 : Shape := ⟨1, ![128]⟩
abbrev S20000 : Shape := ⟨1, ![20000]⟩
abbrev S_ : Shape := ⟨0, ![]⟩
abbrev S20000x1 : Shape := ⟨2, ![20000, 1]⟩
abbrev S1 : Shape := ⟨1, ![1]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x20000, .f32⟩
  | .hbm, ⟨1, _⟩ => ⟨S20000x128, .f32⟩
  | .hbm, ⟨2, _⟩ => ⟨S128, .f32⟩
  | .hbm, ⟨3, _⟩ => ⟨S128, .f32⟩
  | .hbm, ⟨4, _⟩ => ⟨S20000, .i32⟩
  | .hbm, ⟨5, _⟩ => ⟨S_, .i32⟩
  | .hbm, ⟨6, _⟩ => ⟨S20000, .i32⟩
  | .hbm, ⟨7, _⟩ => ⟨S20000, .i1⟩
  | .hbm, ⟨8, _⟩ => ⟨S_, .i32⟩
  | .hbm, ⟨9, _⟩ => ⟨S20000, .i32⟩
  | .hbm, ⟨10, _⟩ => ⟨S20000, .i32⟩
  | .hbm, ⟨11, _⟩ => ⟨S20000, .i32⟩
  | .hbm, ⟨12, _⟩ => ⟨S20000x1, .i32⟩
  | .hbm, ⟨13, _⟩ => ⟨S1, .i32⟩
  | .hbm, ⟨14, _⟩ => ⟨S_, .i32⟩
  | .hbm, ⟨15, _⟩ => ⟨S20000x1, .i32⟩
  | .hbm, ⟨16, _⟩ => ⟨S20000x1, .i1⟩
  | .hbm, ⟨17, _⟩ => ⟨S1x1, .i32⟩
  | .hbm, ⟨18, _⟩ => ⟨S20000x1, .i32⟩
  | .hbm, ⟨19, _⟩ => ⟨S20000x1, .i1⟩
  | .hbm, ⟨20, _⟩ => ⟨S20000x1, .i1⟩
  | .hbm, ⟨21, _⟩ => ⟨S_, .i1⟩
  | .hbm, ⟨22, _⟩ => ⟨S20000, .i1⟩
  | .hbm, ⟨23, _⟩ => ⟨S20000x128, .f32⟩
  | .hbm, ⟨24, _⟩ => ⟨S20000x128, .i1⟩
  | .hbm, ⟨25, _⟩ => ⟨S_, .f32⟩
  | .hbm, ⟨26, _⟩ => ⟨S20000x128, .f32⟩
  | .hbm, ⟨27, _⟩ => ⟨S20000x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S_, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S_, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096x128, .f32⟩
  | .hbm, ⟨41, _⟩ => ⟨S4096x128, .f32⟩
  | .hbm, ⟨42, _⟩ => ⟨S_, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .i32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x128, .f32⟩
  | .hbm, ⟨77, _⟩ => ⟨S4096x128, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x128, .f32⟩
  | .hbm, ⟨83, _⟩ => ⟨S4096x128, .f32⟩
  | .hbm, ⟨84, _⟩ => ⟨S1x128, .f32⟩
  | .hbm, ⟨85, _⟩ => ⟨S4096x128, .f32⟩
  | .hbm, ⟨86, _⟩ => ⟨S4096x128, .f32⟩
  | .hbm, ⟨87, _⟩ => ⟨S1x128, .f32⟩
  | .hbm, ⟨88, _⟩ => ⟨S4096x128, .f32⟩
  | .hbm, ⟨89, _⟩ => ⟨S4096x128, .f32⟩
  | _, _ => ⟨S4096x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_c : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_cst_3 : Ref sig .tc := ⟨.hbm, 70, rfl⟩
abbrev main_call1_v13 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_cst_5 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  reducesTo_S20000x1_S20000_d1 : S20000x1.ReducesTo [1] S20000
  h_S_ : 0 < S_.numel
  bcast_S20000_S20000x128_0 : S20000.BroadcastsInDim S20000x128 (![0] : Fin 1 → Fin S20000x128.rank)
  bcast_S_S20000x128 : S_.BroadcastsInDim S20000x128 (![] : Fin 0 → Fin S20000x128.rank)
  bcast_S_S4096x128 : S_.BroadcastsInDim S4096x128 (![] : Fin 0 → Fin S4096x128.rank)
  reducesTo_S4096x128_S4096_d1 : S4096x128.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  gather_S20000x128_S20000x1_S20000x128_1_0_n_n_0_1_1128_wf : GatherDims.WF S20000x128 S20000x1 S20000x128 [1] [0] [] [0] [] 1 ![1, 128]
  dot_S4096x20000_S20000x128_S4096x128_1_0_0_1_n_n_wf : DotDims.WF S4096x20000 S20000x128 S4096x128 [1] [0] [0] [1] [] []

variable [Facts₀]

def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf
def dot_S4096x20000_S20000x128_S4096x128_1_0_0_1_n_n : DotDims S4096x20000 S20000x128 S4096x128 where
  lhsContracting := [1]
  rhsContracting := [0]
  lhsNonContracting := [0]
  rhsNonContracting := [1]
  lhsBatch := []
  rhsBatch := []
  wf := dot_S4096x20000_S20000x128_S4096x128_1_0_0_1_n_n_wf

class Facts : Prop extends Facts₀ where

variable [Facts]
-- ==== Proof.KernelBase.lean ====
/-
  The region of the embedding kernel, the part every later module shares.

  The program transposes x, reshapes the scale and the bias to columns, and then runs ONE pipelined region over
  25 grid points: point k multiplies rows 800k … 800k+799 of the embedding table against the matching rows of the
  two column halves of xᵀ and accumulates the two [128, 2048] products in a [128, 4096] scratch that lives across
  the points (stored at k = 0, added to at k > 0); the last point also normalises the scratch and stores the
  transposed result into the output block, which the pipeline writes back there and only there.
  Here: the buffers' contents when the region is entered, each window's block at a point, the three conditions of
  the body's branches in closed form over the grid, where the output window is idle, and the names of the memrefs
  the body is called with.
-/
import proofs.«103525_g86423331930547_cont_9to1_m_1251_21_alg».proof.Proof.Gen.Kernel.Launch
import proofs.«103525_g86423331930547_cont_9to1_m_1251_21_alg».proof.Proof.Gen.Kernel.Skeleton
import proofs.«103525_g86423331930547_cont_9to1_m_1251_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region's entry -/

/-- Core `c`'s buffers at launch. -/
abbrev W0 : Dev nD → Valuation τ sig (Elt F) := fun c b => (s₀ m ρ).mem ((c : Dev nD), b)
/-- After the three host operations before the region (the transpose of x, the two reshapes). -/
abbrev W1 : Dev nD → Valuation τ sig (Elt F) := fun c => StableHlo.after hostOps0 (W0 m ρ c)
/-- The same read at the TensorCore's references: what the region finds. -/
abbrev V : (c : Dev nD) → (b : Ref sig .tc) → Buf (Elt F) ((c : Thread nD τ).loc b) := fun c b => W1 m ρ c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- Input window 0's current staging buffer holds its block at every point, fetched there or not: where the
    pipeline does not fetch it the block index has not moved and the body left the block in place. -/
theorem before0_of {c : Dev nD} (dat : Dat τ (Elt F) Unit ℕ (UR sig nD τ) ℕ cfg0 c) (hA : dat.A 0 = V m ρ c (Pipeline.arrRef spec0 0))
    (hafter : ∀ t, dat.after 0 t = iblk m ρ c 0 t) (t : Fin cfg0.N) (d) : dat.before 0 t d = iblk m ρ c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the
    pipeline does not fetch it the block index has not moved and the body left the block in place. -/
theorem before1_of {c : Dev nD} (dat : Dat τ (Elt F) Unit ℕ (UR sig nD τ) ℕ cfg0 c) (hA : dat.A 1 = V m ρ c (Pipeline.arrRef spec0 1))
    (hafter : ∀ t, dat.after 1 t = iblk m ρ c 1 t) (t : Fin cfg0.N) (d) : dat.before 1 t d = iblk m ρ c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the
    pipeline does not fetch it the block index has not moved and the body left the block in place. -/
theorem before2_of {c : Dev nD} (dat : Dat τ (Elt F) Unit ℕ (UR sig nD τ) ℕ cfg0 c) (hA : dat.A 2 = V m ρ c (Pipeline.arrRef spec0 2))
    (hafter : ∀ t, dat.after 2 t = iblk m ρ c 2 t) (t : Fin cfg0.N) (d) : dat.before 2 t d = iblk m ρ c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the
    pipeline does not fetch it the block index has not moved and the body left the block in place. -/
theorem before3_of {c : Dev nD} (dat : Dat τ (Elt F) Unit ℕ (UR sig nD τ) ℕ cfg0 c) (hA : dat.A 3 = V m ρ c (Pipeline.arrRef spec0 3))
    (hafter : ∀ t, dat.after 3 t = iblk m ρ c 3 t) (t : Fin cfg0.N) (d) : dat.before 3 t d = iblk m ρ c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the
    pipeline does not fetch it the block index has not moved and the body left the block in place. -/
theorem before4_of {c : Dev nD} (dat : Dat τ (Elt F) Unit ℕ (UR sig nD τ) ℕ cfg0 c) (hA : dat.A 4 = V m ρ c (Pipeline.arrRef spec0 4))
    (hafter : ∀ t, dat.after 4 t = iblk m ρ c 4 t) (t : Fin cfg0.N) (d) : dat.before 4 t d = iblk m ρ c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's three branch conditions, in closed form over the grid -/

/-- "This is the first point": the condition of the branch that stores the products into the scratch. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- "This is a later point": the condition of the branch that adds the products to the scratch. -/
abbrev condLater (i : grid0.Coords) : Prop := (Scalar.cmpi .ne (Scalar.extui (Scalar.cmpi .sgt (BitVec.ofNat 32 (i 0).val) 0#32)) 0#32) = 1#1
theorem hcondLater : ∀ t : Fin cfg0.N, condLater (grid0.coords t) ↔ t.val ≠ 0 :=
  (by decide +kernel : ∀ t : Fin grid0.N, condLater (grid0.coords t) ↔ t.val ≠ 0)

/-- "This is the last point": the condition of the branch that normalises and stores the result. -/
abbrev condLast (i : grid0.Coords) : Prop := k0_cond3 i = 1#1
theorem hcondLast : ∀ t : Fin cfg0.N, condLast (grid0.coords t) ↔ t.val = 24 :=
  (by decide +kernel : ∀ t : Fin grid0.N, condLast (grid0.coords t) ↔ t.val = 24)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Before the last point the body stores nothing into the output window, -/
theorem idle5 : ∀ t : Fin cfg0.N, ¬condLast (grid0.coords t) → cfg0.idle 5 (grid0.coords t) = true := by decide +kernel
/-- and the pipeline does not write its block back there; -/
theorem noFlush5 : ∀ t : Fin cfg0.N, ¬condLast (grid0.coords t) → (cfg0.win 5).flush t = false := by decide +kernel
/-- at the last point it stores the whole block. -/
theorem live5 : ∀ t : Fin cfg0.N, condLast (grid0.coords t) → cfg0.idle 5 (grid0.coords t) = false := by decide +kernel

/-! ## The memrefs the body is called with -/

/-- The output window's one staging buffer as a view: what it holds is stated through it. -/
abbrev VO : View sig .tc .vmem S4096x128 .f32 := (Memref.whole cc0_stg5_0 : Memref sig .tc .vmem S4096x128 .f32).view
abbrev ms0 (t : Fin cfg0.N) : Memref sig .tc .vmem S800x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S800x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S800x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x128 .f32 := win0_5.stage (cfg0.slots t 5)
abbrev hs5 (t : Fin cfg0.N) : (ms5 t).IsWhole := hstage0_5 ((cfg0.slots t 5).cast nbuf0_5)
/-- The accumulator: a whole scoped buffer of the kernel's own, passed beside the windows and kept across the points. -/
abbrev scM : Memref sig .tc .vmem S128x4096 .f32 := Memref.whole cc0_scratch0
abbrev VS : View sig .tc .vmem S128x4096 .f32 := scM.view

/-- The region's plain invariant with the accumulator named: the accumulator at some contents, the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KernelRunFirst.lean ====
/-
  The body at the FIRST grid point.  It loads the embedding block and the two blocks of xᵀ, and — the point being
  the first — stores the two products into the two column halves of the accumulator; the other two branches are
  not taken, so the output block is handed back untouched.  What the accumulator ends with is found by running
  the body symbolically: two pieces, one per column half, over whatever it held.
-/
import proofs.«103525_g86423331930547_cont_9to1_m_1251_21_alg».proof.Proof.KernelBase

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body on whole staging memrefs at a point where only the first branch is taken: the inputs at their contents
    and the output block at any contents come back as they were, the accumulator — entered at anything — ends with
    the pieces `LS` written, which the run finds. -/
noncomputable def runFirst (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : condFirst i) (hL : ¬condLater i) (hE : ¬condLast i)
    (x0 : Vec F S800x2048 .f32) (x1 : Vec F S800x2048 .f32) (x2 : Vec F S800x128 .f32) (x3 : Vec F S128x1 .f32) (x4 : Vec F S128x1 .f32) :
    Σ' (L5 : List (View.Piece (Elt F) S4096x128 .f32)), { LS : List (View.Piece (Elt F) S128x4096 .f32) //
      ∀ (xi5 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc0__embed_kernel i arg1 harg1 arg2 harg2 arg3 harg3 arg4 harg4 arg5 harg5 arg6 harg6 arg7 harg7) K } := by
  refine ⟨[], ?_, fun xi5 E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hF | exact hL | exact hE)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

end Cert.Kernel.Hand

end
-- ==== Proof.KernelRunLater.lean ====
/-
  The body at a point that is neither the first nor the last.  It loads the same three blocks, reads the two
  column halves of the accumulator as the point before left them, adds the two products and stores the sums back;
  the first and the last branch are not taken, so the output block is handed back untouched.
-/
import proofs.«103525_g86423331930547_cont_9to1_m_1251_21_alg».proof.Proof.KernelRunFirst

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body on whole staging memrefs at a point where only the adding branch is taken: the inputs and the output
    block come back as they were, the accumulator — entered at `xs` — ends with the pieces `LS` written. -/
noncomputable def runLater (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : ¬condLast i)
    (x0 : Vec F S800x2048 .f32) (x1 : Vec F S800x2048 .f32) (x2 : Vec F S800x128 .f32) (x3 : Vec F S128x1 .f32) (x4 : Vec F S128x1 .f32) (xs : Vec F S128x4096 .f32) :
    Σ' (L5 : List (View.Piece (Elt F) S4096x128 .f32)), { LS : List (View.Piece (Elt F) S128x4096 .f32) //
      ∀ (xi5 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc0__embed_kernel i arg1 harg1 arg2 harg2 arg3 harg3 arg4 harg4 arg5 harg5 arg6 harg6 arg7 harg7) K } := by
  refine ⟨[], ?_, fun xi5 E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs
    sl_exec (disch := first | exact hF | exact hL | exact hE)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

end Cert.Kernel.Hand

end
-- ==== Proof.KernelRunLast.lean ====
/-
  The body at the LAST grid point.  It adds the last two products to the accumulator as at every later point, then
  reads the whole accumulator back, applies gelu, normalises each column over the 128 hidden entries, scales and
  shifts by the two [128, 1] columns, transposes, and stores the [4096, 128] result over the whole output block.
-/
import proofs.«103525_g86423331930547_cont_9to1_m_1251_21_alg».proof.Proof.KernelRunLater

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 2000000 in
/-- The body on whole staging memrefs at the point where the adding branch and the last branch are taken: the inputs
    come back as they were, the accumulator — entered at `xs` — ends with the pieces `LS` written, the output
    block — entered at anything — with the pieces `L5`. -/
noncomputable def runLast (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) :
    Σ' (L5 : List (View.Piece (Elt F) S4096x128 .f32)), { LS : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__embed_kernel i arg1 harg1 arg2 harg2 arg3 harg3 arg4 harg4 arg5 harg5 arg6 harg6 arg7 harg7) K } := by
  refine ⟨?_, ?_, fun E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs
    sl_exec (disch := first | exact hF | exact hL | exact hE)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.Kernel.Hand

end
-- ==== Proof.KernelFrame.lean ====
/-
  The region's proof data and the body at every grid point.

  After point k the accumulator holds what the case of that point leaves over what point k − 1 left (at k = 0:
  over nothing, the two stores cover it); the output block is stored only at the last point, from the accumulator
  as that same point leaves it.  `outsAt` is that recursion; the invariant carries the accumulator's contents
  from point to point; the proof data name, for every window, what its staging buffer holds after the body — an
  input its block, the output `outsAt`'s first component.  The transposed x is read through two windows (the two
  column halves of one array): each holds half of the array's share.
-/
import proofs.«103525_g86423331930547_cont_9to1_m_1251_21_alg».proof.Proof.KernelRunLast

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The accumulator's pieces at such a point tile it: its two column halves. -/
theorem scoverFirst (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : condFirst i) (hL : ¬condLater i) (hE : ¬condLast i)
    (x0 : Vec F S800x2048 .f32) (x1 : Vec F S800x2048 .f32) (x2 : Vec F S800x128 .f32) (x3 : Vec F S128x1 .f32) (x4 : Vec F S128x1 .f32) (y : S128x4096.Idx) :
    ∃ pc ∈ (runFirst c i arg1 harg1 arg2 harg2 arg3 harg3 arg4 harg4 arg5 harg5 arg6 harg6 arg7 harg7 hF hL hE x0 x1 x2 x3 x4).2.1, y ∈ pc.1.set :=
  View.cover_of_tiledL (runFirst c i arg1 harg1 arg2 harg2 arg3 harg3 arg4 harg4 arg5 harg5 arg6 harg6 arg7 harg7 hF hL hE x0 x1 x2 x3 x4).2.1 S128x2048.size (by sl_kernel_rfl) y

/-- What such a point leaves in the accumulator: its pieces read back. -/
def soutFirst (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : condFirst i) (hL : ¬condLater i) (hE : ¬condLast i)
    (x0 : Vec F S800x2048 .f32) (x1 : Vec F S800x2048 .f32) (x2 : Vec F S800x128 .f32) (x3 : Vec F S128x1 .f32) (x4 : Vec F S128x1 .f32) : Vec F S128x4096 .f32 :=
  VS.read (Elt F) (VS.writes (Elt F) VS.junk (runFirst c i arg1 harg1 arg2 harg2 arg3 harg3 arg4 harg4 arg5 harg5 arg6 harg6 arg7 harg7 hF hL hE x0 x1 x2 x3 x4).2.1)

/-- The accumulator's pieces at such a point tile it: its two column halves. -/
theorem scoverLater (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : ¬condLast i)
    (x0 : Vec F S800x2048 .f32) (x1 : Vec F S800x2048 .f32) (x2 : Vec F S800x128 .f32) (x3 : Vec F S128x1 .f32) (x4 : Vec F S128x1 .f32) (xs : Vec F S128x4096 .f32) (y : S128x4096.Idx) :
    ∃ pc ∈ (runLater c i arg1 harg1 arg2 harg2 arg3 harg3 arg4 harg4 arg5 harg5 arg6 harg6 arg7 harg7 hF hL hE x0 x1 x2 x3 x4 xs).2.1, y ∈ pc.1.set :=
  View.cover_of_tiledL (runLater c i arg1 harg1 arg2 harg2 arg3 harg3 arg4 harg4 arg5 harg5 arg6 harg6 arg7 harg7 hF hL hE x0 x1 x2 x3 x4 xs).2.1 S128x2048.size (by sl_kernel_rfl) y

/-- What such a point leaves in the accumulator: its pieces read back. -/
def soutLater (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : ¬condLast i)
    (x0 : Vec F S800x2048 .f32) (x1 : Vec F S800x2048 .f32) (x2 : Vec F S800x128 .f32) (x3 : Vec F S128x1 .f32) (x4 : Vec F S128x1 .f32) (xs : Vec F S128x4096 .f32) : Vec F S128x4096 .f32 :=
  VS.read (Elt F) (VS.writes (Elt F) VS.junk (runLater c i arg1 harg1 arg2 harg2 arg3 harg3 arg4 harg4 arg5 harg5 arg6 harg6 arg7 harg7 hF hL hE x0 x1 x2 x3 x4 xs).2.1)

/-- The accumulator's pieces at such a point tile it: its two column halves. -/
theorem scoverLast (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) (y : S128x4096.Idx) :
    ∃ pc ∈ (runLast c i arg1 harg1 arg2 harg2 arg3 harg3 arg4 harg4 arg5 harg5 arg6 harg6 arg7 harg7 hF hL hE x0 x1 x2 x3 x4 xs).2.1, y ∈ pc.1.set :=
  View.cover_of_tiledL (runLast c i arg1 harg1 arg2 harg2 arg3 harg3 arg4 harg4 arg5 harg5 arg6 harg6 arg7 harg7 hF hL hE x0 x1 x2 x3 x4 xs).2.1 S128x2048.size (by sl_kernel_rfl) y

/-- What such a point leaves in the accumulator: its pieces read back. -/
def soutLast (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) : Vec F S128x4096 .f32 :=
  VS.read (Elt F) (VS.writes (Elt F) VS.junk (runLast c i arg1 harg1 arg2 harg2 arg3 harg3 arg4 harg4 arg5 harg5 arg6 harg6 arg7 harg7 hF hL hE x0 x1 x2 x3 x4 xs).2.1)

/-- The last point's one store covers the whole output block. -/
theorem coverLast5 (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) (y : S4096x128.Idx) :
    ∃ pc ∈ (runLast c i arg1 harg1 arg2 harg2 arg3 harg3 arg4 harg4 arg5 harg5 arg6 harg6 arg7 harg7 hF hL hE x0 x1 x2 x3 x4 xs).1, y ∈ pc.1.set :=
  View.cover_of_tiledL (runLast c i arg1 harg1 arg2 harg2 arg3 harg3 arg4 harg4 arg5 harg5 arg6 harg6 arg7 harg7 hF hL hE x0 x1 x2 x3 x4 xs).1 S4096x128.size (by sl_kernel_rfl) y

/-- What the last point leaves in the output block: its piece read back. -/
def outLast5 (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) : Vec F S4096x128 .f32 :=
  VO.read (Elt F) (VO.writes (Elt F) VO.junk (runLast c i arg1 harg1 arg2 harg2 arg3 harg3 arg4 harg4 arg5 harg5 arg6 harg6 arg7 harg7 hF hL hE x0 x1 x2 x3 x4 xs).1)

/-- A placeholder for the output block where the body stores nothing into it: there the window is neither written
    back nor read again, and nothing consults this value. -/
def outIdle : Vec F S4096x128 .f32 := VO.read (Elt F) VO.junk

/-! ## The accumulation, point by point -/

/-- What the output block and the accumulator hold after the body at position `n`: the first point's stores; at a
    later point that point's case over what the point before left in the accumulator. -/
def outsAt (c : Dev nD) : (n : ℕ) → n < cfg0.N → Vec F S4096x128 .f32 × Vec F S128x4096 .f32
  | 0, hn => (outIdle, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcondFirst ⟨0, hn⟩).mpr rfl) (fun h => (hcondLater ⟨0, hn⟩).mp h rfl)
      (fun h => absurd ((hcondLast ⟨0, hn⟩).mp h) (show ¬ (0 : ℕ) = 24 from by decide)) (iblk m ρ c 0 ⟨0, hn⟩) (iblk m ρ c 1 ⟨0, hn⟩) (iblk m ρ c 2 ⟨0, hn⟩) (iblk m ρ c 3 ⟨0, hn⟩) (iblk m ρ c 4 ⟨0, hn⟩))
  | n + 1, hn =>
    if h : n + 1 = 24 then
      (outLast5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h' => absurd ((hcondFirst ⟨n + 1, hn⟩).mp h') (Nat.succ_ne_zero n)) ((hcondLater ⟨n + 1, hn⟩).mpr (Nat.succ_ne_zero n))
          ((hcondLast ⟨n + 1, hn⟩).mpr h) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (outsAt c n (Nat.lt_of_succ_lt hn)).2,
       soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h' => absurd ((hcondFirst ⟨n + 1, hn⟩).mp h') (Nat.succ_ne_zero n)) ((hcondLater ⟨n + 1, hn⟩).mpr (Nat.succ_ne_zero n))
          ((hcondLast ⟨n + 1, hn⟩).mpr h) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (outsAt c n (Nat.lt_of_succ_lt hn)).2)
    else
      (outIdle,
       soutLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h' => absurd ((hcondFirst ⟨n + 1, hn⟩).mp h') (Nat.succ_ne_zero n)) ((hcondLater ⟨n + 1, hn⟩).mpr (Nat.succ_ne_zero n))
          (fun h' => h ((hcondLast ⟨n + 1, hn⟩).mp h')) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (outsAt c n (Nat.lt_of_succ_lt hn)).2)

/-- `outsAt` at the first point. -/
theorem outsAt_first (c : Dev nD) (t : Fin cfg0.N) (h0 : t.val = 0) (hF : condFirst (grid0.coords t)) (hL : ¬condLater (grid0.coords t)) (hE : ¬condLast (grid0.coords t)) :
    outsAt m ρ c t.val t.isLt = (outIdle, soutFirst c (grid0.coords t) (ms0 t) (hs0 t) (ms1 t) (hs1 t) (ms2 t) (hs2 t) (ms3 t) (hs3 t) (ms4 t) (hs4 t) (ms5 t) (hs5 t) scM (Memref.isWhole_whole _) hF hL hE (iblk m ρ c 0 t) (iblk m ρ c 1 t) (iblk m ρ c 2 t) (iblk m ρ c 3 t) (iblk m ρ c 4 t)) := by
  obtain ⟨n, hn⟩ := t
  cases n with
  | zero => exact rfl
  | succ n => exact absurd h0 (Nat.succ_ne_zero n)

/-- `outsAt` at a point that is neither the first nor the last: over what the point before left. -/
theorem outsAt_later (c : Dev nD) (t : Fin cfg0.N) (h0 : t.val ≠ 0) (h24 : ¬t.val = 24) (hF : ¬condFirst (grid0.coords t)) (hL : condLater (grid0.coords t)) (hE : ¬condLast (grid0.coords t)) :
    outsAt m ρ c t.val t.isLt = (outIdle, soutLater c (grid0.coords t) (ms0 t) (hs0 t) (ms1 t) (hs1 t) (ms2 t) (hs2 t) (ms3 t) (hs3 t) (ms4 t) (hs4 t) (ms5 t) (hs5 t) scM (Memref.isWhole_whole _) hF hL hE (iblk m ρ c 0 t) (iblk m ρ c 1 t) (iblk m ρ c 2 t) (iblk m ρ c 3 t) (iblk m ρ c 4 t) (outsAt m ρ c (t.val - 1) (Nat.lt_of_le_of_lt (Nat.sub_le _ _) t.isLt)).2) := by
  obtain ⟨n, hn⟩ := t
  cases n with
  | zero => exact absurd rfl h0
  | succ n => exact (dif_neg h24).trans rfl

/-- `outsAt` at the last point: both components over what the point before left. -/
theorem outsAt_last (c : Dev nD) (t : Fin cfg0.N) (h24 : t.val = 24) (hF : ¬condFirst (grid0.coords t)) (hL : condLater (grid0.coords t)) (hE : condLast (grid0.coords t)) :
    outsAt m ρ c t.val t.isLt = (outLast5 c (grid0.coords t) (ms0 t) (hs0 t) (ms1 t) (hs1 t) (ms2 t) (hs2 t) (ms3 t) (hs3 t) (ms4 t) (hs4 t) (ms5 t) (hs5 t) scM (Memref.isWhole_whole _) hF hL hE (iblk m ρ c 0 t) (iblk m ρ c 1 t) (iblk m ρ c 2 t) (iblk m ρ c 3 t) (iblk m ρ c 4 t) (outsAt m ρ c (t.val - 1) (Nat.lt_of_le_of_lt (Nat.sub_le _ _) t.isLt)).2,
      soutLast c (grid0.coords t) (ms0 t) (hs0 t) (ms1 t) (hs1 t) (ms2 t) (hs2 t) (ms3 t) (hs3 t) (ms4 t) (hs4 t) (ms5 t) (hs5 t) scM (Memref.isWhole_whole _) hF hL hE (iblk m ρ c 0 t) (iblk m ρ c 1 t) (iblk m ρ c 2 t) (iblk m ρ c 3 t) (iblk m ρ c 4 t) (outsAt m ρ c (t.val - 1) (Nat.lt_of_le_of_lt (Nat.sub_le _ _) t.isLt)).2) := by
  obtain ⟨n, hn⟩ := t
  cases n with
  | zero => exact absurd h24 (show ¬ (0 : ℕ) = 24 from by decide)
  | succ n => exact (dif_pos h24).trans rfl

/-- The region's invariant before position `n`: before the first point the accumulator at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m ρ c n hn).2)) ∗ (∃ r, prngReg c r))

theorem PhiS_zero (c : Dev nD) (n : ℕ) (h : n ≤ cfg0.N) (hz : n = 0) : PhiS m ρ c n h = Pipeline.ΦA spec0 c := by
  subst hz; rfl

theorem PhiS_succ (c : Dev nD) (n : ℕ) (hn : n < cfg0.N) :
    PhiS m ρ c (n + 1) hn = iprop(iprop(owns (c : Thread nD τ) scM fullShare ((outsAt m ρ c n hn).2)) ∗ (∃ r, prngReg c r)) := rfl

theorem PhiS_pos (c : Dev nD) (n : ℕ) (h : n ≤ cfg0.N) (hz : n ≠ 0) :
    PhiS m ρ c n h = iprop(iprop(owns (c : Thread nD τ) scM fullShare ((outsAt m ρ c (n - 1) (by omega)).2)) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at `outsAt`'s first component; the invariant `PhiS`;
    nothing owed; the transposed x, read through windows 0 and 1, held half and half, every other array whole. -/
def dat0 (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => (outsAt m ρ c t.val t.isLt).1
  Φ t := PhiS m ρ c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 m ρ c).A w = V m ρ c (Pipeline.arrRef spec0 w) := by
  dsimp only [dat0]

theorem PhiS_castSucc (c : Dev nD) (t : Fin cfg0.N) :
    (dat0 m ρ c).Φ t.castSucc = PhiS m ρ c t.val (Nat.le_of_lt t.isLt) := by
  dsimp only [dat0]; simp only [Fin.coe_castSucc]

theorem after0 (c : Dev nD) (t : Fin cfg0.N) : (dat0 m ρ c).after 0 t = iblk m ρ c 0 t := by dsimp only [dat0]
theorem after1 (c : Dev nD) (t : Fin cfg0.N) : (dat0 m ρ c).after 1 t = iblk m ρ c 1 t := by dsimp only [dat0]
theorem after2 (c : Dev nD) (t : Fin cfg0.N) : (dat0 m ρ c).after 2 t = iblk m ρ c 2 t := by dsimp only [dat0]
theorem after3 (c : Dev nD) (t : Fin cfg0.N) : (dat0 m ρ c).after 3 t = iblk m ρ c 3 t := by dsimp only [dat0]
theorem after4 (c : Dev nD) (t : Fin cfg0.N) : (dat0 m ρ c).after 4 t = iblk m ρ c 4 t := by dsimp only [dat0]
theorem after5 (c : Dev nD) (t : Fin cfg0.N) : (dat0 m ρ c).after 5 t = (outsAt m ρ c t.val t.isLt).1 := by dsimp only [dat0]

theorem before0 (c : Dev nD) (t : Fin cfg0.N) (d) : (dat0 m ρ c).before 0 t d = iblk m ρ c 0 t :=
  before0_of m ρ (dat0 m ρ c) (A_eq m ρ c 0) (after0 m ρ c) t d
theorem before1 (c : Dev nD) (t : Fin cfg0.N) (d) : (dat0 m ρ c).before 1 t d = iblk m ρ c 1 t :=
  before1_of m ρ (dat0 m ρ c) (A_eq m ρ c 1) (after1 m ρ c) t d
theorem before2 (c : Dev nD) (t : Fin cfg0.N) (d) : (dat0 m ρ c).before 2 t d = iblk m ρ c 2 t :=
  before2_of m ρ (dat0 m ρ c) (A_eq m ρ c 2) (after2 m ρ c) t d
theorem before3 (c : Dev nD) (t : Fin cfg0.N) (d) : (dat0 m ρ c).before 3 t d = iblk m ρ c 3 t :=
  before3_of m ρ (dat0 m ρ c) (A_eq m ρ c 3) (after3 m ρ c) t d
theorem before4 (c : Dev nD) (t : Fin cfg0.N) (d) : (dat0 m ρ c).before 4 t d = iblk m ρ c 4 t :=
  before4_of m ρ (dat0 m ρ c) (A_eq m ρ c 4) (after4 m ρ c) t d

/-! ## The body obligation, at a generic point -/

/-- What the body is called with at point `t`, the windows one by one, -/
def bodyPre (c : Dev nD) (t : Fin cfg0.N) : sProp 𝕄 :=
  iprop((dat0 m ρ c).Φ t.castSucc ∗ (dat0 m ρ c).owesAt () t.castSucc
    ∗ (∃ d, owns (c : Thread nD τ) (ms0 t) fullShare ((dat0 m ρ c).before 0 t d))
    ∗ (∃ d, owns (c : Thread nD τ) (ms1 t) fullShare ((dat0 m ρ c).before 1 t d))
    ∗ (∃ d, owns (c : Thread nD τ) (ms2 t) fullShare ((dat0 m ρ c).before 2 t d))
    ∗ (∃ d, owns (c : Thread nD τ) (ms3 t) fullShare ((dat0 m ρ c).before 3 t d))
    ∗ (∃ d, owns (c : Thread nD τ) (ms4 t) fullShare ((dat0 m ρ c).before 4 t d))
    ∗ (∃ d, owns (c : Thread nD τ) (ms5 t) fullShare ((dat0 m ρ c).before 5 t d)))

/-- and what it returns. -/
def bodyPost (c : Dev nD) (t : Fin cfg0.N) : sProp 𝕄 :=
  iprop((dat0 m ρ c).Φ t.succ ∗ (dat0 m ρ c).owesAt () t.succ
    ∗ (dat0 m ρ c).leavesExact 0 t
    ∗ (dat0 m ρ c).leavesExact 1 t
    ∗ (dat0 m ρ c).leavesExact 2 t
    ∗ (dat0 m ρ c).leavesExact 3 t
    ∗ (dat0 m ρ c).leavesExact 4 t
    ∗ (dat0 m ρ c).leavesExact 5 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4]
  rw [show (dat0 m ρ c).owesAt () t.succ = (dat0 m ρ c).owesAt () t.castSucc from rfl]
  rw [show (dat0 m ρ c).Φ t.succ = PhiS m ρ c (t.val + 1) t.isLt from rfl, PhiS_succ]
  have hN : t.val < 25 := lt_of_lt_of_eq t.isLt (show cfg0.N = 25 from N_0)
  by_cases h0 : t.val = 0
  · have hF : condFirst (grid0.coords t) := (hcondFirst t).mpr h0
    have hL : ¬condLater (grid0.coords t) := fun h => (hcondLater t).mp h h0
    have hE : ¬condLast (grid0.coords t) := fun h => by have := (hcondLast t).mp h; omega
    rw [show (dat0 m ρ c).leavesExact 0 t = owns (c : Thread nD τ) (ms0 t) fullShare ((dat0 m ρ c).after 0 t) from by
      unfold Dat.leavesExact; rw [live0 t], after0]
    rw [show (dat0 m ρ c).leavesExact 1 t = owns (c : Thread nD τ) (ms1 t) fullShare ((dat0 m ρ c).after 1 t) from by
      unfold Dat.leavesExact; rw [live1 t], after1]
    rw [show (dat0 m ρ c).leavesExact 2 t = owns (c : Thread nD τ) (ms2 t) fullShare ((dat0 m ρ c).after 2 t) from by
      unfold Dat.leavesExact; rw [live2 t], after2]
    rw [show (dat0 m ρ c).leavesExact 3 t = owns (c : Thread nD τ) (ms3 t) fullShare ((dat0 m ρ c).after 3 t) from by
      unfold Dat.leavesExact; rw [live3 t], after3]
    rw [show (dat0 m ρ c).leavesExact 4 t = owns (c : Thread nD τ) (ms4 t) fullShare ((dat0 m ρ c).after 4 t) from by
      unfold Dat.leavesExact; rw [live4 t], after4]
    rw [Dat.leavesExact_idle (dat0 m ρ c) 5 t (idle5 t hE) (noFlush5 t hE)]
    rw [outsAt_first m ρ c t h0 hF hL hE]
    unfold soutFirst; (try dsimp only)
    rw [PhiS_castSucc m ρ c t, PhiS_zero m ρ c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ hF hL hE (iblk m ρ c 0 t) (iblk m ρ c 1 t) (iblk m ρ c 2 t) (iblk m ρ c 3 t) (iblk m ρ c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS Hg]
    · isplitl [HS]
      · unfold owns; iexists _; isplitr
        swap; · iexact HS
        ipureintro; exact View.read_writes_of_cover _ _ _ _ _ (scoverFirst c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hF : ¬condFirst (grid0.coords t) := fun h => h0 ((hcondFirst t).mp h)
    have hL : condLater (grid0.coords t) := (hcondLater t).mpr h0
    by_cases h24 : t.val = 24
    · have hE : condLast (grid0.coords t) := (hcondLast t).mpr h24
      rw [show (dat0 m ρ c).leavesExact 0 t = owns (c : Thread nD τ) (ms0 t) fullShare ((dat0 m ρ c).after 0 t) from by
        unfold Dat.leavesExact; rw [live0 t], after0]
      rw [show (dat0 m ρ c).leavesExact 1 t = owns (c : Thread nD τ) (ms1 t) fullShare ((dat0 m ρ c).after 1 t) from by
        unfold Dat.leavesExact; rw [live1 t], after1]
      rw [show (dat0 m ρ c).leavesExact 2 t = owns (c : Thread nD τ) (ms2 t) fullShare ((dat0 m ρ c).after 2 t) from by
        unfold Dat.leavesExact; rw [live2 t], after2]
      rw [show (dat0 m ρ c).leavesExact 3 t = owns (c : Thread nD τ) (ms3 t) fullShare ((dat0 m ρ c).after 3 t) from by
        unfold Dat.leavesExact; rw [live3 t], after3]
      rw [show (dat0 m ρ c).leavesExact 4 t = owns (c : Thread nD τ) (ms4 t) fullShare ((dat0 m ρ c).after 4 t) from by
        unfold Dat.leavesExact; rw [live4 t], after4]
      rw [show (dat0 m ρ c).leavesExact 5 t = owns (c : Thread nD τ) (ms5 t) fullShare ((dat0 m ρ c).after 5 t) from by
        unfold Dat.leavesExact; rw [live5 t hE], after5]
      rw [outsAt_last m ρ c t h24 hF hL hE]
      unfold outLast5 soutLast; (try dsimp only)
      rw [PhiS_castSucc m ρ c t, PhiS_pos m ρ c _ _ h0]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ hF hL hE (iblk m ρ c 0 t) (iblk m ρ c 1 t) (iblk m ρ c 2 t) (iblk m ρ c 3 t) (iblk m ρ c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast5 c _ _ _ _ _ _ _ _ _ _ _ _ _ _ _ _ _ _ _ _ _ _ _ _)
    · have hE : ¬condLast (grid0.coords t) := fun h => h24 ((hcondLast t).mp h)
      rw [show (dat0 m ρ c).leavesExact 0 t = owns (c : Thread nD τ) (ms0 t) fullShare ((dat0 m ρ c).after 0 t) from by
        unfold Dat.leavesExact; rw [live0 t], after0]
      rw [show (dat0 m ρ c).leavesExact 1 t = owns (c : Thread nD τ) (ms1 t) fullShare ((dat0 m ρ c).after 1 t) from by
        unfold Dat.leavesExact; rw [live1 t], after1]
      rw [show (dat0 m ρ c).leavesExact 2 t = owns (c : Thread nD τ) (ms2 t) fullShare ((dat0 m ρ c).after 2 t) from by
        unfold Dat.leavesExact; rw [live2 t], after2]
      rw [show (dat0 m ρ c).leavesExact 3 t = owns (c : Thread nD τ) (ms3 t) fullShare ((dat0 m ρ c).after 3 t) from by
        unfold Dat.leavesExact; rw [live3 t], after3]
      rw [show (dat0 m ρ c).leavesExact 4 t = owns (c : Thread nD τ) (ms4 t) fullShare ((dat0 m ρ c).after 4 t) from by
        unfold Dat.leavesExact; rw [live4 t], after4]
      rw [Dat.leavesExact_idle (dat0 m ρ c) 5 t (idle5 t hE) (noFlush5 t hE)]
      rw [outsAt_later m ρ c t h0 h24 hF hL hE]
      unfold soutLater; (try dsimp only)
      rw [PhiS_castSucc m ρ c t, PhiS_pos m ρ c _ _ h0]
      iintro ⟨⟨HS, Hg⟩, Ho, ⟨%d0, H0⟩, ⟨%d1, H1⟩, ⟨%d2, H2⟩, ⟨%d3, H3⟩, ⟨%d4, H4⟩, ⟨%d5, H5⟩⟩
      iapply ((runLater c (grid0.coords t) _ _ _ _ _ _ _ _ _ _ _ _ _ _ hF hL hE (iblk m ρ c 0 t) (iblk m ρ c 1 t) (iblk m ρ c 2 t) (iblk m ρ c 3 t) (iblk m ρ c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (scoverLater c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat0 (F := F) m ρ c) (defs₀ (F := F)) Variants.none () Set.univ := fun t => by
  rw [bigSep_W0, bigSep_W0]
  exact sound_body m ρ c t

/-- What the launch hands the region is the invariant before the first point. -/
theorem hin (c : Dev nD) : Pipeline.ΦA spec0 c ⊢ (dat0 m ρ c).Φ 0 := by
  rw [show (dat0 m ρ c).Φ 0 = PhiS m ρ c 0 (Nat.zero_le _) from rfl, PhiS_zero m ρ c 0 _ rfl]
  try exact Idealize.SL.BI.Entails.refl _

/-- After the last point the invariant gives the accumulator back at some contents. -/
theorem hout (c : Dev nD) : (dat0 m ρ c).Φ (Fin.last cfg0.N) ⊢ Pipeline.ΦA spec0 c := by
  rw [show (dat0 m ρ c).Φ (Fin.last cfg0.N) = PhiS m ρ c (Fin.last cfg0.N).val (Nat.le_of_lt_succ (Fin.last cfg0.N).isLt) from rfl,
    PhiS_pos m ρ c _ _ (by rw [Fin.val_last]; have : cfg0.N = 25 := N_0; omega), PhiA_eq]
  iintro ⟨HS, Hg⟩
  isplitl [HS]
  · iexists _; iexact HS
  iexact Hg

end Cert.Kernel.Hand

end
-- ==== Proof.KernelMain.lean ====
/-
  The run of the whole program: the three host operations, the region, the iota.

  The buffers' contents are followed from the launch to the return: after the host operations (`W1`), at the
  region's exit — the output array at what the pipeline's write-back leaves, every other buffer as entered
  (`W2`) —, after the iota (`W3`).  The transposed x sits behind two windows; at the region's entry its one
  buffer is dealt to them half and half, at the exit the halves are joined again.  The kernel keeps no semaphore of
  its own and owes nothing, so the region's thread state is the unscoped buffers, the generator register and an
  empty debt.
-/
import proofs.«103525_g86423331930547_cont_9to1_m_1251_21_alg».proof.Proof.KernelFrame

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the later boundaries -/

/-- At the region's exit: the output's array at what the pipeline leaves, every other buffer as entered. -/
def W2 (c : Dev nD) : Valuation τ sig (Elt F) := fun b =>
  if h : b = Proc.devRef .tc main_v3 then
    h ▸ (show (Proc.devRef .tc main_v3 : DevRef τ sig).ty.Contents (Elt F) from (dat0 m ρ c).arrAt 5 cfg0.N)
  else W1 m ρ c b

theorem W2_out (c : Dev nD) : W2 m ρ c (Proc.devRef .tc main_v3) = (dat0 m ρ c).arrAt 5 cfg0.N := by
  unfold W2; rw [dif_pos rfl]

theorem W2_of_ne (c : Dev nD) (b : Ref sig .tc) (hb : b ≠ main_v3) :
    W2 m ρ c (Proc.devRef .tc b) = W1 m ρ c (Proc.devRef .tc b) := by
  unfold W2; rw [dif_neg]; exact fun e => hb (Proc.devRef_injective _ e)

abbrev V2 : (c : Dev nD) → (b : Ref sig .tc) → Buf (Elt F) ((c : Thread nD τ).loc b) := fun c b => W2 m ρ c b
/-- After the iota. -/
abbrev W3 : Dev nD → Valuation τ sig (Elt F) := fun c => StableHlo.after hostOps1 (W2 m ρ c)

/-! ## The windows' arrays, one by one -/

/-- The five distinct buffers behind the six windows. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_arg1) ↦{fullShare} Vc main_arg1)
          ∗ (((c : Thread nD τ).loc main_v1) ↦{fullShare} Vc main_v1) ∗ (((c : Thread nD τ).loc main_v2) ↦{fullShare} Vc main_v2)
          ∗ (((c : Thread nD τ).loc main_v3) ↦{fullShare} Vc main_v3)) := by
  unfold Pipeline.arrBufs
  exact BI.bigSep_eq_bigSepL_of_eq [main_v0, main_arg1, main_v1, main_v2, main_v3] (by decide) (by decide) _

/-- The proof data's arrays: the transposed x twice, at the two halves of its share; the others whole. -/
theorem arrays_eq (c : Dev nD) (Fw : (w : Fin cfg0.W) → Buf (Elt F) ((cfg0.win w).arr.view.loc (c : Thread nD τ))) :
    (dat0 m ρ c).arrays Fw
      = iprop((((c : Thread nD τ).loc main_v0) ↦{fullShare.left} Fw 0) ∗ (((c : Thread nD τ).loc main_v0) ↦{fullShare.right} Fw 1)
          ∗ (((c : Thread nD τ).loc main_arg1) ↦{fullShare} Fw 2) ∗ (((c : Thread nD τ).loc main_v1) ↦{fullShare} Fw 3)
          ∗ (((c : Thread nD τ).loc main_v2) ↦{fullShare} Fw 4) ∗ (((c : Thread nD τ).loc main_v3) ↦{fullShare} Fw 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-! ## Into the region and out of it -/

/-- An input window's array is, at every point, as it was entered. -/
theorem arrAt_in0 (c : Dev nD) (n : ℕ) : (dat0 m ρ c).arrAt 0 n = V m ρ c main_v0 := ((dat0 m ρ c).arrAt_in 0 rfl n).trans (A_eq m ρ c 0)
theorem arrAt_in1 (c : Dev nD) (n : ℕ) : (dat0 m ρ c).arrAt 1 n = V m ρ c main_v0 := ((dat0 m ρ c).arrAt_in 1 rfl n).trans (A_eq m ρ c 1)
theorem arrAt_in2 (c : Dev nD) (n : ℕ) : (dat0 m ρ c).arrAt 2 n = V m ρ c main_arg1 := ((dat0 m ρ c).arrAt_in 2 rfl n).trans (A_eq m ρ c 2)
theorem arrAt_in3 (c : Dev nD) (n : ℕ) : (dat0 m ρ c).arrAt 3 n = V m ρ c main_v1 := ((dat0 m ρ c).arrAt_in 3 rfl n).trans (A_eq m ρ c 3)
theorem arrAt_in4 (c : Dev nD) (n : ℕ) : (dat0 m ρ c).arrAt 4 n = V m ρ c main_v2 := ((dat0 m ρ c).arrAt_in 4 rfl n).trans (A_eq m ρ c 4)
/-- The output's array before the first point is as entered. -/
theorem arrAt_out_zero (c : Dev nD) : (dat0 m ρ c).arrAt 5 0 = V m ρ c main_v3 := A_eq m ρ c 5

/-- A buffer held whole is held half and half. -/
theorem halves (c : Dev nD) (f : Buf (Elt F) ((c : Thread nD τ).loc main_v0)) :
    ((((c : Thread nD τ).loc main_v0) ↦{fullShare} f : sProp 𝕄))
      ⊣⊢ iprop((((c : Thread nD τ).loc main_v0) ↦{fullShare.left} f) ∗ (((c : Thread nD τ).loc main_v0) ↦{fullShare.right} f)) :=
  pointsTo_share (PosShare.mem_left_op_right fullShare)

/-- ENTRY: the unscoped buffers at the entry contents are the proof data's arrays at their entry contents — the
    transposed x's one buffer dealt half and half to its two windows — and the buffers no window stages. -/
theorem arrays_of_unscopedBufs (c : Dev nD) :
    (unscopedBufs c (V m ρ c) : sProp 𝕄)
      ⊢ iprop((dat0 m ρ c).arrays ((dat0 m ρ c).arrAt · 0)
          ∗ Pipeline.unscopedRest (Ix := Unit) (Name := ℕ) (U := UR sig nD τ) (Lvl := ℕ) spec0 c (V m ρ c)) := by
  rw [Pipeline.unscopedBufs_split₀ cfgs (0 : Fin 1) winFacts₀0.arr_unscoped c (V m ρ c), arrBufs_eq, arrays_eq]
  rw [arrAt_in0, arrAt_in1, arrAt_in2, arrAt_in3, arrAt_in4, arrAt_out_zero]
  have hs := (halves (F := F) c (V m ρ c main_v0)).1
  iintro ⟨⟨H0, H1, H2, H3, H4⟩, Hrest⟩
  isplitr [Hrest]
  swap; · iexact Hrest
  ihave H0' := hs $$ H0
  icases H0' with ⟨H0l, H0r⟩
  isplitl [H0l]; · iexact H0l
  isplitl [H0r]; · iexact H0r
  isplitl [H1]; · iexact H1
  isplitl [H2]; · iexact H2
  isplitl [H3]; · iexact H3
  iexact H4

/-- EXIT: the arrays at their final contents — the two halves of the transposed x joined again — and the buffers
    no window stages are the unscoped buffers at the exit contents. -/
theorem unscopedBufs_of_arrays (c : Dev nD) :
    iprop((dat0 m ρ c).arrays ((dat0 m ρ c).arrAt · cfg0.N)
        ∗ Pipeline.unscopedRest (Ix := Unit) (Name := ℕ) (U := UR sig nD τ) (Lvl := ℕ) spec0 c (V m ρ c))
      ⊢ (unscopedBufs c (V2 m ρ c) : sProp 𝕄) := by
  rw [Pipeline.unscopedBufs_split₀ cfgs (0 : Fin 1) winFacts₀0.arr_unscoped c (V2 m ρ c), arrBufs_eq, arrays_eq,
    unscopedRest0_eq, unscopedRest0_eq]
  rw [arrAt_in0, arrAt_in1, arrAt_in2, arrAt_in3, arrAt_in4]
  rw [show V2 m ρ c main_v0 = V m ρ c main_v0 from W2_of_ne m ρ c main_v0 (by decide),
    show V2 m ρ c main_arg1 = V m ρ c main_arg1 from W2_of_ne m ρ c main_arg1 (by decide),
    show V2 m ρ c main_v1 = V m ρ c main_v1 from W2_of_ne m ρ c main_v1 (by decide),
    show V2 m ρ c main_v2 = V m ρ c main_v2 from W2_of_ne m ρ c main_v2 (by decide),
    show V2 m ρ c main_v3 = (dat0 m ρ c).arrAt 5 cfg0.N from W2_out m ρ c,
    show V2 m ρ c main_arg0 = V m ρ c main_arg0 from W2_of_ne m ρ c main_arg0 (by decide),
    show V2 m ρ c main_arg2 = V m ρ c main_arg2 from W2_of_ne m ρ c main_arg2 (by decide),
    show V2 m ρ c main_arg3 = V m ρ c main_arg3 from W2_of_ne m ρ c main_arg3 (by decide),
    show V2 m ρ c main_v4 = V m ρ c main_v4 from W2_of_ne m ρ c main_v4 (by decide)]
  iintro ⟨⟨H0l, H0r, H1, H2, H3, H4⟩, Hrest⟩
  isplitr [Hrest]
  swap; · iexact Hrest
  isplitl [H0l H0r]
  · iapply (halves (F := F) c (V m ρ c main_v0)).2
    isplitl [H0l] <;> iassumption
  isplitl [H1]; · iexact H1
  isplitl [H2]; · iexact H2
  isplitl [H3]; · iexact H3
  iexact H4

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 m ρ c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and an empty debt. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`.  Its arrays are
    dealt out of the unscoped buffers and put back at the exit contents; the generator register goes into the
    invariant and comes out; nothing is owed; the kernel has no semaphore of its own. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V m ρ c)
  hentry c := by
    rw [Pipeline.ownSems0_none]
    have hsplit := arrays_of_unscopedBufs m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout m ρ c).trans ?_
    unfold Pipeline.ΦA
    iintro ⟨Hr, Hp⟩
    isplitl [Hp]; · iexact Hp
    isplitr; · iempintro
    iexact Hr
  hexit c := by
    have hjoin := unscopedBufs_of_arrays m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- At the compiled mesh, for any values, from any memory with zero counters: every weakly fair execution of the
    program terminates, nothing faulting, and every final state has every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitr [HO]
      swap; · iexact HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.KernelEnd.lean ====
/-
  The program's run read at the buffers the claims speak of.

  The output array is what the pipeline's write-back leaves (the iota does not touch it); the second result is the
  iota; each argument is read back through the three boundaries to the launch memory — no host operation and no
  window writes an argument (the region reads x only through its transpose).
-/
import proofs.«103525_g86423331930547_cont_9to1_m_1251_21_alg».proof.Proof.KernelMain

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result ends at what the region leaves in the output's array. -/
theorem W3_out (c : Dev nD) : W3 m ρ c (Proc.devRef .tc main_v3) = (dat0 m ρ c).arrAt 5 cfg0.N :=
  (StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_out m ρ c)

/-- The second result is the iota over the 20000 genes. -/
theorem W3_iota (c : Dev nD) : W3 m ρ c (Proc.devRef .tc main_v4) = iotaInDim S20000 32 0 := by
  show StableHlo.after hostOps1 (W2 m ρ c) (Proc.devRef .tc main_v4) = _
  after_results

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The frame: the program runs to the end from any memory with zero counters, nothing faulting, and its four
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

/-- The same run with the two results named: the output's array as the pipeline leaves it, and the iota. -/
theorem run_named : θ_run defs (onTc (τ := τ) (main (F := F))) ⟨m, fun _ => 0, ρ⟩ (fun r => ∀ c : Dev nD,
      r.2.mem ((c.tc : Thread nD τ).loc main_v3) = (dat0 m ρ c).arrAt 5 cfg0.N
      ∧ r.2.mem ((c.tc : Thread nD τ).loc main_v4) = iotaInDim S20000 32 0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W3_out m ρ c),
     (h c _ (mem_uc main_v4 (by decide))).trans (W3_iota m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.Kernel.Hand

end
-- ==== Proof.KernelIdealBase.lean ====
/-
  The region of the embedding kernel, the part every later module shares.

  The program transposes x, reshapes the scale and the bias to columns, and then runs ONE pipelined region over
  25 grid points: point k multiplies rows 800k … 800k+799 of the embedding table against the matching rows of the
  two column halves of xᵀ and accumulates the two [128, 2048] products in a [128, 4096] scratch that lives across
  the points (stored at k = 0, added to at k > 0); the last point also normalises the scratch and stores the
  transposed result into the output block, which the pipeline writes back there and only there.
  Here: the buffers' contents when the region is entered, each window's block at a point, the three conditions of
  the body's branches in closed form over the grid, where the output window is idle, and the names of the memrefs
  the body is called with.
-/
import proofs.«103525_g86423331930547_cont_9to1_m_1251_21_alg».proof.Proof.Gen.KernelIdeal.Launch
import proofs.«103525_g86423331930547_cont_9to1_m_1251_21_alg».proof.Proof.Gen.KernelIdeal.Skeleton
import proofs.«103525_g86423331930547_cont_9to1_m_1251_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region's entry -/

/-- Core `c`'s buffers at launch. -/
abbrev W0 : Dev nD → Valuation τ sig (Elt F) := fun c b => (s₀ m ρ).mem ((c : Dev nD), b)
/-- After the three host operations before the region (the transpose of x, the two reshapes). -/
abbrev W1 : Dev nD → Valuation τ sig (Elt F) := fun c => StableHlo.after hostOps0 (W0 m ρ c)
/-- The same read at the TensorCore's references: what the region finds. -/
abbrev V : (c : Dev nD) → (b : Ref sig .tc) → Buf (Elt F) ((c : Thread nD τ).loc b) := fun c b => W1 m ρ c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- Input window 0's current staging buffer holds its block at every point, fetched there or not: where the
    pipeline does not fetch it the block index has not moved and the body left the block in place. -/
theorem before0_of {c : Dev nD} (dat : Dat τ (Elt F) Unit ℕ (UR sig nD τ) ℕ cfg0 c) (hA : dat.A 0 = V m ρ c (Pipeline.arrRef spec0 0))
    (hafter : ∀ t, dat.after 0 t = iblk m ρ c 0 t) (t : Fin cfg0.N) (d) : dat.before 0 t d = iblk m ρ c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the
    pipeline does not fetch it the block index has not moved and the body left the block in place. -/
theorem before1_of {c : Dev nD} (dat : Dat τ (Elt F) Unit ℕ (UR sig nD τ) ℕ cfg0 c) (hA : dat.A 1 = V m ρ c (Pipeline.arrRef spec0 1))
    (hafter : ∀ t, dat.after 1 t = iblk m ρ c 1 t) (t : Fin cfg0.N) (d) : dat.before 1 t d = iblk m ρ c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the
    pipeline does not fetch it the block index has not moved and the body left the block in place. -/
theorem before2_of {c : Dev nD} (dat : Dat τ (Elt F) Unit ℕ (UR sig nD τ) ℕ cfg0 c) (hA : dat.A 2 = V m ρ c (Pipeline.arrRef spec0 2))
    (hafter : ∀ t, dat.after 2 t = iblk m ρ c 2 t) (t : Fin cfg0.N) (d) : dat.before 2 t d = iblk m ρ c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the
    pipeline does not fetch it the block index has not moved and the body left the block in place. -/
theorem before3_of {c : Dev nD} (dat : Dat τ (Elt F) Unit ℕ (UR sig nD τ) ℕ cfg0 c) (hA : dat.A 3 = V m ρ c (Pipeline.arrRef spec0 3))
    (hafter : ∀ t, dat.after 3 t = iblk m ρ c 3 t) (t : Fin cfg0.N) (d) : dat.before 3 t d = iblk m ρ c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the
    pipeline does not fetch it the block index has not moved and the body left the block in place. -/
theorem before4_of {c : Dev nD} (dat : Dat τ (Elt F) Unit ℕ (UR sig nD τ) ℕ cfg0 c) (hA : dat.A 4 = V m ρ c (Pipeline.arrRef spec0 4))
    (hafter : ∀ t, dat.after 4 t = iblk m ρ c 4 t) (t : Fin cfg0.N) (d) : dat.before 4 t d = iblk m ρ c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's three branch conditions, in closed form over the grid -/

/-- "This is the first point": the condition of the branch that stores the products into the scratch. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- "This is a later point": the condition of the branch that adds the products to the scratch. -/
abbrev condLater (i : grid0.Coords) : Prop := (Scalar.cmpi .ne (Scalar.extui (Scalar.cmpi .sgt (BitVec.ofNat 32 (i 0).val) 0#32)) 0#32) = 1#1
theorem hcondLater : ∀ t : Fin cfg0.N, condLater (grid0.coords t) ↔ t.val ≠ 0 :=
  (by decide +kernel : ∀ t : Fin grid0.N, condLater (grid0.coords t) ↔ t.val ≠ 0)

/-- "This is the last point": the condition of the branch that normalises and stores the result. -/
abbrev condLast (i : grid0.Coords) : Prop := k0_cond3 i = 1#1
theorem hcondLast : ∀ t : Fin cfg0.N, condLast (grid0.coords t) ↔ t.val = 24 :=
  (by decide +kernel : ∀ t : Fin grid0.N, condLast (grid0.coords t) ↔ t.val = 24)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Before the last point the body stores nothing into the output window, -/
theorem idle5 : ∀ t : Fin cfg0.N, ¬condLast (grid0.coords t) → cfg0.idle 5 (grid0.coords t) = true := by decide +kernel
/-- and the pipeline does not write its block back there; -/
theorem noFlush5 : ∀ t : Fin cfg0.N, ¬condLast (grid0.coords t) → (cfg0.win 5).flush t = false := by decide +kernel
/-- at the last point it stores the whole block. -/
theorem live5 : ∀ t : Fin cfg0.N, condLast (grid0.coords t) → cfg0.idle 5 (grid0.coords t) = false := by decide +kernel

/-! ## The memrefs the body is called with -/

/-- The output window's one staging buffer as a view: what it holds is stated through it. -/
abbrev VO : View sig .tc .vmem S4096x128 .f32 := (Memref.whole cc0_stg5_0 : Memref sig .tc .vmem S4096x128 .f32).view
abbrev ms0 (t : Fin cfg0.N) : Memref sig .tc .vmem S800x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S800x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S800x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x128 .f32 := win0_5.stage (cfg0.slots t 5)
abbrev hs5 (t : Fin cfg0.N) : (ms5 t).IsWhole := hstage0_5 ((cfg0.slots t 5).cast nbuf0_5)
/-- The accumulator: a whole scoped buffer of the kernel's own, passed beside the windows and kept across the points. -/
abbrev scM : Memref sig .tc .vmem S128x4096 .f32 := Memref.whole cc0_scratch0
abbrev VS : View sig .tc .vmem S128x4096 .f32 := scM.view

/-- The region's plain invariant with the accumulator named: the accumulator at some contents, the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KernelIdealRunFirst.lean ====
/-
  The body at the FIRST grid point.  It loads the embedding block and the two blocks of xᵀ, and — the point being
  the first — stores the two products into the two column halves of the accumulator; the other two branches are
  not taken, so the output block is handed back untouched.  What the accumulator ends with is found by running
  the body symbolically: two pieces, one per column half, over whatever it held.
-/
import proofs.«103525_g86423331930547_cont_9to1_m_1251_21_alg».proof.Proof.KernelIdealBase

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body on whole staging memrefs at a point where only the first branch is taken: the inputs at their contents
    and the output block at any contents come back as they were, the accumulator — entered at anything — ends with
    the pieces `LS` written, which the run finds. -/
noncomputable def runFirst (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : condFirst i) (hL : ¬condLater i) (hE : ¬condLast i)
    (x0 : Vec F S800x2048 .f32) (x1 : Vec F S800x2048 .f32) (x2 : Vec F S800x128 .f32) (x3 : Vec F S128x1 .f32) (x4 : Vec F S128x1 .f32) :
    Σ' (L5 : List (View.Piece (Elt F) S4096x128 .f32)), { LS : List (View.Piece (Elt F) S128x4096 .f32) //
      ∀ (xi5 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc0__embed_kernel i arg1 harg1 arg2 harg2 arg3 harg3 arg4 harg4 arg5 harg5 arg6 harg6 arg7 harg7) K } := by
  refine ⟨[], ?_, fun xi5 E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hF | exact hL | exact hE)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

end Cert.KernelIdeal.Hand

end
-- ==== Proof.KernelIdealRunLater.lean ====
/-
  The body at a point that is neither the first nor the last.  It loads the same three blocks, reads the two
  column halves of the accumulator as the point before left them, adds the two products and stores the sums back;
  the first and the last branch are not taken, so the output block is handed back untouched.
-/
import proofs.«103525_g86423331930547_cont_9to1_m_1251_21_alg».proof.Proof.KernelIdealRunFirst

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body on whole staging memrefs at a point where only the adding branch is taken: the inputs and the output
    block come back as they were, the accumulator — entered at `xs` — ends with the pieces `LS` written. -/
noncomputable def runLater (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : ¬condLast i)
    (x0 : Vec F S800x2048 .f32) (x1 : Vec F S800x2048 .f32) (x2 : Vec F S800x128 .f32) (x3 : Vec F S128x1 .f32) (x4 : Vec F S128x1 .f32) (xs : Vec F S128x4096 .f32) :
    Σ' (L5 : List (View.Piece (Elt F) S4096x128 .f32)), { LS : List (View.Piece (Elt F) S128x4096 .f32) //
      ∀ (xi5 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS)) -∗ K ⟨⟩))
          ⊢ wp frame (wpE (defs₀ (F := F)) Variants.none c none) E (cc0__embed_kernel i arg1 harg1 arg2 harg2 arg3 harg3 arg4 harg4 arg5 harg5 arg6 harg6 arg7 harg7) K } := by
  refine ⟨[], ?_, fun xi5 E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs
    sl_exec (disch := first | exact hF | exact hL | exact hE)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

end Cert.KernelIdeal.Hand

end
-- ==== Proof.KernelIdealRunLast.lean ====
/-
  The body at the LAST grid point.  It adds the last two products to the accumulator as at every later point, then
  reads the whole accumulator back, applies gelu, normalises each column over the 128 hidden entries, scales and
  shifts by the two [128, 1] columns, transposes, and stores the [4096, 128] result over the whole output block.
-/
import proofs.«103525_g86423331930547_cont_9to1_m_1251_21_alg».proof.Proof.KernelIdealRunLater

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 2000000 in
/-- The body on whole staging memrefs at the point where the adding branch and the last branch are taken: the inputs
    come back as they were, the accumulator — entered at `xs` — ends with the pieces `LS` written, the output
    block — entered at anything — with the pieces `L5`. -/
noncomputable def runLast (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) :
    Σ' (L5 : List (View.Piece (Elt F) S4096x128 .f32)), { LS : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__embed_kernel i arg1 harg1 arg2 harg2 arg3 harg3 arg4 harg4 arg5 harg5 arg6 harg6 arg7 harg7) K } := by
  refine ⟨?_, ?_, fun E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs
    sl_exec (disch := first | exact hF | exact hL | exact hE)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Hand

end
-- ==== Proof.KernelIdealFrame.lean ====
/-
  The region's proof data and the body at every grid point.

  After point k the accumulator holds what the case of that point leaves over what point k − 1 left (at k = 0:
  over nothing, the two stores cover it); the output block is stored only at the last point, from the accumulator
  as that same point leaves it.  `outsAt` is that recursion; the invariant carries the accumulator's contents
  from point to point; the proof data name, for every window, what its staging buffer holds after the body — an
  input its block, the output `outsAt`'s first component.  The transposed x is read through two windows (the two
  column halves of one array): each holds half of the array's share.
-/
import proofs.«103525_g86423331930547_cont_9to1_m_1251_21_alg».proof.Proof.KernelIdealRunLast

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The accumulator's pieces at such a point tile it: its two column halves. -/
theorem scoverFirst (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : condFirst i) (hL : ¬condLater i) (hE : ¬condLast i)
    (x0 : Vec F S800x2048 .f32) (x1 : Vec F S800x2048 .f32) (x2 : Vec F S800x128 .f32) (x3 : Vec F S128x1 .f32) (x4 : Vec F S128x1 .f32) (y : S128x4096.Idx) :
    ∃ pc ∈ (runFirst c i arg1 harg1 arg2 harg2 arg3 harg3 arg4 harg4 arg5 harg5 arg6 harg6 arg7 harg7 hF hL hE x0 x1 x2 x3 x4).2.1, y ∈ pc.1.set :=
  View.cover_of_tiledL (runFirst c i arg1 harg1 arg2 harg2 arg3 harg3 arg4 harg4 arg5 harg5 arg6 harg6 arg7 harg7 hF hL hE x0 x1 x2 x3 x4).2.1 S128x2048.size (by sl_kernel_rfl) y

/-- What such a point leaves in the accumulator: its pieces read back. -/
def soutFirst (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : condFirst i) (hL : ¬condLater i) (hE : ¬condLast i)
    (x0 : Vec F S800x2048 .f32) (x1 : Vec F S800x2048 .f32) (x2 : Vec F S800x128 .f32) (x3 : Vec F S128x1 .f32) (x4 : Vec F S128x1 .f32) : Vec F S128x4096 .f32 :=
  VS.read (Elt F) (VS.writes (Elt F) VS.junk (runFirst c i arg1 harg1 arg2 harg2 arg3 harg3 arg4 harg4 arg5 harg5 arg6 harg6 arg7 harg7 hF hL hE x0 x1 x2 x3 x4).2.1)

/-- The accumulator's pieces at such a point tile it: its two column halves. -/
theorem scoverLater (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : ¬condLast i)
    (x0 : Vec F S800x2048 .f32) (x1 : Vec F S800x2048 .f32) (x2 : Vec F S800x128 .f32) (x3 : Vec F S128x1 .f32) (x4 : Vec F S128x1 .f32) (xs : Vec F S128x4096 .f32) (y : S128x4096.Idx) :
    ∃ pc ∈ (runLater c i arg1 harg1 arg2 harg2 arg3 harg3 arg4 harg4 arg5 harg5 arg6 harg6 arg7 harg7 hF hL hE x0 x1 x2 x3 x4 xs).2.1, y ∈ pc.1.set :=
  View.cover_of_tiledL (runLater c i arg1 harg1 arg2 harg2 arg3 harg3 arg4 harg4 arg5 harg5 arg6 harg6 arg7 harg7 hF hL hE x0 x1 x2 x3 x4 xs).2.1 S128x2048.size (by sl_kernel_rfl) y

/-- What such a point leaves in the accumulator: its pieces read back. -/
def soutLater (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : ¬condLast i)
    (x0 : Vec F S800x2048 .f32) (x1 : Vec F S800x2048 .f32) (x2 : Vec F S800x128 .f32) (x3 : Vec F S128x1 .f32) (x4 : Vec F S128x1 .f32) (xs : Vec F S128x4096 .f32) : Vec F S128x4096 .f32 :=
  VS.read (Elt F) (VS.writes (Elt F) VS.junk (runLater c i arg1 harg1 arg2 harg2 arg3 harg3 arg4 harg4 arg5 harg5 arg6 harg6 arg7 harg7 hF hL hE x0 x1 x2 x3 x4 xs).2.1)

/-- The accumulator's pieces at such a point tile it: its two column halves. -/
theorem scoverLast (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) (y : S128x4096.Idx) :
    ∃ pc ∈ (runLast c i arg1 harg1 arg2 harg2 arg3 harg3 arg4 harg4 arg5 harg5 arg6 harg6 arg7 harg7 hF hL hE x0 x1 x2 x3 x4 xs).2.1, y ∈ pc.1.set :=
  View.cover_of_tiledL (runLast c i arg1 harg1 arg2 harg2 arg3 harg3 arg4 harg4 arg5 harg5 arg6 harg6 arg7 harg7 hF hL hE x0 x1 x2 x3 x4 xs).2.1 S128x2048.size (by sl_kernel_rfl) y

/-- What such a point leaves in the accumulator: its pieces read back. -/
def soutLast (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) : Vec F S128x4096 .f32 :=
  VS.read (Elt F) (VS.writes (Elt F) VS.junk (runLast c i arg1 harg1 arg2 harg2 arg3 harg3 arg4 harg4 arg5 harg5 arg6 harg6 arg7 harg7 hF hL hE x0 x1 x2 x3 x4 xs).2.1)

/-- The last point's one store covers the whole output block. -/
theorem coverLast5 (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) (y : S4096x128.Idx) :
    ∃ pc ∈ (runLast c i arg1 harg1 arg2 harg2 arg3 harg3 arg4 harg4 arg5 harg5 arg6 harg6 arg7 harg7 hF hL hE x0 x1 x2 x3 x4 xs).1, y ∈ pc.1.set :=
  View.cover_of_tiledL (runLast c i arg1 harg1 arg2 harg2 arg3 harg3 arg4 harg4 arg5 harg5 arg6 harg6 arg7 harg7 hF hL hE x0 x1 x2 x3 x4 xs).1 S4096x128.size (by sl_kernel_rfl) y

/-- What the last point leaves in the output block: its piece read back. -/
def outLast5 (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i)
    (x0 : Vec F S800x2048 .f32) (x1 : Vec F S800x2048 .f32) (x2 : Vec F S800x128 .f32) (x3 : Vec F S128x1 .f32) (x4 : Vec F S128x1 .f32) (xs : Vec F S128x4096 .f32) : Vec F S4096x128 .f32 :=
  VO.read (Elt F) (VO.writes (Elt F) VO.junk (runLast c i arg1 harg1 arg2 harg2 arg3 harg3 arg4 harg4 arg5 harg5 arg6 harg6 arg7 harg7 hF hL hE x0 x1 x2 x3 x4 xs).1)

/-- A placeholder for the output block where the body stores nothing into it: there the window is neither written
    back nor read again, and nothing consults this value. -/
def outIdle : Vec F S4096x128 .f32 := VO.read (Elt F) VO.junk

/-! ## The accumulation, point by point -/

/-- What the output block and the accumulator hold after the body at position `n`: the first point's stores; at a
    later point that point's case over what the point before left in the accumulator. -/
def outsAt (c : Dev nD) : (n : ℕ) → n < cfg0.N → Vec F S4096x128 .f32 × Vec F S128x4096 .f32
  | 0, hn => (outIdle, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcondFirst ⟨0, hn⟩).mpr rfl) (fun h => (hcondLater ⟨0, hn⟩).mp h rfl)
      (fun h => absurd ((hcondLast ⟨0, hn⟩).mp h) (show ¬ (0 : ℕ) = 24 from by decide)) (iblk m ρ c 0 ⟨0, hn⟩) (iblk m ρ c 1 ⟨0, hn⟩) (iblk m ρ c 2 ⟨0, hn⟩) (iblk m ρ c 3 ⟨0, hn⟩) (iblk m ρ c 4 ⟨0, hn⟩))
  | n + 1, hn =>
    if h : n + 1 = 24 then
      (outLast5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h' => absurd ((hcondFirst ⟨n + 1, hn⟩).mp h') (Nat.succ_ne_zero n)) ((hcondLater ⟨n + 1, hn⟩).mpr (Nat.succ_ne_zero n))
          ((hcondLast ⟨n + 1, hn⟩).mpr h) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (outsAt c n (Nat.lt_of_succ_lt hn)).2,
       soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h' => absurd ((hcondFirst ⟨n + 1, hn⟩).mp h') (Nat.succ_ne_zero n)) ((hcondLater ⟨n + 1, hn⟩).mpr (Nat.succ_ne_zero n))
          ((hcondLast ⟨n + 1, hn⟩).mpr h) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (outsAt c n (Nat.lt_of_succ_lt hn)).2)
    else
      (outIdle,
       soutLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h' => absurd ((hcondFirst ⟨n + 1, hn⟩).mp h') (Nat.succ_ne_zero n)) ((hcondLater ⟨n + 1, hn⟩).mpr (Nat.succ_ne_zero n))
          (fun h' => h ((hcondLast ⟨n + 1, hn⟩).mp h')) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (outsAt c n (Nat.lt_of_succ_lt hn)).2)

/-- `outsAt` at the first point. -/
theorem outsAt_first (c : Dev nD) (t : Fin cfg0.N) (h0 : t.val = 0) (hF : condFirst (grid0.coords t)) (hL : ¬condLater (grid0.coords t)) (hE : ¬condLast (grid0.coords t)) :
    outsAt m ρ c t.val t.isLt = (outIdle, soutFirst c (grid0.coords t) (ms0 t) (hs0 t) (ms1 t) (hs1 t) (ms2 t) (hs2 t) (ms3 t) (hs3 t) (ms4 t) (hs4 t) (ms5 t) (hs5 t) scM (Memref.isWhole_whole _) hF hL hE (iblk m ρ c 0 t) (iblk m ρ c 1 t) (iblk m ρ c 2 t) (iblk m ρ c 3 t) (iblk m ρ c 4 t)) := by
  obtain ⟨n, hn⟩ := t
  cases n with
  | zero => exact rfl
  | succ n => exact absurd h0 (Nat.succ_ne_zero n)

/-- `outsAt` at a point that is neither the first nor the last: over what the point before left. -/
theorem outsAt_later (c : Dev nD) (t : Fin cfg0.N) (h0 : t.val ≠ 0) (h24 : ¬t.val = 24) (hF : ¬condFirst (grid0.coords t)) (hL : condLater (grid0.coords t)) (hE : ¬condLast (grid0.coords t)) :
    outsAt m ρ c t.val t.isLt = (outIdle, soutLater c (grid0.coords t) (ms0 t) (hs0 t) (ms1 t) (hs1 t) (ms2 t) (hs2 t) (ms3 t) (hs3 t) (ms4 t) (hs4 t) (ms5 t) (hs5 t) scM (Memref.isWhole_whole _) hF hL hE (iblk m ρ c 0 t) (iblk m ρ c 1 t) (iblk m ρ c 2 t) (iblk m ρ c 3 t) (iblk m ρ c 4 t) (outsAt m ρ c (t.val - 1) (Nat.lt_of_le_of_lt (Nat.sub_le _ _) t.isLt)).2) := by
  obtain ⟨n, hn⟩ := t
  cases n with
  | zero => exact absurd rfl h0
  | succ n => exact (dif_neg h24).trans rfl

/-- `outsAt` at the last point: both components over what the point before left. -/
theorem outsAt_last (c : Dev nD) (t : Fin cfg0.N) (h24 : t.val = 24) (hF : ¬condFirst (grid0.coords t)) (hL : condLater (grid0.coords t)) (hE : condLast (grid0.coords t)) :
    outsAt m ρ c t.val t.isLt = (outLast5 c (grid0.coords t) (ms0 t) (hs0 t) (ms1 t) (hs1 t) (ms2 t) (hs2 t) (ms3 t) (hs3 t) (ms4 t) (hs4 t) (ms5 t) (hs5 t) scM (Memref.isWhole_whole _) hF hL hE (iblk m ρ c 0 t) (iblk m ρ c 1 t) (iblk m ρ c 2 t) (iblk m ρ c 3 t) (iblk m ρ c 4 t) (outsAt m ρ c (t.val - 1) (Nat.lt_of_le_of_lt (Nat.sub_le _ _) t.isLt)).2,
      soutLast c (grid0.coords t) (ms0 t) (hs0 t) (ms1 t) (hs1 t) (ms2 t) (hs2 t) (ms3 t) (hs3 t) (ms4 t) (hs4 t) (ms5 t) (hs5 t) scM (Memref.isWhole_whole _) hF hL hE (iblk m ρ c 0 t) (iblk m ρ c 1 t) (iblk m ρ c 2 t) (iblk m ρ c 3 t) (iblk m ρ c 4 t) (outsAt m ρ c (t.val - 1) (Nat.lt_of_le_of_lt (Nat.sub_le _ _) t.isLt)).2) := by
  obtain ⟨n, hn⟩ := t
  cases n with
  | zero => exact absurd h24 (show ¬ (0 : ℕ) = 24 from by decide)
  | succ n => exact (dif_pos h24).trans rfl

/-- The region's invariant before position `n`: before the first point the accumulator at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m ρ c n hn).2)) ∗ (∃ r, prngReg c r))

theorem PhiS_zero (c : Dev nD) (n : ℕ) (h : n ≤ cfg0.N) (hz : n = 0) : PhiS m ρ c n h = Pipeline.ΦA spec0 c := by
  subst hz; rfl

theorem PhiS_succ (c : Dev nD) (n : ℕ) (hn : n < cfg0.N) :
    PhiS m ρ c (n + 1) hn = iprop(iprop(owns (c : Thread nD τ) scM fullShare ((outsAt m ρ c n hn).2)) ∗ (∃ r, prngReg c r)) := rfl

theorem PhiS_pos (c : Dev nD) (n : ℕ) (h : n ≤ cfg0.N) (hz : n ≠ 0) :
    PhiS m ρ c n h = iprop(iprop(owns (c : Thread nD τ) scM fullShare ((outsAt m ρ c (n - 1) (by omega)).2)) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at `outsAt`'s first component; the invariant `PhiS`;
    nothing owed; the transposed x, read through windows 0 and 1, held half and half, every other array whole. -/
def dat0 (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => (outsAt m ρ c t.val t.isLt).1
  Φ t := PhiS m ρ c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 m ρ c).A w = V m ρ c (Pipeline.arrRef spec0 w) := by
  dsimp only [dat0]

theorem PhiS_castSucc (c : Dev nD) (t : Fin cfg0.N) :
    (dat0 m ρ c).Φ t.castSucc = PhiS m ρ c t.val (Nat.le_of_lt t.isLt) := by
  dsimp only [dat0]; simp only [Fin.coe_castSucc]

theorem after0 (c : Dev nD) (t : Fin cfg0.N) : (dat0 m ρ c).after 0 t = iblk m ρ c 0 t := by dsimp only [dat0]
theorem after1 (c : Dev nD) (t : Fin cfg0.N) : (dat0 m ρ c).after 1 t = iblk m ρ c 1 t := by dsimp only [dat0]
theorem after2 (c : Dev nD) (t : Fin cfg0.N) : (dat0 m ρ c).after 2 t = iblk m ρ c 2 t := by dsimp only [dat0]
theorem after3 (c : Dev nD) (t : Fin cfg0.N) : (dat0 m ρ c).after 3 t = iblk m ρ c 3 t := by dsimp only [dat0]
theorem after4 (c : Dev nD) (t : Fin cfg0.N) : (dat0 m ρ c).after 4 t = iblk m ρ c 4 t := by dsimp only [dat0]
theorem after5 (c : Dev nD) (t : Fin cfg0.N) : (dat0 m ρ c).after 5 t = (outsAt m ρ c t.val t.isLt).1 := by dsimp only [dat0]

theorem before0 (c : Dev nD) (t : Fin cfg0.N) (d) : (dat0 m ρ c).before 0 t d = iblk m ρ c 0 t :=
  before0_of m ρ (dat0 m ρ c) (A_eq m ρ c 0) (after0 m ρ c) t d
theorem before1 (c : Dev nD) (t : Fin cfg0.N) (d) : (dat0 m ρ c).before 1 t d = iblk m ρ c 1 t :=
  before1_of m ρ (dat0 m ρ c) (A_eq m ρ c 1) (after1 m ρ c) t d
theorem before2 (c : Dev nD) (t : Fin cfg0.N) (d) : (dat0 m ρ c).before 2 t d = iblk m ρ c 2 t :=
  before2_of m ρ (dat0 m ρ c) (A_eq m ρ c 2) (after2 m ρ c) t d
theorem before3 (c : Dev nD) (t : Fin cfg0.N) (d) : (dat0 m ρ c).before 3 t d = iblk m ρ c 3 t :=
  before3_of m ρ (dat0 m ρ c) (A_eq m ρ c 3) (after3 m ρ c) t d
theorem before4 (c : Dev nD) (t : Fin cfg0.N) (d) : (dat0 m ρ c).before 4 t d = iblk m ρ c 4 t :=
  before4_of m ρ (dat0 m ρ c) (A_eq m ρ c 4) (after4 m ρ c) t d

/-! ## The body obligation, at a generic point -/

/-- What the body is called with at point `t`, the windows one by one, -/
def bodyPre (c : Dev nD) (t : Fin cfg0.N) : sProp 𝕄 :=
  iprop((dat0 m ρ c).Φ t.castSucc ∗ (dat0 m ρ c).owesAt () t.castSucc
    ∗ (∃ d, owns (c : Thread nD τ) (ms0 t) fullShare ((dat0 m ρ c).before 0 t d))
    ∗ (∃ d, owns (c : Thread nD τ) (ms1 t) fullShare ((dat0 m ρ c).before 1 t d))
    ∗ (∃ d, owns (c : Thread nD τ) (ms2 t) fullShare ((dat0 m ρ c).before 2 t d))
    ∗ (∃ d, owns (c : Thread nD τ) (ms3 t) fullShare ((dat0 m ρ c).before 3 t d))
    ∗ (∃ d, owns (c : Thread nD τ) (ms4 t) fullShare ((dat0 m ρ c).before 4 t d))
    ∗ (∃ d, owns (c : Thread nD τ) (ms5 t) fullShare ((dat0 m ρ c).before 5 t d)))

/-- and what it returns. -/
def bodyPost (c : Dev nD) (t : Fin cfg0.N) : sProp 𝕄 :=
  iprop((dat0 m ρ c).Φ t.succ ∗ (dat0 m ρ c).owesAt () t.succ
    ∗ (dat0 m ρ c).leavesExact 0 t
    ∗ (dat0 m ρ c).leavesExact 1 t
    ∗ (dat0 m ρ c).leavesExact 2 t
    ∗ (dat0 m ρ c).leavesExact 3 t
    ∗ (dat0 m ρ c).leavesExact 4 t
    ∗ (dat0 m ρ c).leavesExact 5 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4]
  rw [show (dat0 m ρ c).owesAt () t.succ = (dat0 m ρ c).owesAt () t.castSucc from rfl]
  rw [show (dat0 m ρ c).Φ t.succ = PhiS m ρ c (t.val + 1) t.isLt from rfl, PhiS_succ]
  have hN : t.val < 25 := lt_of_lt_of_eq t.isLt (show cfg0.N = 25 from N_0)
  by_cases h0 : t.val = 0
  · have hF : condFirst (grid0.coords t) := (hcondFirst t).mpr h0
    have hL : ¬condLater (grid0.coords t) := fun h => (hcondLater t).mp h h0
    have hE : ¬condLast (grid0.coords t) := fun h => by have := (hcondLast t).mp h; omega
    rw [show (dat0 m ρ c).leavesExact 0 t = owns (c : Thread nD τ) (ms0 t) fullShare ((dat0 m ρ c).after 0 t) from by
      unfold Dat.leavesExact; rw [live0 t], after0]
    rw [show (dat0 m ρ c).leavesExact 1 t = owns (c : Thread nD τ) (ms1 t) fullShare ((dat0 m ρ c).after 1 t) from by
      unfold Dat.leavesExact; rw [live1 t], after1]
    rw [show (dat0 m ρ c).leavesExact 2 t = owns (c : Thread nD τ) (ms2 t) fullShare ((dat0 m ρ c).after 2 t) from by
      unfold Dat.leavesExact; rw [live2 t], after2]
    rw [show (dat0 m ρ c).leavesExact 3 t = owns (c : Thread nD τ) (ms3 t) fullShare ((dat0 m ρ c).after 3 t) from by
      unfold Dat.leavesExact; rw [live3 t], after3]
    rw [show (dat0 m ρ c).leavesExact 4 t = owns (c : Thread nD τ) (ms4 t) fullShare ((dat0 m ρ c).after 4 t) from by
      unfold Dat.leavesExact; rw [live4 t], after4]
    rw [Dat.leavesExact_idle (dat0 m ρ c) 5 t (idle5 t hE) (noFlush5 t hE)]
    rw [outsAt_first m ρ c t h0 hF hL hE]
    unfold soutFirst; (try dsimp only)
    rw [PhiS_castSucc m ρ c t, PhiS_zero m ρ c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ hF hL hE (iblk m ρ c 0 t) (iblk m ρ c 1 t) (iblk m ρ c 2 t) (iblk m ρ c 3 t) (iblk m ρ c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS Hg]
    · isplitl [HS]
      · unfold owns; iexists _; isplitr
        swap; · iexact HS
        ipureintro; exact View.read_writes_of_cover _ _ _ _ _ (scoverFirst c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hF : ¬condFirst (grid0.coords t) := fun h => h0 ((hcondFirst t).mp h)
    have hL : condLater (grid0.coords t) := (hcondLater t).mpr h0
    by_cases h24 : t.val = 24
    · have hE : condLast (grid0.coords t) := (hcondLast t).mpr h24
      rw [show (dat0 m ρ c).leavesExact 0 t = owns (c : Thread nD τ) (ms0 t) fullShare ((dat0 m ρ c).after 0 t) from by
        unfold Dat.leavesExact; rw [live0 t], after0]
      rw [show (dat0 m ρ c).leavesExact 1 t = owns (c : Thread nD τ) (ms1 t) fullShare ((dat0 m ρ c).after 1 t) from by
        unfold Dat.leavesExact; rw [live1 t], after1]
      rw [show (dat0 m ρ c).leavesExact 2 t = owns (c : Thread nD τ) (ms2 t) fullShare ((dat0 m ρ c).after 2 t) from by
        unfold Dat.leavesExact; rw [live2 t], after2]
      rw [show (dat0 m ρ c).leavesExact 3 t = owns (c : Thread nD τ) (ms3 t) fullShare ((dat0 m ρ c).after 3 t) from by
        unfold Dat.leavesExact; rw [live3 t], after3]
      rw [show (dat0 m ρ c).leavesExact 4 t = owns (c : Thread nD τ) (ms4 t) fullShare ((dat0 m ρ c).after 4 t) from by
        unfold Dat.leavesExact; rw [live4 t], after4]
      rw [show (dat0 m ρ c).leavesExact 5 t = owns (c : Thread nD τ) (ms5 t) fullShare ((dat0 m ρ c).after 5 t) from by
        unfold Dat.leavesExact; rw [live5 t hE], after5]
      rw [outsAt_last m ρ c t h24 hF hL hE]
      unfold outLast5 soutLast; (try dsimp only)
      rw [PhiS_castSucc m ρ c t, PhiS_pos m ρ c _ _ h0]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ hF hL hE (iblk m ρ c 0 t) (iblk m ρ c 1 t) (iblk m ρ c 2 t) (iblk m ρ c 3 t) (iblk m ρ c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLast5 c _ _ _ _ _ _ _ _ _ _ _ _ _ _ _ _ _ _ _ _ _ _ _ _)
    · have hE : ¬condLast (grid0.coords t) := fun h => h24 ((hcondLast t).mp h)
      rw [show (dat0 m ρ c).leavesExact 0 t = owns (c : Thread nD τ) (ms0 t) fullShare ((dat0 m ρ c).after 0 t) from by
        unfold Dat.leavesExact; rw [live0 t], after0]
      rw [show (dat0 m ρ c).leavesExact 1 t = owns (c : Thread nD τ) (ms1 t) fullShare ((dat0 m ρ c).after 1 t) from by
        unfold Dat.leavesExact; rw [live1 t], after1]
      rw [show (dat0 m ρ c).leavesExact 2 t = owns (c : Thread nD τ) (ms2 t) fullShare ((dat0 m ρ c).after 2 t) from by
        unfold Dat.leavesExact; rw [live2 t], after2]
      rw [show (dat0 m ρ c).leavesExact 3 t = owns (c : Thread nD τ) (ms3 t) fullShare ((dat0 m ρ c).after 3 t) from by
        unfold Dat.leavesExact; rw [live3 t], after3]
      rw [show (dat0 m ρ c).leavesExact 4 t = owns (c : Thread nD τ) (ms4 t) fullShare ((dat0 m ρ c).after 4 t) from by
        unfold Dat.leavesExact; rw [live4 t], after4]
      rw [Dat.leavesExact_idle (dat0 m ρ c) 5 t (idle5 t hE) (noFlush5 t hE)]
      rw [outsAt_later m ρ c t h0 h24 hF hL hE]
      unfold soutLater; (try dsimp only)
      rw [PhiS_castSucc m ρ c t, PhiS_pos m ρ c _ _ h0]
      iintro ⟨⟨HS, Hg⟩, Ho, ⟨%d0, H0⟩, ⟨%d1, H1⟩, ⟨%d2, H2⟩, ⟨%d3, H3⟩, ⟨%d4, H4⟩, ⟨%d5, H5⟩⟩
      iapply ((runLater c (grid0.coords t) _ _ _ _ _ _ _ _ _ _ _ _ _ _ hF hL hE (iblk m ρ c 0 t) (iblk m ρ c 1 t) (iblk m ρ c 2 t) (iblk m ρ c 3 t) (iblk m ρ c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (scoverLater c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat0 (F := F) m ρ c) (defs₀ (F := F)) Variants.none () Set.univ := fun t => by
  rw [bigSep_W0, bigSep_W0]
  exact sound_body m ρ c t

/-- What the launch hands the region is the invariant before the first point. -/
theorem hin (c : Dev nD) : Pipeline.ΦA spec0 c ⊢ (dat0 m ρ c).Φ 0 := by
  rw [show (dat0 m ρ c).Φ 0 = PhiS m ρ c 0 (Nat.zero_le _) from rfl, PhiS_zero m ρ c 0 _ rfl]
  try exact Idealize.SL.BI.Entails.refl _

/-- After the last point the invariant gives the accumulator back at some contents. -/
theorem hout (c : Dev nD) : (dat0 m ρ c).Φ (Fin.last cfg0.N) ⊢ Pipeline.ΦA spec0 c := by
  rw [show (dat0 m ρ c).Φ (Fin.last cfg0.N) = PhiS m ρ c (Fin.last cfg0.N).val (Nat.le_of_lt_succ (Fin.last cfg0.N).isLt) from rfl,
    PhiS_pos m ρ c _ _ (by rw [Fin.val_last]; have : cfg0.N = 25 := N_0; omega), PhiA_eq]
  iintro ⟨HS, Hg⟩
  isplitl [HS]
  · iexists _; iexact HS
  iexact Hg

end Cert.KernelIdeal.Hand

end
-- ==== Proof.KernelIdealMain.lean ====
/-
  The run of the whole program: the three host operations, the region, the iota.

  The buffers' contents are followed from the launch to the return: after the host operations (`W1`), at the
  region's exit — the output array at what the pipeline's write-back leaves, every other buffer as entered
  (`W2`) —, after the iota (`W3`).  The transposed x sits behind two windows; at the region's entry its one
  buffer is dealt to them half and half, at the exit the halves are joined again.  The kernel keeps no semaphore of
  its own and owes nothing, so the region's thread state is the unscoped buffers, the generator register and an
  empty debt.
-/
import proofs.«103525_g86423331930547_cont_9to1_m_1251_21_alg».proof.Proof.KernelIdealFrame

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the later boundaries -/

/-- At the region's exit: the output's array at what the pipeline leaves, every other buffer as entered. -/
def W2 (c : Dev nD) : Valuation τ sig (Elt F) := fun b =>
  if h : b = Proc.devRef .tc main_v3 then
    h ▸ (show (Proc.devRef .tc main_v3 : DevRef τ sig).ty.Contents (Elt F) from (dat0 m ρ c).arrAt 5 cfg0.N)
  else W1 m ρ c b

theorem W2_out (c : Dev nD) : W2 m ρ c (Proc.devRef .tc main_v3) = (dat0 m ρ c).arrAt 5 cfg0.N := by
  unfold W2; rw [dif_pos rfl]

theorem W2_of_ne (c : Dev nD) (b : Ref sig .tc) (hb : b ≠ main_v3) :
    W2 m ρ c (Proc.devRef .tc b) = W1 m ρ c (Proc.devRef .tc b) := by
  unfold W2; rw [dif_neg]; exact fun e => hb (Proc.devRef_injective _ e)

abbrev V2 : (c : Dev nD) → (b : Ref sig .tc) → Buf (Elt F) ((c : Thread nD τ).loc b) := fun c b => W2 m ρ c b
/-- After the iota. -/
abbrev W3 : Dev nD → Valuation τ sig (Elt F) := fun c => StableHlo.after hostOps1 (W2 m ρ c)

/-! ## The windows' arrays, one by one -/

/-- The five distinct buffers behind the six windows. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_arg1) ↦{fullShare} Vc main_arg1)
          ∗ (((c : Thread nD τ).loc main_v1) ↦{fullShare} Vc main_v1) ∗ (((c : Thread nD τ).loc main_v2) ↦{fullShare} Vc main_v2)
          ∗ (((c : Thread nD τ).loc main_v3) ↦{fullShare} Vc main_v3)) := by
  unfold Pipeline.arrBufs
  exact BI.bigSep_eq_bigSepL_of_eq [main_v0, main_arg1, main_v1, main_v2, main_v3] (by decide) (by decide) _

/-- The proof data's arrays: the transposed x twice, at the two halves of its share; the others whole. -/
theorem arrays_eq (c : Dev nD) (Fw : (w : Fin cfg0.W) → Buf (Elt F) ((cfg0.win w).arr.view.loc (c : Thread nD τ))) :
    (dat0 m ρ c).arrays Fw
      = iprop((((c : Thread nD τ).loc main_v0) ↦{fullShare.left} Fw 0) ∗ (((c : Thread nD τ).loc main_v0) ↦{fullShare.right} Fw 1)
          ∗ (((c : Thread nD τ).loc main_arg1) ↦{fullShare} Fw 2) ∗ (((c : Thread nD τ).loc main_v1) ↦{fullShare} Fw 3)
          ∗ (((c : Thread nD τ).loc main_v2) ↦{fullShare} Fw 4) ∗ (((c : Thread nD τ).loc main_v3) ↦{fullShare} Fw 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-! ## Into the region and out of it -/

/-- An input window's array is, at every point, as it was entered. -/
theorem arrAt_in0 (c : Dev nD) (n : ℕ) : (dat0 m ρ c).arrAt 0 n = V m ρ c main_v0 := ((dat0 m ρ c).arrAt_in 0 rfl n).trans (A_eq m ρ c 0)
theorem arrAt_in1 (c : Dev nD) (n : ℕ) : (dat0 m ρ c).arrAt 1 n = V m ρ c main_v0 := ((dat0 m ρ c).arrAt_in 1 rfl n).trans (A_eq m ρ c 1)
theorem arrAt_in2 (c : Dev nD) (n : ℕ) : (dat0 m ρ c).arrAt 2 n = V m ρ c main_arg1 := ((dat0 m ρ c).arrAt_in 2 rfl n).trans (A_eq m ρ c 2)
theorem arrAt_in3 (c : Dev nD) (n : ℕ) : (dat0 m ρ c).arrAt 3 n = V m ρ c main_v1 := ((dat0 m ρ c).arrAt_in 3 rfl n).trans (A_eq m ρ c 3)
theorem arrAt_in4 (c : Dev nD) (n : ℕ) : (dat0 m ρ c).arrAt 4 n = V m ρ c main_v2 := ((dat0 m ρ c).arrAt_in 4 rfl n).trans (A_eq m ρ c 4)
/-- The output's array before the first point is as entered. -/
theorem arrAt_out_zero (c : Dev nD) : (dat0 m ρ c).arrAt 5 0 = V m ρ c main_v3 := A_eq m ρ c 5

/-- A buffer held whole is held half and half. -/
theorem halves (c : Dev nD) (f : Buf (Elt F) ((c : Thread nD τ).loc main_v0)) :
    ((((c : Thread nD τ).loc main_v0) ↦{fullShare} f : sProp 𝕄))
      ⊣⊢ iprop((((c : Thread nD τ).loc main_v0) ↦{fullShare.left} f) ∗ (((c : Thread nD τ).loc main_v0) ↦{fullShare.right} f)) :=
  pointsTo_share (PosShare.mem_left_op_right fullShare)

/-- ENTRY: the unscoped buffers at the entry contents are the proof data's arrays at their entry contents — the
    transposed x's one buffer dealt half and half to its two windows — and the buffers no window stages. -/
theorem arrays_of_unscopedBufs (c : Dev nD) :
    (unscopedBufs c (V m ρ c) : sProp 𝕄)
      ⊢ iprop((dat0 m ρ c).arrays ((dat0 m ρ c).arrAt · 0)
          ∗ Pipeline.unscopedRest (Ix := Unit) (Name := ℕ) (U := UR sig nD τ) (Lvl := ℕ) spec0 c (V m ρ c)) := by
  rw [Pipeline.unscopedBufs_split₀ cfgs (0 : Fin 1) winFacts₀0.arr_unscoped c (V m ρ c), arrBufs_eq, arrays_eq]
  rw [arrAt_in0, arrAt_in1, arrAt_in2, arrAt_in3, arrAt_in4, arrAt_out_zero]
  have hs := (halves (F := F) c (V m ρ c main_v0)).1
  iintro ⟨⟨H0, H1, H2, H3, H4⟩, Hrest⟩
  isplitr [Hrest]
  swap; · iexact Hrest
  ihave H0' := hs $$ H0
  icases H0' with ⟨H0l, H0r⟩
  isplitl [H0l]; · iexact H0l
  isplitl [H0r]; · iexact H0r
  isplitl [H1]; · iexact H1
  isplitl [H2]; · iexact H2
  isplitl [H3]; · iexact H3
  iexact H4

/-- EXIT: the arrays at their final contents — the two halves of the transposed x joined again — and the buffers
    no window stages are the unscoped buffers at the exit contents. -/
theorem unscopedBufs_of_arrays (c : Dev nD) :
    iprop((dat0 m ρ c).arrays ((dat0 m ρ c).arrAt · cfg0.N)
        ∗ Pipeline.unscopedRest (Ix := Unit) (Name := ℕ) (U := UR sig nD τ) (Lvl := ℕ) spec0 c (V m ρ c))
      ⊢ (unscopedBufs c (V2 m ρ c) : sProp 𝕄) := by
  rw [Pipeline.unscopedBufs_split₀ cfgs (0 : Fin 1) winFacts₀0.arr_unscoped c (V2 m ρ c), arrBufs_eq, arrays_eq,
    unscopedRest0_eq, unscopedRest0_eq]
  rw [arrAt_in0, arrAt_in1, arrAt_in2, arrAt_in3, arrAt_in4]
  rw [show V2 m ρ c main_v0 = V m ρ c main_v0 from W2_of_ne m ρ c main_v0 (by decide),
    show V2 m ρ c main_arg1 = V m ρ c main_arg1 from W2_of_ne m ρ c main_arg1 (by decide),
    show V2 m ρ c main_v1 = V m ρ c main_v1 from W2_of_ne m ρ c main_v1 (by decide),
    show V2 m ρ c main_v2 = V m ρ c main_v2 from W2_of_ne m ρ c main_v2 (by decide),
    show V2 m ρ c main_v3 = (dat0 m ρ c).arrAt 5 cfg0.N from W2_out m ρ c,
    show V2 m ρ c main_arg0 = V m ρ c main_arg0 from W2_of_ne m ρ c main_arg0 (by decide),
    show V2 m ρ c main_arg2 = V m ρ c main_arg2 from W2_of_ne m ρ c main_arg2 (by decide),
    show V2 m ρ c main_arg3 = V m ρ c main_arg3 from W2_of_ne m ρ c main_arg3 (by decide),
    show V2 m ρ c main_v4 = V m ρ c main_v4 from W2_of_ne m ρ c main_v4 (by decide)]
  iintro ⟨⟨H0l, H0r, H1, H2, H3, H4⟩, Hrest⟩
  isplitr [Hrest]
  swap; · iexact Hrest
  isplitl [H0l H0r]
  · iapply (halves (F := F) c (V m ρ c main_v0)).2
    isplitl [H0l] <;> iassumption
  isplitl [H1]; · iexact H1
  isplitl [H2]; · iexact H2
  isplitl [H3]; · iexact H3
  iexact H4

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 m ρ c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and an empty debt. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`.  Its arrays are
    dealt out of the unscoped buffers and put back at the exit contents; the generator register goes into the
    invariant and comes out; nothing is owed; the kernel has no semaphore of its own. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V m ρ c)
  hentry c := by
    rw [Pipeline.ownSems0_none]
    have hsplit := arrays_of_unscopedBufs m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout m ρ c).trans ?_
    unfold Pipeline.ΦA
    iintro ⟨Hr, Hp⟩
    isplitl [Hp]; · iexact Hp
    isplitr; · iempintro
    iexact Hr
  hexit c := by
    have hjoin := unscopedBufs_of_arrays m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- At the compiled mesh, for any values, from any memory with zero counters: every weakly fair execution of the
    program terminates, nothing faulting, and every final state has every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitr [HO]
      swap; · iexact HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KernelIdealEnd.lean ====
/-
  The program's run read at the buffers the claims speak of.

  The output array is what the pipeline's write-back leaves (the iota does not touch it); the second result is the
  iota; each argument is read back through the three boundaries to the launch memory — no host operation and no
  window writes an argument (the region reads x only through its transpose).
-/
import proofs.«103525_g86423331930547_cont_9to1_m_1251_21_alg».proof.Proof.KernelIdealMain

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result ends at what the region leaves in the output's array. -/
theorem W3_out (c : Dev nD) : W3 m ρ c (Proc.devRef .tc main_v3) = (dat0 m ρ c).arrAt 5 cfg0.N :=
  (StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_out m ρ c)

/-- The second result is the iota over the 20000 genes. -/
theorem W3_iota (c : Dev nD) : W3 m ρ c (Proc.devRef .tc main_v4) = iotaInDim S20000 32 0 := by
  show StableHlo.after hostOps1 (W2 m ρ c) (Proc.devRef .tc main_v4) = _
  after_results

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The frame: the program runs to the end from any memory with zero counters, nothing faulting, and its four
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

/-- The same run with the two results named: the output's array as the pipeline leaves it, and the iota. -/
theorem run_named : θ_run defs (onTc (τ := τ) (main (F := F))) ⟨m, fun _ => 0, ρ⟩ (fun r => ∀ c : Dev nD,
      r.2.mem ((c.tc : Thread nD τ).loc main_v3) = (dat0 m ρ c).arrAt 5 cfg0.N
      ∧ r.2.mem ((c.tc : Thread nD τ).loc main_v4) = iotaInDim S20000 32 0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W3_out m ρ c),
     (h c _ (mem_uc main_v4 (by decide))).trans (W3_iota m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.KernelIdeal.Hand

end
-- ==== Proof.KernelIdealValuePieces.lean ====
/-
  What each case of the body leaves, as the stores' values.

  The accumulator is written by two stores, one per column half, whatever the case: at the first point the two
  products, at a later point the half it held plus the product.  Read back at (h, b) it is the left store's value
  at (h, b) when b < 2048 and the right store's at (h, b − 2048) otherwise.  The last point's output block is the
  one store of the normalised, transposed accumulator, the accumulator being read back whole after its two stores.
-/
import proofs.«103525_g86423331930547_cont_9to1_m_1251_21_alg».proof.Proof.KernelIdealFrame
import Idealize.ShloMosaic.Lib.Pipeline.Value
import Idealize.ShloMosaic.Lib.ValueIdx

-- membership in a rectangle of these extents recurses once per coordinate of the long axes
set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Two column halves read as one array -/

section Halves

variable {α : Type}

/-- Two 800 × 2048 blocks side by side, read at row `j` and column `b` of the 4096. -/
def catCols (x0 x1 : S800x2048.Idx → α) (j : Fin 800) (b : Fin 4096) : α :=
  if hb : b.val < 2048 then x0 (ix2 j ⟨b.val, hb⟩) else x1 (ix2 j ⟨b.val - 2048, by have := b.isLt; omega⟩)

/-- Two 128 × 2048 halves side by side. -/
def catHalves (wL wR : S128x2048.Idx → α) (h : Fin 128) (b : Fin 4096) : α :=
  if hb : b.val < 2048 then wL (ix2 h ⟨b.val, hb⟩) else wR (ix2 h ⟨b.val - 2048, by have := b.isLt; omega⟩)

end Halves

theorem hz2 : (![0, 0] : Fin 2 → Nat) = fun _ => 0 := funext fun a => by fin_cases a <;> rfl

/-- The left column half of the accumulator, and the right one. -/
abbrev rectL : Rect S128x4096 := Rect.unit ![0, 0] S128x2048.size inb_S128x4096_S128x2048_0_0
abbrev rectR : Rect S128x4096 := Rect.unit ![0, 2048] S128x2048.size inb_S128x4096_S128x2048_0_2048

section Canon

variable {Val : EltTy → Type} [∀ e, Nonempty (Val e)]

/-- What two stores, the left half then the right half, leave: read at (h, b). -/
theorem canon_halves_apply (wL wR : S128x2048.Idx → Val .f32) (h : Fin 128) (b : Fin 4096) :
    View.canon [(⟨rectR, wR⟩ : View.Piece Val S128x4096 .f32), ⟨rectL, wL⟩] (ix2 h b) = catHalves wL wR h b := by
  unfold catHalves
  split
  · rename_i hb
    have hnot : (ix2 h b : S128x4096.Idx) ∉ (rectR : Rect S128x4096).set := by
      rw [Rect.mem_set_unit]
      intro hm
      have h1 := (hm 1).1
      have h1' : 2048 ≤ b.val := h1
      omega
    have e : (rectL : Rect S128x4096).emb (ix2 h ⟨b.val, hb⟩) = ix2 h b := funext fun a => Fin.ext (by
      match a with
      | ⟨0, _⟩ => show 0 + 1 * h.val = h.val; omega
      | ⟨1, _⟩ => show 0 + 1 * b.val = b.val; omega)
    refine (View.canon_cons_of_not_mem (⟨rectR, wR⟩ : View.Piece Val S128x4096 .f32)
      [(⟨rectL, wL⟩ : View.Piece Val S128x4096 .f32)] hnot).trans ?_
    exact (congrArg (View.canon [(⟨rectL, wL⟩ : View.Piece Val S128x4096 .f32)]) e.symm).trans
      (View.canon_cons_emb (rectL : Rect S128x4096) wL [] (ix2 h ⟨b.val, hb⟩))
  · rename_i hb
    have e : (rectR : Rect S128x4096).emb (ix2 h ⟨b.val - 2048, by have := b.isLt; omega⟩) = ix2 h b := funext fun a => Fin.ext (by
      match a with
      | ⟨0, _⟩ => show 0 + 1 * h.val = h.val; omega
      | ⟨1, _⟩ => show 2048 + 1 * (b.val - 2048) = b.val; omega)
    exact (congrArg (View.canon [(⟨rectR, wR⟩ : View.Piece Val S128x4096 .f32), ⟨rectL, wL⟩]) e.symm).trans
      (View.canon_cons_emb (rectR : Rect S128x4096) wR [(⟨rectL, wL⟩ : View.Piece Val S128x4096 .f32)]
        (ix2 h ⟨b.val - 2048, by have := b.isLt; omega⟩))

end Canon

/-- A load of the left half of an array at (h, b). -/
theorem ld_rectL_apply {α : Type} (xs : S128x4096.Idx → α) (h : Fin 128) (b : Fin 2048) :
    (fun x => xs ((rectL : Rect S128x4096).idx x) : S128x2048.Idx → α) (ix2 h b) = xs (ix2 h ⟨b.val, by have := b.isLt; omega⟩) :=
  congrArg xs (funext fun a => Fin.ext (by
    match a with
    | ⟨0, _⟩ => show 0 + 1 * h.val = h.val; omega
    | ⟨1, _⟩ => show 0 + 1 * b.val = b.val; omega))

/-- A load of the right half at (h, b). -/
theorem ld_rectR_apply {α : Type} (xs : S128x4096.Idx → α) (h : Fin 128) (b : Fin 2048) :
    (fun x => xs ((rectR : Rect S128x4096).idx x) : S128x2048.Idx → α) (ix2 h b) = xs (ix2 h ⟨2048 + b.val, by have := b.isLt; omega⟩) :=
  congrArg xs (funext fun a => Fin.ext (by
    match a with
    | ⟨0, _⟩ => show 0 + 1 * h.val = h.val; omega
    | ⟨1, _⟩ => show 2048 + 1 * b.val = 2048 + b.val; omega))

variable {F : FTy → Type} [FloatOps F]

/-! ## The three cases -/

/-- The first point leaves the two products. -/
theorem soutFirst_eq (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : condFirst i) (hL : ¬condLater i) (hE : ¬condLast i) (x0 : Vec F S800x2048 .f32) (x1 : Vec F S800x2048 .f32) (x2 : Vec F S800x128 .f32) (x3 : Vec F S128x1 .f32) (x4 : Vec F S128x1 .f32) :
    soutFirst c i arg1 harg1 arg2 harg2 arg3 harg3 arg4 harg4 arg5 harg5 arg6 harg6 arg7 harg7 hF hL hE x0 x1 x2 x3 x4
      = View.canon [(⟨rectR, k0_pay5 x2 x1⟩ : View.Piece (Elt F) S128x4096 .f32), ⟨rectL, k0_pay4 x2 x0⟩] := by
  unfold soutFirst
  rw [View.read_writes_junk_eq_canon]
  unfold runFirst
  dsimp only
  simp only [View.readAt_eq_ld, harg1.read_unread, harg2.read_unread, harg3.read_unread,
    View.ld_unit_zero (S := S800x128) hz2, View.ld_unit_zero (S := S800x2048) hz2]

/-- A later point leaves each half it found plus that half's product. -/
theorem soutLater_eq (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : ¬condLast i) (x0 : Vec F S800x2048 .f32) (x1 : Vec F S800x2048 .f32) (x2 : Vec F S800x128 .f32) (x3 : Vec F S128x1 .f32) (x4 : Vec F S128x1 .f32) (xs : Vec F S128x4096 .f32) :
    soutLater c i arg1 harg1 arg2 harg2 arg3 harg3 arg4 harg4 arg5 harg5 arg6 harg6 arg7 harg7 hF hL hE x0 x1 x2 x3 x4 xs
      = View.canon [(⟨rectR, k0_pay7 x2 x1 (View.ld xs rectR)⟩ : View.Piece (Elt F) S128x4096 .f32),
          ⟨rectL, k0_pay6 x2 x0 (View.ld xs rectL)⟩] := by
  unfold soutLater
  rw [View.read_writes_junk_eq_canon]
  unfold runLater
  dsimp only
  sl_unfold_words
  simp only [View.readAt_eq_ld, harg1.read_unread, harg2.read_unread, harg3.read_unread, harg7.read_unread,
    View.ld_unit_zero (S := S800x128) hz2, View.ld_unit_zero (S := S800x2048) hz2]

/-- So does the last point. -/
theorem soutLast_eq (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i) (x0 : Vec F S800x2048 .f32) (x1 : Vec F S800x2048 .f32) (x2 : Vec F S800x128 .f32) (x3 : Vec F S128x1 .f32) (x4 : Vec F S128x1 .f32) (xs : Vec F S128x4096 .f32) :
    soutLast c i arg1 harg1 arg2 harg2 arg3 harg3 arg4 harg4 arg5 harg5 arg6 harg6 arg7 harg7 hF hL hE x0 x1 x2 x3 x4 xs
      = View.canon [(⟨rectR, k0_pay7 x2 x1 (View.ld xs rectR)⟩ : View.Piece (Elt F) S128x4096 .f32),
          ⟨rectL, k0_pay6 x2 x0 (View.ld xs rectL)⟩] := by
  unfold soutLast
  rw [View.read_writes_junk_eq_canon]
  unfold runLast
  dsimp only
  sl_unfold_words
  simp only [View.readAt_eq_ld, harg1.read_unread, harg2.read_unread, harg3.read_unread, harg7.read_unread,
    View.ld_unit_zero (S := S800x128) hz2, View.ld_unit_zero (S := S800x2048) hz2]

/-- The last point's output block: the epilogue of the accumulator as that point leaves it. -/
theorem outLast5_eq (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i) (x0 : Vec F S800x2048 .f32) (x1 : Vec F S800x2048 .f32) (x2 : Vec F S800x128 .f32) (x3 : Vec F S128x1 .f32) (x4 : Vec F S128x1 .f32) (xs : Vec F S128x4096 .f32) :
    outLast5 c i arg1 harg1 arg2 harg2 arg3 harg3 arg4 harg4 arg5 harg5 arg6 harg6 arg7 harg7 hF hL hE x0 x1 x2 x3 x4 xs = k0_pay8 (soutLast c i arg1 harg1 arg2 harg2 arg3 harg3 arg4 harg4 arg5 harg5 arg6 harg6 arg7 harg7 hF hL hE x0 x1 x2 x3 x4 xs) x3 x4 := by
  rw [soutLast_eq]
  unfold outLast5
  rw [View.read_writes_junk_eq_canon]
  unfold runLast
  dsimp only
  sl_unfold_words
  rw [View.canon_unit_zero hz2]
  simp only [View.readCov_eq_canon', View.readAt_eq_ld, harg1.read_unread, harg2.read_unread, harg3.read_unread,
    harg4.read_unread, harg5.read_unread, harg7.read_unread,
    View.ld_unit_zero (S := S800x128) hz2, View.ld_unit_zero (S := S800x2048) hz2, View.ld_unit_zero (S := S128x1) hz2]
  refine congrArg (fun a => k0_pay8 a x3 x4) ?_
  exact View.ld_unit_zero (S := S128x4096) hz2 _ _

end Cert.KernelIdeal.Hand

end
-- ==== Proof.LibRowsContracted.lean ====
/-
  A matrix product `[n, a]ᵀ × [n, b]` (both operands contracted on their rows, no batch axis) into the zero
  accumulator, read at an entry on the extended reals: entry `(i, j)` is the sum over `k` of the left operand at
  `(k, i)` times the right operand at `(k, j)`. General over the three extents, the two operand formats and the
  precision.
-/
import Idealize.ShloMosaic.Lib.ValueIdx
import Idealize.ShloMosaic.PureOps.Ideal.Laws

noncomputable section

open scoped BigOperators

namespace Cert.LibRowsContracted

open Idealize.ShloMosaic Idealize.ShloMosaic.ValueIdx

/-- The dimension numbers `<[0], [0], [1], [1], [0, 1, 1, 1], [], []>`: `K×M` by `K×N`, both operands contracted on
    their first axis, the result `M×N`. -/
def rowsContracted (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {n a b : ℕ}

/-- The left operand's index at output entry `i` and contraction index `q`: the contraction coordinate as its row … -/
theorem lhs_row (i : (⟨2, ![a, b]⟩ : Shape).Idx) (q : (rowsContracted n a b).contr.Idx) :
    ((rowsContracted n a b).lhsIdx i q 0).val = (q (⟨0, Nat.one_pos⟩ : Fin (rowsContracted n a b).contr.rank)).val :=
  (rowsContracted n a b).lhsIdx_val_of_single rfl i q

/-- … and column `i 0`. -/
theorem lhs_col (i : (⟨2, ![a, b]⟩ : Shape).Idx) (q : (rowsContracted n a b).contr.Idx) :
    ((rowsContracted n a b).lhsIdx i q 1).val = (i 0).val := rfl

/-- The right operand's index: the contraction coordinate as its row … -/
theorem rhs_row (i : (⟨2, ![a, b]⟩ : Shape).Idx) (q : (rowsContracted n a b).contr.Idx) :
    ((rowsContracted n a b).rhsIdx i q 0).val = (q (⟨0, Nat.one_pos⟩ : Fin (rowsContracted n a b).contr.rank)).val :=
  (rowsContracted n a b).rhsIdx_val_of_single rfl i q

/-- … and column `i 1`. -/
theorem rhs_col (i : (⟨2, ![a, b]⟩ : Shape).Idx) (q : (rowsContracted n a b).contr.Idx) :
    ((rowsContracted n a b).rhsIdx i q 1).val = (i 1).val := rfl

/-- A product of the transposed left operand with the right one into the zero accumulator, at entry `(i, j)`, is
    `Σₖ A (k, i) · B (k, j)`. -/
theorem matmul_zero_apply {φ₁ φ₂ : FTy} (prec : Option ContractPrecision) (A : FVec Ideal ⟨2, ![n, a]⟩ φ₁)
    (B : FVec Ideal ⟨2, ![n, b]⟩ φ₂) (i : Fin a) (j : Fin b) :
    FloatOps.matmul (rowsContracted n a b) prec A B (constant ⟨2, ![a, b]⟩ .f32 0x00000000#32) (ix2 i j)
      = ∑ k : Fin n, A (ix2 k i) * B (ix2 k j) := by
  rw [Ideal.matmul_constant_zero_apply, ← Equiv.sum_comp (contrEquiv1 (rowsContracted n a b) n rfl rfl).symm]
  refine Finset.sum_congr rfl fun k _ => ?_
  have hk := contrEquiv1_symm_val (rowsContracted n a b) n rfl rfl k
  have el : (rowsContracted n a b).lhsIdx (ix2 i j) ((contrEquiv1 (rowsContracted n a b) n rfl rfl).symm k) = ix2 k i :=
    funext fun c => Fin.ext (by
      match c with
      | ⟨0, _⟩ => exact (lhs_row _ _).trans hk
      | ⟨1, _⟩ => exact lhs_col _ _)
  have er : (rowsContracted n a b).rhsIdx (ix2 i j) ((contrEquiv1 (rowsContracted n a b) n rfl rfl).symm k) = ix2 k j :=
    funext fun c => Fin.ext (by
      match c with
      | ⟨0, _⟩ => exact (rhs_row _ _).trans hk
      | ⟨1, _⟩ => exact rhs_col _ _)
  rw [el, er]

end Cert.LibRowsContracted

end
-- ==== Proof.PayMatmul.lean ====
/-
  The matrix products of one grid point, read at an entry on the extended reals.

  At a grid point the body contracts an 800 × 128 block of the embedding table against an 800 × 2048 block of the
  transposed input over their 800 rows, into a zero accumulator; a change of float format is the identity on the
  extended reals, and so is a cast between equal shapes.  Hence entry (h, b) of each product is
  Σ_j e(j, h) · x(j, b), the value stored at the first grid point, and the accumulator's entry plus that sum is the
  value stored at every later one.
-/
import proofs.«103525_g86423331930547_cont_9to1_m_1251_21_alg».proof.Proof.Gen.KernelIdeal.Skeleton
import proofs.«103525_g86423331930547_cont_9to1_m_1251_21_alg».proof.Proof.LibRowsContracted
import Idealize.ShloMosaic.Lib.Pipeline.Value

noncomputable section

open scoped BigOperators

namespace Cert.KernelIdeal.PayMath

open Cert.KernelIdeal Cert.KernelIdeal.Gen Idealize.ShloMosaic Idealize.ShloMosaic.ValueIdx

/-- The product of the transposed 800 × 128 block with an 800 × 2048 block into the zero accumulator, at entry
    (h, b): the sum over the 800 contracted rows. -/
theorem block_product_apply (A : FVec Ideal S800x128 .bf16) (B : FVec Ideal S800x2048 .bf16) (h : Fin 128) (b : Fin 2048) :
    matmul dot_S800x128_S800x2048_S128x2048_0_0_1_1_n_n none A B (constant (F := Ideal) S128x2048 .f32 0x00000000#32) (ix2 h b)
      = ∑ j : Fin 800, A (ix2 j h) * B (ix2 j b) :=
  Cert.LibRowsContracted.matmul_zero_apply none A B h b

/-- The first half's product at entry (h, b). -/
theorem pay2_apply (v0 : Vec Ideal S800x128 .f32) (v2 : Vec Ideal S800x2048 .f32) (h : Fin 128) (b : Fin 2048) :
    k0_pay2 (F := Ideal) v0 v2 (ix2 h b) = ∑ j : Fin 800, v0 (ix2 j h) * v2 (ix2 j b) := by
  unfold k0_pay2 k0_pay1
  refine (block_product_apply _ _ h b).trans ?_
  refine Finset.sum_congr rfl fun j _ => ?_
  refine congrArg (v0 (ix2 j h) * ·) ?_
  exact congrFun (shapeCast_self v2 _) (ix2 j b)

/-- The second half's product at entry (h, b). -/
theorem pay3_apply (v0 : Vec Ideal S800x128 .f32) (v6 : Vec Ideal S800x2048 .f32) (h : Fin 128) (b : Fin 2048) :
    k0_pay3 (F := Ideal) v0 v6 (ix2 h b) = ∑ j : Fin 800, v0 (ix2 j h) * v6 (ix2 j b) := by
  unfold k0_pay3 k0_pay1
  refine (block_product_apply _ _ h b).trans ?_
  refine Finset.sum_congr rfl fun j _ => ?_
  refine congrArg (v0 (ix2 j h) * ·) ?_
  exact congrFun (shapeCast_self v6 _) (ix2 j b)

/-- What the first grid point stores in the accumulator's first half, at entry (h, b). -/
theorem pay4_apply (v0 : Vec Ideal S800x128 .f32) (v2 : Vec Ideal S800x2048 .f32) (h : Fin 128) (b : Fin 2048) :
    k0_pay4 (F := Ideal) v0 v2 (ix2 h b) = ∑ j : Fin 800, v0 (ix2 j h) * v2 (ix2 j b) := by
  unfold k0_pay4
  exact (congrFun (shapeCast_self (k0_pay2 (F := Ideal) v0 v2) _) (ix2 h b)).trans (pay2_apply v0 v2 h b)

/-- What the first grid point stores in the accumulator's second half, at entry (h, b). -/
theorem pay5_apply (v0 : Vec Ideal S800x128 .f32) (v6 : Vec Ideal S800x2048 .f32) (h : Fin 128) (b : Fin 2048) :
    k0_pay5 (F := Ideal) v0 v6 (ix2 h b) = ∑ j : Fin 800, v0 (ix2 j h) * v6 (ix2 j b) := by
  unfold k0_pay5
  exact (congrFun (shapeCast_self (k0_pay3 (F := Ideal) v0 v6) _) (ix2 h b)).trans (pay3_apply v0 v6 h b)

/-- What a later grid point stores in the accumulator's first half: the entry it found plus the product's. -/
theorem pay6_apply (v0 : Vec Ideal S800x128 .f32) (v2 : Vec Ideal S800x2048 .f32) (v19 : Vec Ideal S128x2048 .f32)
    (h : Fin 128) (b : Fin 2048) :
    k0_pay6 (F := Ideal) v0 v2 v19 (ix2 h b) = v19 (ix2 h b) + ∑ j : Fin 800, v0 (ix2 j h) * v2 (ix2 j b) := by
  unfold k0_pay6
  refine (congrFun (shapeCast_self (addf v19 (k0_pay2 (F := Ideal) v0 v2)) _) (ix2 h b)).trans ?_
  exact congrArg (v19 (ix2 h b) + ·) (pay2_apply v0 v2 h b)

/-- What a later grid point stores in the accumulator's second half. -/
theorem pay7_apply (v0 : Vec Ideal S800x128 .f32) (v6 : Vec Ideal S800x2048 .f32) (v24 : Vec Ideal S128x2048 .f32)
    (h : Fin 128) (b : Fin 2048) :
    k0_pay7 (F := Ideal) v0 v6 v24 (ix2 h b) = v24 (ix2 h b) + ∑ j : Fin 800, v0 (ix2 j h) * v6 (ix2 j b) := by
  unfold k0_pay7
  refine (congrFun (shapeCast_self (addf v24 (k0_pay3 (F := Ideal) v0 v6)) _) (ix2 h b)).trans ?_
  exact congrArg (v24 (ix2 h b) + ·) (pay3_apply v0 v6 h b)

end Cert.KernelIdeal.PayMath

end
-- ==== Proof.Spec.lean ====
/-
  The mathematics both programs compute, stated once over the extended reals and over no program.

  From a cell-by-gene matrix `x` (4096 × 20000), a gene embedding table `e` (20000 × 128), a scale and a
  bias vector (128 each):  h(b, ·) = gelu (Σ_g x(b, g) · e(g, ·))  with the tanh form of gelu, then a layer
  normalisation of each row b over its 128 entries — subtract the row's mean, multiply by the reciprocal
  square root of the row's variance plus ε, scale and shift entry by entry.  Every float constant is the
  exact binary value of its f32 word; the same words stand in both programs, so none is ever evaluated.
-/
import Idealize.ShloMosaic.PureOps.Ideal
import Idealize.ShloMosaic.Lib.ValueIdx

noncomputable section

namespace Cert.Embedder

open Idealize.ShloMosaic Idealize.ShloMosaic.ValueIdx
open scoped BigOperators

/-- The cubic coefficient of the tanh form of gelu, 0.044715 as an f32 word. -/
def cCubic : EReal := Ideal.ofBits .f32 0x3D372713#32
/-- √(2/π) as an f32 word. -/
def cScale : EReal := Ideal.ofBits .f32 0x3F4C422A#32
/-- 1 as an f32 word. -/
def cOne : EReal := Ideal.ofBits .f32 0x3F800000#32
/-- 1/2 as an f32 word. -/
def cHalf : EReal := Ideal.ofBits .f32 0x3F000000#32
/-- 128, the length of a row, as an f32 word. -/
def cLen : EReal := Ideal.ofBits .f32 0x43000000#32
/-- The layer normalisation's ε, 1e-5 as an f32 word. -/
def cEps : EReal := Ideal.ofBits .f32 0x3727C5AC#32

/-- gelu in its tanh form: z · (1/2 · (1 + tanh (√(2/π) · (z + 0.044715 · z³)))), the cube as (z·z)·z. -/
def gelu (z : EReal) : EReal :=
  z * (cHalf * (cOne + Ideal.tanh (cScale * (z + cCubic * ((z * z) * z)))))

/-- Entry (b, h) of the product x · e: the sum over the 20000 genes. -/
def dot (x : Fin 4096 → Fin 20000 → EReal) (e : Fin 20000 → Fin 128 → EReal) (b : Fin 4096) (h : Fin 128) : EReal :=
  ∑ g : Fin 20000, x b g * e g h

/-- The mean of a row of 128 entries. -/
def mean (a : Fin 128 → EReal) : EReal := Ideal.div (∑ h : Fin 128, a h) cLen

/-- The (biased) variance of a row: the mean of the squared deviations from the row's mean. -/
def var (a : Fin 128 → EReal) : EReal :=
  Ideal.div (∑ h : Fin 128, (a h - mean a) * (a h - mean a)) cLen

/-- One normalised entry: ((a h − mean) · rsqrt (var + ε)) · scale h + bias h. -/
def norm (a : Fin 128 → EReal) (s t : Fin 128 → EReal) (h : Fin 128) : EReal :=
  ((a h - mean a) * Ideal.rsqrt (var a + cEps)) * s h + t h

/-- Row b after the activation. -/
def act (x : Fin 4096 → Fin 20000 → EReal) (e : Fin 20000 → Fin 128 → EReal) (b : Fin 4096) : Fin 128 → EReal :=
  fun h => gelu (dot x e b h)

/-- The result array, 4096 × 128, as one function of the four argument arrays. -/
def result (X : (⟨2, ![4096, 20000]⟩ : Shape).Idx → EReal) (E : (⟨2, ![20000, 128]⟩ : Shape).Idx → EReal)
    (S T : (⟨1, ![128]⟩ : Shape).Idx → EReal) : (⟨2, ![4096, 128]⟩ : Shape).Idx → EReal :=
  fun j => norm (act (fun b g => X (ix2 b g)) (fun g h => E (ix2 g h)) (j 0)) (fun h => S (ix1 h)) (fun h => T (ix1 h)) (j 1)

theorem result_apply (X : (⟨2, ![4096, 20000]⟩ : Shape).Idx → EReal) (E : (⟨2, ![20000, 128]⟩ : Shape).Idx → EReal)
    (S T : (⟨1, ![128]⟩ : Shape).Idx → EReal) (b : Fin 4096) (h : Fin 128) :
    result X E S T (ix2 b h)
      = norm (act (fun b g => X (ix2 b g)) (fun g h => E (ix2 g h)) b) (fun h => S (ix1 h)) (fun h => T (ix1 h)) h := rfl

end Cert.Embedder

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.PayEpilogue.lean ====
/-
  The last grid point's arithmetic, read at an entry on the extended reals.

  From the 128 × 4096 accumulator (hidden unit by batch row) the body applies the tanh form of gelu entry by entry,
  then normalises each COLUMN over its 128 hidden units: the column's mean is its sum divided by 128, the variance
  the mean of the squared deviations, and every entry becomes (entry − mean) · rsqrt (variance + ε), scaled and
  shifted by the hidden unit's own scale and bias (two 128 × 1 columns repeated along the batch); the result is
  transposed to 4096 × 128.  Entry (b, h) of the result is therefore the normalised entry h of the row
  h' ↦ gelu (accumulator (h', b)).  The kernel cubes as z · (z · z); the product on the extended reals commutes.
-/
import proofs.«103525_g86423331930547_cont_9to1_m_1251_21_alg».proof.Proof.Gen.KernelIdeal.Skeleton
import proofs.«103525_g86423331930547_cont_9to1_m_1251_21_alg».proof.Proof.Spec
import proofs.«103525_g86423331930547_cont_9to1_m_1251_21_alg».proof.Proof.LibKeepdimsCols
import proofs.«103525_g86423331930547_cont_9to1_m_1251_21_alg».proof.Proof.LibKeepdims
import Idealize.ShloMosaic.Lib.Pipeline.Value
import Idealize.ShloMosaic.Lib.ValueLayout

noncomputable section

open scoped BigOperators

namespace Cert.KernelIdeal.PayMath

open Cert.KernelIdeal Cert.KernelIdeal.Gen Idealize.ShloMosaic Idealize.ShloMosaic.ValueIdx Cert.Embedder

/-- The activation applied to the whole accumulator. -/
def actV (a : FVec Ideal S128x4096 .f32) : FVec Ideal S128x4096 .f32 :=
  mulf a (mulf (broadcast S128x4096 (Scalar.ofBits (F := Ideal) .f32 0x3F000000#32))
    (addf (broadcast S128x4096 (Scalar.ofBits (F := Ideal) .f32 0x3F800000#32))
      (tanh (mulf (broadcast S128x4096 (Scalar.ofBits (F := Ideal) .f32 0x3F4C422A#32))
        (addf a (mulf (broadcast S128x4096 (Scalar.ofBits (F := Ideal) .f32 0x3D372713#32)) (mulf a (mulf a a))))))))

/-- Entry by entry it is gelu: the two ways of cubing agree. -/
theorem actV_apply (a : FVec Ideal S128x4096 .f32) (i : S128x4096.Idx) : actV a i = gelu (a i) := by
  show a i * (Ideal.ofBits .f32 0x3F000000#32 * (Ideal.ofBits .f32 0x3F800000#32
      + Ideal.tanh (Ideal.ofBits .f32 0x3F4C422A#32 * (a i + Ideal.ofBits .f32 0x3D372713#32 * (a i * (a i * a i)))))) = _
  unfold gelu cHalf cOne cScale cCubic
  rw [mul_comm (a i) (a i * a i)]

/-- The sums of the columns, kept as one row. -/
def colSumRow (g : FVec Ideal S128x4096 .f32) : FVec Ideal S1x4096 .f32 :=
  shapeCast S1x4096 (multiReduction .add [0] S4096 g 0x00000000#32 reduces_S128x4096_S4096 (.inl rfl) rfl)
    shapeCasts_S4096_S1x4096

theorem colSumRow_apply (g : FVec Ideal S128x4096 .f32) (u : Fin 1) (b : Fin 4096) :
    colSumRow g (ix2 u b) = ∑ r : Fin 128, g (ix2 r b) := by
  unfold colSumRow
  refine (shapeCast_a_1a_apply _ _ u b).trans ?_
  exact Cert.LibKeepdimsCols.multiReduction_add_cols g _ _ _ _ b

/-- The means of the columns, as one row. -/
def meanRow (g : FVec Ideal S128x4096 .f32) : FVec Ideal S1x4096 .f32 :=
  divf (colSumRow g) (broadcast S1x4096 (Scalar.ofBits (F := Ideal) .f32 0x43000000#32))

theorem meanRow_apply (g : FVec Ideal S128x4096 .f32) (u : Fin 1) (b : Fin 4096) :
    meanRow g (ix2 u b) = mean (fun r => g (ix2 r b)) := by
  show Ideal.div (colSumRow g (ix2 u b)) (Ideal.ofBits .f32 0x43000000#32) = _
  rw [colSumRow_apply]
  rfl

/-- Every entry less its column's mean. -/
def centered (g : FVec Ideal S128x4096 .f32) : FVec Ideal S128x4096 .f32 :=
  subf g (broadcastTo S128x4096 (meanRow g) broadcasts_S1x4096_S128x4096)

theorem centered_apply (g : FVec Ideal S128x4096 .f32) (r : Fin 128) (b : Fin 4096) :
    centered g (ix2 r b) = g (ix2 r b) - mean (fun r' => g (ix2 r' b)) := by
  show g (ix2 r b) - broadcastTo S128x4096 (meanRow g) broadcasts_S1x4096_S128x4096 (ix2 r b) = _
  exact congrArg (g (ix2 r b) - ·) ((broadcastTo_1b_ab_apply _ _ r b).trans (meanRow_apply g 0 b))

/-- The variances of the columns, as one row. -/
def varRow (g : FVec Ideal S128x4096 .f32) : FVec Ideal S1x4096 .f32 :=
  divf (colSumRow (mulf (centered g) (centered g))) (broadcast S1x4096 (Scalar.ofBits (F := Ideal) .f32 0x43000000#32))

theorem varRow_apply (g : FVec Ideal S128x4096 .f32) (u : Fin 1) (b : Fin 4096) :
    varRow g (ix2 u b) = var (fun r => g (ix2 r b)) := by
  show Ideal.div (colSumRow (mulf (centered g) (centered g)) (ix2 u b)) (Ideal.ofBits .f32 0x43000000#32) = _
  rw [colSumRow_apply]
  unfold var cLen
  refine congrArg (fun x => Ideal.div x (Ideal.ofBits .f32 0x43000000#32)) (Finset.sum_congr rfl fun r _ => ?_)
  show centered g (ix2 r b) * centered g (ix2 r b) = _
  rw [centered_apply]

/-- The normalisation of the columns, scaled, shifted and transposed. -/
def lnV (g : FVec Ideal S128x4096 .f32) (s t : FVec Ideal S128x1 .f32) : FVec Ideal S4096x128 .f32 :=
  transpose S4096x128 [1, 0]
    (addf
      (mulf
        (mulf (centered g)
          (broadcastTo S128x4096
            (rsqrt (addf (varRow g) (broadcast S1x4096 (Scalar.ofBits (F := Ideal) .f32 0x3727C5AC#32))))
            broadcasts_S1x4096_S128x4096))
        (broadcastTo S128x4096 (shapeCast S128x1 s shapeCasts_S128x1_S128x1) broadcasts_S128x1_S128x4096))
      (broadcastTo S128x4096 (shapeCast S128x1 t shapeCasts_S128x1_S128x1) broadcasts_S128x1_S128x4096))
    transposes_S128x4096_p1_0_S4096x128

theorem lnV_apply (g : FVec Ideal S128x4096 .f32) (s t : FVec Ideal S128x1 .f32) (b : Fin 4096) (h : Fin 128) :
    lnV g s t (ix2 b h)
      = norm (fun r => g (ix2 r b)) (fun r => s (ix2 r (0 : Fin 1))) (fun r => t (ix2 r (0 : Fin 1))) h := by
  unfold lnV
  refine (transpose_ix2_apply _ _ b h).trans ?_
  show centered g (ix2 h b)
        * broadcastTo S128x4096
            (rsqrt (addf (varRow g) (broadcast S1x4096 (Scalar.ofBits (F := Ideal) .f32 0x3727C5AC#32))))
            broadcasts_S1x4096_S128x4096 (ix2 h b)
        * broadcastTo S128x4096 (shapeCast S128x1 s shapeCasts_S128x1_S128x1) broadcasts_S128x1_S128x4096 (ix2 h b)
      + broadcastTo S128x4096 (shapeCast S128x1 t shapeCasts_S128x1_S128x1) broadcasts_S128x1_S128x4096 (ix2 h b) = _
  rw [broadcastTo_1b_ab_apply, Cert.LibKeepdims.broadcastTo_a1_ab_apply, Cert.LibKeepdims.broadcastTo_a1_ab_apply,
    shapeCast_self, shapeCast_self, centered_apply]
  show (g (ix2 h b) - mean fun r' => g (ix2 r' b))
        * Ideal.rsqrt (varRow g (ix2 (0 : Fin 1) b) + Ideal.ofBits .f32 0x3727C5AC#32)
        * s (ix2 h (0 : Fin 1)) + t (ix2 h (0 : Fin 1)) = _
  rw [varRow_apply]
  rfl

/-- The last grid point's payload is the normalisation of the activation of the accumulator. -/
theorem pay8_eq (a : Vec Ideal S128x4096 .f32) (s t : Vec Ideal S128x1 .f32) :
    k0_pay8 (F := Ideal) a s t = lnV (actV a) s t := rfl

/-- Entry (b, h) of what the last grid point stores. -/
theorem pay8_apply (a : Vec Ideal S128x4096 .f32) (s t : Vec Ideal S128x1 .f32) (b : Fin 4096) (h : Fin 128) :
    k0_pay8 (F := Ideal) a s t (ix2 b h)
      = Cert.Embedder.norm (fun h' : Fin 128 => Cert.Embedder.gelu (a (ix2 h' b))) (fun h' => s (ix2 h' 0))
          (fun h' => t (ix2 h' 0)) h := by
  rw [pay8_eq, lnV_apply]
  exact congrArg (fun f => norm f (fun r => s (ix2 r (0 : Fin 1))) (fun r => t (ix2 r (0 : Fin 1))) h)
    (funext fun r => actV_apply a (ix2 r b))

end Cert.KernelIdeal.PayMath

end
-- ==== Proof.KernelIdealValueCases.lean ====
/-
  The three cases of the body on the extended reals, entry by entry.

  With e the embedding block (800 × 128), x the two blocks of the transposed input side by side (800 × 4096) and
  a the accumulator as the point found it: the first point leaves Σ_j e(j, h) · x(j, b) at (h, b); a later point
  leaves a(h, b) plus that sum; the last point moreover stores, at (b, h) of the output block, the normalised entry
  h of the row h' ↦ gelu (accumulator (h', b)), the accumulator being the one that point leaves.
-/
import proofs.«103525_g86423331930547_cont_9to1_m_1251_21_alg».proof.Proof.KernelIdealValuePieces
import proofs.«103525_g86423331930547_cont_9to1_m_1251_21_alg».proof.Proof.PayMatmul
import proofs.«103525_g86423331930547_cont_9to1_m_1251_21_alg».proof.Proof.PayEpilogue
import proofs.«103525_g86423331930547_cont_9to1_m_1251_21_alg».proof.Proof.Spec
import Idealize.ShloMosaic.Lib.Pipeline.Value
import Idealize.ShloMosaic.Lib.ValueIdx

-- membership in a rectangle of these extents recurses once per coordinate of the long axes
set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.PayMath

/-- The first point: the products. -/
theorem soutFirst_apply (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : condFirst i) (hL : ¬condLater i) (hE : ¬condLast i) (x0 : Vec Ideal S800x2048 .f32) (x1 : Vec Ideal S800x2048 .f32) (x2 : Vec Ideal S800x128 .f32) (x3 : Vec Ideal S128x1 .f32) (x4 : Vec Ideal S128x1 .f32) (h : Fin 128) (b : Fin 4096) :
    soutFirst (F := Ideal) c i arg1 harg1 arg2 harg2 arg3 harg3 arg4 harg4 arg5 harg5 arg6 harg6 arg7 harg7 hF hL hE x0 x1 x2 x3 x4 (ix2 h b) = ∑ j : Fin 800, x2 (ix2 j h) * catCols x0 x1 j b := by
  rw [soutFirst_eq, canon_halves_apply]
  by_cases hb : b.val < 2048
  · simp only [catHalves, catCols, dif_pos hb]
    exact pay4_apply x2 x0 h ⟨b.val, hb⟩
  · simp only [catHalves, catCols, dif_neg hb]
    exact pay5_apply x2 x1 h ⟨b.val - 2048, by have := b.isLt; omega⟩

/-- Two column halves loaded and put side by side again are the array. -/
theorem catHalves_ld {Val : EltTy → Type} (xs : S128x4096.Idx → Val .f32) (h : Fin 128) (b : Fin 4096) :
    catHalves (View.ld xs rectL : S128x2048.Idx → Val .f32) (View.ld xs rectR : S128x2048.Idx → Val .f32) h b = xs (ix2 h b) := by
  unfold catHalves
  split
  · exact ld_rectL_apply xs h _
  · rename_i hb
    refine (ld_rectR_apply xs h _).trans (congrArg xs (congrArg (ix2 h) (Fin.ext ?_)))
    show 2048 + (b.val - 2048) = b.val
    omega

/-- The value two later stores leave at (h, b), whichever half b is in. -/
theorem later_apply (x0 x1 : Vec Ideal S800x2048 .f32) (x2 : Vec Ideal S800x128 .f32) (xs : Vec Ideal S128x4096 .f32)
    (h : Fin 128) (b : Fin 4096) :
    catHalves (k0_pay6 (F := Ideal) x2 x0 (View.ld xs rectL)) (k0_pay7 (F := Ideal) x2 x1 (View.ld xs rectR)) h b
      = xs (ix2 h b) + ∑ j : Fin 800, x2 (ix2 j h) * catCols x0 x1 j b := by
  rw [← catHalves_ld xs h b]
  by_cases hb : b.val < 2048
  · simp only [catHalves, catCols, dif_pos hb]
    exact pay6_apply x2 x0 _ h ⟨b.val, hb⟩
  · simp only [catHalves, catCols, dif_neg hb]
    exact pay7_apply x2 x1 _ h ⟨b.val - 2048, by have := b.isLt; omega⟩

/-- A later point: what the accumulator held plus the products. -/
theorem soutLater_apply (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : ¬condLast i) (x0 : Vec Ideal S800x2048 .f32) (x1 : Vec Ideal S800x2048 .f32) (x2 : Vec Ideal S800x128 .f32) (x3 : Vec Ideal S128x1 .f32) (x4 : Vec Ideal S128x1 .f32) (xs : Vec Ideal S128x4096 .f32) (h : Fin 128) (b : Fin 4096) :
    soutLater (F := Ideal) c i arg1 harg1 arg2 harg2 arg3 harg3 arg4 harg4 arg5 harg5 arg6 harg6 arg7 harg7 hF hL hE x0 x1 x2 x3 x4 xs (ix2 h b)
      = xs (ix2 h b) + ∑ j : Fin 800, x2 (ix2 j h) * catCols x0 x1 j b := by
  rw [soutLater_eq, canon_halves_apply]
  exact later_apply x0 x1 x2 xs h b

/-- The last point: the same. -/
theorem soutLast_apply (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i) (x0 : Vec Ideal S800x2048 .f32) (x1 : Vec Ideal S800x2048 .f32) (x2 : Vec Ideal S800x128 .f32) (x3 : Vec Ideal S128x1 .f32) (x4 : Vec Ideal S128x1 .f32) (xs : Vec Ideal S128x4096 .f32) (h : Fin 128) (b : Fin 4096) :
    soutLast (F := Ideal) c i arg1 harg1 arg2 harg2 arg3 harg3 arg4 harg4 arg5 harg5 arg6 harg6 arg7 harg7 hF hL hE x0 x1 x2 x3 x4 xs (ix2 h b)
      = xs (ix2 h b) + ∑ j : Fin 800, x2 (ix2 j h) * catCols x0 x1 j b := by
  rw [soutLast_eq, canon_halves_apply]
  exact later_apply x0 x1 x2 xs h b

/-- The last point's output block at (b, h): the normalised activation of column b of the accumulator it leaves. -/
theorem outLast5_apply (c : Dev nD) (i : grid0.Coords) (arg1 : Memref sig .tc .vmem S800x2048 .f32) (harg1 : arg1.IsWhole) (arg2 : Memref sig .tc .vmem S800x2048 .f32) (harg2 : arg2.IsWhole) (arg3 : Memref sig .tc .vmem S800x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S4096x128 .f32) (harg6 : arg6.IsWhole) (arg7 : Memref sig .tc .vmem S128x4096 .f32) (harg7 : arg7.IsWhole) (hF : ¬condFirst i) (hL : condLater i) (hE : condLast i) (x0 : Vec Ideal S800x2048 .f32) (x1 : Vec Ideal S800x2048 .f32) (x2 : Vec Ideal S800x128 .f32) (x3 : Vec Ideal S128x1 .f32) (x4 : Vec Ideal S128x1 .f32) (xs : Vec Ideal S128x4096 .f32) (b : Fin 4096) (h : Fin 128) :
    outLast5 (F := Ideal) c i arg1 harg1 arg2 harg2 arg3 harg3 arg4 harg4 arg5 harg5 arg6 harg6 arg7 harg7 hF hL hE x0 x1 x2 x3 x4 xs (ix2 b h)
      = Cert.Embedder.norm (fun h' : Fin 128 => Cert.Embedder.gelu (soutLast (F := Ideal) c i arg1 harg1 arg2 harg2 arg3 harg3 arg4 harg4 arg5 harg5 arg6 harg6 arg7 harg7 hF hL hE x0 x1 x2 x3 x4 xs (ix2 h' b)))
          (fun h' => x3 (ix2 h' 0)) (fun h' => x4 (ix2 h' 0)) h := by
  rw [outLast5_eq]
  exact pay8_apply _ x3 x4 b h

end Cert.KernelIdeal.Hand

end
-- ==== Proof.KernelIdealValueBlocks.lean ====
/-
  The arrays the region finds and the windows' blocks, read at an index.

  Before the region the program transposes x and reshapes the scale and the bias to columns; the embedding table
  is an argument as it stands.  Point t's block of the table is its rows 800t … 800t + 799; its two blocks of the
  transposed x are the same rows of the left and of the right 2048 columns; the scale and bias columns are whole
  blocks at every point.
-/
import proofs.«103525_g86423331930547_cont_9to1_m_1251_21_alg».proof.Proof.KernelIdealValuePieces
import proofs.«103525_g86423331930547_cont_9to1_m_1251_21_alg».proof.Proof.LibKeepdims
import Idealize.ShloMosaic.Lib.Pipeline.Value
import Idealize.ShloMosaic.Lib.ValueIdx
import Idealize.ShloMosaic.Lib.ValueLayout

-- membership in a rectangle of these extents recurses once per coordinate of the long axes
set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays at the region's entry -/

theorem V_v0 (c : Dev nD) : (V m ρ c main_v0 : S20000x4096.Idx → Elt F .f32)
    = transpose S20000x4096 [1, 0] (m ((c : Thread nD τ).loc main_arg0)) transposes_S4096x20000_S20000x4096_1_0 := by
  dsimp only [V, W1, W0, hostOps0]; after_results

theorem V_v1 (c : Dev nD) : (V m ρ c main_v1 : S128x1.Idx → Elt F .f32)
    = shapeCast S128x1 (m ((c : Thread nD τ).loc main_arg2)) shapeCasts_S128_S128x1 := by
  dsimp only [V, W1, W0, hostOps0]; after_results; try rfl

theorem V_v2 (c : Dev nD) : (V m ρ c main_v2 : S128x1.Idx → Elt F .f32)
    = shapeCast S128x1 (m ((c : Thread nD τ).loc main_arg3)) shapeCasts_S128_S128x1 := by
  dsimp only [V, W1, W0, hostOps0]; after_results; try rfl

theorem V_arg1 (c : Dev nD) : (V m ρ c main_arg1 : S20000x128.Idx → Elt F .f32) = m ((c : Thread nD τ).loc main_arg1) := by
  dsimp only [V, W1, W0, hostOps0]; after_results; try rfl

/-! ## The windows' block indices over the grid, and the blocks -/

theorem idx2 : ∀ t : Fin cfg0.N, win0_2.index t 0 = t.val ∧ win0_2.index t 1 = 0 :=
  (by decide +kernel : ∀ t : Fin grid0.N, win0_2.index t 0 = t.val ∧ win0_2.index t 1 = 0)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 1 :=
  (by decide +kernel : ∀ t : Fin grid0.N, win0_1.index t 0 = t.val ∧ win0_1.index t 1 = 1)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

theorem iblk2_apply (c : Dev nD) (t : Fin cfg0.N) (j : Fin 800) (h : Fin 128) :
    (iblk m ρ c 2 t : Vec F S800x128 .f32) (ix2 j h)
      = (V m ρ c main_arg1 : S20000x128.Idx → Elt F .f32) (ix2 ⟨800 * t.val + j.val, by have := t.isLt; have : cfg0.N = 25 := N_0; omega⟩ h) := by
  unfold iblk
  rw [View.read_apply]
  show V m ρ c main_arg1 _ = V m ρ c main_arg1 _
  refine congrArg (V m ρ c main_arg1) (funext fun a => Fin.ext ?_)
  match a with
  | ⟨0, _⟩ => show win0_2.index t 0 * 800 + 1 * j.val = 800 * t.val + j.val; rw [(idx2 t).1]; omega
  | ⟨1, _⟩ => show win0_2.index t 1 * 128 + 1 * h.val = h.val; rw [(idx2 t).2]; omega

theorem iblk0_apply (c : Dev nD) (t : Fin cfg0.N) (j : Fin 800) (b : Fin 2048) :
    (iblk m ρ c 0 t : Vec F S800x2048 .f32) (ix2 j b)
      = (V m ρ c main_v0 : S20000x4096.Idx → Elt F .f32) (ix2 ⟨800 * t.val + j.val, by have := t.isLt; have : cfg0.N = 25 := N_0; omega⟩ ⟨b.val, by have := b.isLt; omega⟩) := by
  unfold iblk
  rw [View.read_apply]
  show V m ρ c main_v0 _ = V m ρ c main_v0 _
  refine congrArg (V m ρ c main_v0) (funext fun a => Fin.ext ?_)
  match a with
  | ⟨0, _⟩ => show win0_0.index t 0 * 800 + 1 * j.val = 800 * t.val + j.val; rw [(idx0 t).1]; omega
  | ⟨1, _⟩ => show win0_0.index t 1 * 2048 + 1 * b.val = b.val; rw [(idx0 t).2]; omega

theorem iblk1_apply (c : Dev nD) (t : Fin cfg0.N) (j : Fin 800) (b : Fin 2048) :
    (iblk m ρ c 1 t : Vec F S800x2048 .f32) (ix2 j b)
      = (V m ρ c main_v0 : S20000x4096.Idx → Elt F .f32) (ix2 ⟨800 * t.val + j.val, by have := t.isLt; have : cfg0.N = 25 := N_0; omega⟩ ⟨2048 + b.val, by have := b.isLt; omega⟩) := by
  unfold iblk
  rw [View.read_apply]
  show V m ρ c main_v0 _ = V m ρ c main_v0 _
  refine congrArg (V m ρ c main_v0) (funext fun a => Fin.ext ?_)
  match a with
  | ⟨0, _⟩ => show win0_1.index t 0 * 800 + 1 * j.val = 800 * t.val + j.val; rw [(idx1 t).1]; omega
  | ⟨1, _⟩ => show win0_1.index t 1 * 2048 + 1 * b.val = 2048 + b.val; rw [(idx1 t).2]; omega

theorem iblk3_apply (c : Dev nD) (t : Fin cfg0.N) (h : Fin 128) (u : Fin 1) :
    (iblk m ρ c 3 t : Vec F S128x1 .f32) (ix2 h u) = (V m ρ c main_v1 : S128x1.Idx → Elt F .f32) (ix2 h u) := by
  unfold iblk
  rw [View.read_apply]
  show V m ρ c main_v1 _ = V m ρ c main_v1 _
  refine congrArg (V m ρ c main_v1) (funext fun a => Fin.ext ?_)
  match a with
  | ⟨0, _⟩ => show win0_3.index t 0 * 128 + 1 * h.val = h.val; rw [(idx3 t).1]; omega
  | ⟨1, _⟩ => show win0_3.index t 1 * 1 + 1 * u.val = u.val; rw [(idx3 t).2]; omega

theorem iblk4_apply (c : Dev nD) (t : Fin cfg0.N) (h : Fin 128) (u : Fin 1) :
    (iblk m ρ c 4 t : Vec F S128x1 .f32) (ix2 h u) = (V m ρ c main_v2 : S128x1.Idx → Elt F .f32) (ix2 h u) := by
  unfold iblk
  rw [View.read_apply]
  show V m ρ c main_v2 _ = V m ρ c main_v2 _
  refine congrArg (V m ρ c main_v2) (funext fun a => Fin.ext ?_)
  match a with
  | ⟨0, _⟩ => show win0_4.index t 0 * 128 + 1 * h.val = h.val; rw [(idx4 t).1]; omega
  | ⟨1, _⟩ => show win0_4.index t 1 * 1 + 1 * u.val = u.val; rw [(idx4 t).2]; omega

/-! ## The blocks in the arguments' own coordinates -/

/-- The transposed x at (g, b) is x at (b, g). -/
theorem V_v0_apply (c : Dev nD) (g : Fin 20000) (b : Fin 4096) :
    (V m ρ c main_v0 : S20000x4096.Idx → Elt F .f32) (ix2 g b) = m ((c : Thread nD τ).loc main_arg0) (ix2 b g) := by
  rw [V_v0]
  exact transpose_ix2_apply _ _ g b

/-- The scale column at (h, 0) is the scale at h. -/
theorem V_v1_apply (c : Dev nD) (h : Fin 128) (u : Fin 1) :
    (V m ρ c main_v1 : S128x1.Idx → Elt F .f32) (ix2 h u) = m ((c : Thread nD τ).loc main_arg2) (ix1 h) := by
  rw [V_v1]
  exact Cert.LibKeepdims.shapeCast_a_a1_apply _ _ h u

/-- The bias column at (h, 0) is the bias at h. -/
theorem V_v2_apply (c : Dev nD) (h : Fin 128) (u : Fin 1) :
    (V m ρ c main_v2 : S128x1.Idx → Elt F .f32) (ix2 h u) = m ((c : Thread nD τ).loc main_arg3) (ix1 h) := by
  rw [V_v2]
  exact Cert.LibKeepdims.shapeCast_a_a1_apply _ _ h u

/-- Point t's two blocks of the transposed x, side by side, are its rows 800t … 800t + 799. -/
theorem catCols_iblk (c : Dev nD) (t : Fin cfg0.N) (j : Fin 800) (b : Fin 4096) :
    catCols (iblk m ρ c 0 t : Vec F S800x2048 .f32) (iblk m ρ c 1 t : Vec F S800x2048 .f32) j b
      = (V m ρ c main_v0 : S20000x4096.Idx → Elt F .f32)
          (ix2 ⟨800 * t.val + j.val, by have := t.isLt; have : cfg0.N = 25 := N_0; omega⟩ b) := by
  unfold catCols
  split
  · rename_i hb
    exact iblk0_apply m ρ c t j ⟨b.val, hb⟩
  · rename_i hb
    refine (iblk1_apply m ρ c t j ⟨b.val - 2048, by have := b.isLt; omega⟩).trans
      (congrArg (V m ρ c main_v0 : S20000x4096.Idx → Elt F .f32) (congrArg (ix2 _) (Fin.ext ?_)))
    show 2048 + (b.val - 2048) = b.val
    omega

end Cert.KernelIdeal.Hand

end
-- ==== Proof.BlockSum.lean ====
/-
  Two facts about sums in an additive commutative monoid, used on the extended reals.

  A sum over 20000 indices is the sum, over 25 consecutive blocks of 800, of each block's sum; and a sequence that
  starts at its first term and adds one further term at every step is the sum of the terms so far.
-/
import Mathlib.Algebra.BigOperators.Fin
import Mathlib.Algebra.BigOperators.Group.Finset.Sigma
import Mathlib.Logic.Equiv.Fin.Basic
import Mathlib.Data.EReal.Basic

open scoped BigOperators

namespace Cert.KernelIdeal.PayMath

/-- Position `j` of block `k`, among `m` blocks of `n`, is below `m * n`. -/
theorem block_lt {m n : ℕ} (k : Fin m) (j : Fin n) : n * k.val + j.val < m * n := by
  have h1 : n * k.val + j.val < n * (k.val + 1) := by
    rw [Nat.mul_succ]; exact Nat.add_lt_add_left j.isLt _
  have h2 : n * (k.val + 1) ≤ n * m := Nat.mul_le_mul_left n k.isLt
  rw [Nat.mul_comm m n]; exact lt_of_lt_of_le h1 h2

/-- A sum over `m * n` indices, block by block. -/
theorem sum_blocks_of {M : Type*} [AddCommMonoid M] (m n : ℕ) (f : Fin (m * n) → M) :
    ∑ g : Fin (m * n), f g = ∑ k : Fin m, ∑ j : Fin n, f ⟨n * k.val + j.val, block_lt k j⟩ := by
  rw [← Equiv.sum_comp finProdFinEquiv f, Fintype.sum_prod_type]
  refine Finset.sum_congr rfl fun k _ => Finset.sum_congr rfl fun j _ => congrArg f (Fin.ext ?_)
  show j.val + n * k.val = n * k.val + j.val
  exact Nat.add_comm _ _

/-- A sum over 20000 indices as 25 blocks of 800. -/
theorem sum_blocks (f : Fin 20000 → EReal) :
    ∑ g : Fin 20000, f g = ∑ k : Fin 25, ∑ j : Fin 800, f ⟨800 * k.val + j.val, by omega⟩ :=
  sum_blocks_of 25 800 f

/-- A sequence that starts at `P 0` and adds `P (n + 1)` at step `n + 1`, for the steps below `N`, is at every
    `n ≤ N` the sum of `P 0 … P n`. -/
theorem fold_eq_sum_le {M : Type*} [AddCommMonoid M] (A P : ℕ → M) (N : ℕ) (h0 : A 0 = P 0)
    (hs : ∀ n, n < N → A (n + 1) = A n + P (n + 1)) :
    ∀ n, n ≤ N → A n = ∑ k : Fin (n + 1), P k.val := by
  intro n
  induction n with
  | zero => intro _; rw [h0, Fin.sum_univ_one]; rfl
  | succ n ih =>
    intro hn
    rw [hs n hn, ih (Nat.le_of_lt hn), Fin.sum_univ_castSucc (n := n + 1)]
    rfl

/-- The same with every step allowed. -/
theorem fold_eq_sum_all {M : Type*} [AddCommMonoid M] (A P : ℕ → M) (h0 : A 0 = P 0)
    (hs : ∀ n, A (n + 1) = A n + P (n + 1)) (n : ℕ) : A n = ∑ k : Fin (n + 1), P k.val :=
  fold_eq_sum_le A P n h0 (fun k _ => hs k) n (Nat.le_refl n)

/-- After 24 further steps the sequence is the sum of its 25 terms. -/
theorem fold_eq_sum (A P : ℕ → EReal) (h0 : A 0 = P 0) (hs : ∀ n, A (n + 1) = A n + P (n + 1)) :
    A 24 = ∑ k : Fin 25, P k.val :=
  fold_eq_sum_all A P h0 hs 24

/-- The bounded form at 24: only the steps below 24 are asked. -/
theorem fold_eq_sum_lt (A P : ℕ → EReal) (h0 : A 0 = P 0) (hs : ∀ n, n < 24 → A (n + 1) = A n + P (n + 1)) :
    A 24 = ∑ k : Fin 25, P k.val :=
  fold_eq_sum_le A P 24 h0 hs 24 (Nat.le_refl 24)

end Cert.KernelIdeal.PayMath
-- ==== Proof.KernelIdealValueAcc.lean ====
/-
  The accumulator, point by point, on the extended reals.

  After point n the accumulator holds at (h, b) the sum, over the blocks 0 … n of 800 genes, of
  Σ_j e(800k + j, h) · x(b, 800k + j): the first point stores its block's sum, every later point adds its own.
  After the last point that is the whole sum over the 20000 genes, the product x · e at (b, h).
-/
import proofs.«103525_g86423331930547_cont_9to1_m_1251_21_alg».proof.Proof.KernelIdealValueCases
import proofs.«103525_g86423331930547_cont_9to1_m_1251_21_alg».proof.Proof.KernelIdealValueBlocks
import proofs.«103525_g86423331930547_cont_9to1_m_1251_21_alg».proof.Proof.BlockSum
import proofs.«103525_g86423331930547_cont_9to1_m_1251_21_alg».proof.Proof.Spec
import Idealize.ShloMosaic.Lib.Pipeline.Value
import Idealize.ShloMosaic.Lib.ValueIdx

-- membership in a rectangle of these extents recurses once per coordinate of the long axes
set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The embedding table at (g, h), and the input at (b, g). -/
def embAt (c : Dev nD) (g : Fin 20000) (h : Fin 128) : EReal := m ((c : Thread nD τ).loc main_arg1) (ix2 g h)
def xAt (c : Dev nD) (b : Fin 4096) (g : Fin 20000) : EReal := m ((c : Thread nD τ).loc main_arg0) (ix2 b g)

/-- Gene `g`'s term of the product at (b, h): table entry (g, h) times input entry (b, g); zero past the table. -/
def dotTerm (c : Dev nD) (h : Fin 128) (b : Fin 4096) (g : ℕ) : EReal :=
  if hg : g < 20000 then embAt m c ⟨g, hg⟩ h * xAt m c b ⟨g, hg⟩ else 0

/-- Block `k`'s share of the product: its 800 genes. -/
def blockDot (c : Dev nD) (h : Fin 128) (b : Fin 4096) (k : ℕ) : EReal :=
  ∑ j : Fin 800, dotTerm m c h b (800 * k + j.val)

/-- What a point contributes at (h, b), from blocks that are rows 800k … 800k + 799 of the two arrays. -/
theorem blockStep_of (c : Dev nD) (x0 x1 : Vec Ideal S800x2048 .f32) (x2 : Vec Ideal S800x128 .f32) (k : ℕ) (hk : k < 25)
    (h2 : ∀ (j : Fin 800) (h : Fin 128), x2 (ix2 j h) = embAt m c ⟨800 * k + j.val, by have := j.isLt; omega⟩ h)
    (h01 : ∀ (j : Fin 800) (b : Fin 4096), catCols x0 x1 j b = xAt m c b ⟨800 * k + j.val, by have := j.isLt; omega⟩)
    (h : Fin 128) (b : Fin 4096) :
    ∑ j : Fin 800, x2 (ix2 j h) * catCols x0 x1 j b = blockDot m c h b k := by
  unfold blockDot
  refine Finset.sum_congr rfl fun j _ => ?_
  have hg : 800 * k + j.val < 20000 := by have := j.isLt; omega
  unfold dotTerm
  rw [dif_pos hg, h2 j h, h01 j b]

/-- Point t's table block is the table's rows 800t … 800t + 799. -/
theorem iblk2_emb (c : Dev nD) (t : Fin cfg0.N) (j : Fin 800) (h : Fin 128) :
    (iblk m ρ c 2 t : Vec Ideal S800x128 .f32) (ix2 j h)
      = embAt m c ⟨800 * t.val + j.val, by have := t.isLt; have : cfg0.N = 25 := N_0; have := j.isLt; omega⟩ h :=
  (iblk2_apply m ρ c t j h).trans (congrFun (V_arg1 m ρ c) _)

/-- Point t's two input blocks, side by side, are the same rows of the transposed input. -/
theorem catCols_x (c : Dev nD) (t : Fin cfg0.N) (j : Fin 800) (b : Fin 4096) :
    catCols (iblk m ρ c 0 t : Vec Ideal S800x2048 .f32) (iblk m ρ c 1 t : Vec Ideal S800x2048 .f32) j b
      = xAt m c b ⟨800 * t.val + j.val, by have := t.isLt; have : cfg0.N = 25 := N_0; have := j.isLt; omega⟩ :=
  (catCols_iblk m ρ c t j b).trans (V_v0_apply m ρ c _ b)

/-- The accumulator after point t, at (h, b): the shares of the blocks 0 … t. -/
theorem acc_eq (c : Dev nD) (h : Fin 128) (b : Fin 4096) : ∀ (n : ℕ) (t : Fin cfg0.N), t.val = n →
    (outsAt (F := Ideal) m ρ c t.val t.isLt).2 (ix2 h b) = ∑ k ∈ Finset.range (n + 1), blockDot m c h b k := by
  intro n
  induction n with
  | zero =>
    intro t ht
    have hN : cfg0.N = 25 := N_0
    have hF : condFirst (grid0.coords t) := (hcondFirst t).mpr ht
    have hL : ¬condLater (grid0.coords t) := fun h' => (hcondLater t).mp h' ht
    have hE : ¬condLast (grid0.coords t) := fun h' => by have := (hcondLast t).mp h'; omega
    have es := congrArg Prod.snd (outsAt_first m ρ c t ht hF hL hE)
    dsimp only at es
    rw [Finset.sum_range_one, es, soutFirst_apply]
    exact (blockStep_of m c _ _ _ t.val (by have := t.isLt; omega) (iblk2_emb m ρ c t) (catCols_x m ρ c t) h b).trans
      (congrArg (blockDot m c h b) ht)
  | succ n ih =>
    intro t ht
    have hN : cfg0.N = 25 := N_0
    have h0 : t.val ≠ 0 := by omega
    have hF : ¬condFirst (grid0.coords t) := fun h' => h0 ((hcondFirst t).mp h')
    have hL : condLater (grid0.coords t) := (hcondLater t).mpr h0
    have hlt : t.val - 1 < cfg0.N := Nat.lt_of_le_of_lt (Nat.sub_le _ _) t.isLt
    have ihn : (outsAt (F := Ideal) m ρ c (t.val - 1) hlt).2 (ix2 h b) = ∑ k ∈ Finset.range (n + 1), blockDot m c h b k :=
      ih ⟨t.val - 1, hlt⟩ (by show t.val - 1 = n; omega)
    have hstep := (blockStep_of m c _ _ _ t.val (by have := t.isLt; omega) (iblk2_emb m ρ c t) (catCols_x m ρ c t) h b).trans
      (congrArg (blockDot m c h b) ht)
    rw [Finset.sum_range_succ]
    by_cases h24 : t.val = 24
    · have hE : condLast (grid0.coords t) := (hcondLast t).mpr h24
      have es := congrArg Prod.snd (outsAt_last m ρ c t h24 hF hL hE)
      dsimp only at es
      rw [es, soutLast_apply]
      exact congrArg₂ (· + ·) ihn hstep
    · have hE : ¬condLast (grid0.coords t) := fun h' => h24 ((hcondLast t).mp h')
      have es := congrArg Prod.snd (outsAt_later m ρ c t h0 h24 hF hL hE)
      dsimp only at es
      rw [es, soutLater_apply]
      exact congrArg₂ (· + ·) ihn hstep

/-- The 25 blocks' shares make the product x · e at (b, h). -/
theorem sum_blockDot (c : Dev nD) (h : Fin 128) (b : Fin 4096) :
    ∑ k ∈ Finset.range 25, blockDot m c h b k
      = Cert.Embedder.dot (fun b g => xAt m c b g) (fun g h => embAt m c g h) b h := by
  unfold Cert.Embedder.dot
  rw [Cert.KernelIdeal.PayMath.sum_blocks, Finset.sum_range]
  refine Finset.sum_congr rfl fun k _ => ?_
  unfold blockDot
  refine Finset.sum_congr rfl fun j _ => ?_
  have hg : 800 * k.val + j.val < 20000 := by have := k.isLt; have := j.isLt; omega
  unfold dotTerm
  rw [dif_pos hg, mul_comm]

/-- The accumulator after the last point is the product x · e, read at (h, b). -/
theorem acc_last (c : Dev nD) (t : Fin cfg0.N) (h24 : t.val = 24) (h : Fin 128) (b : Fin 4096) :
    (outsAt (F := Ideal) m ρ c t.val t.isLt).2 (ix2 h b)
      = Cert.Embedder.dot (fun b g => xAt m c b g) (fun g h => embAt m c g h) b h :=
  (acc_eq m ρ c h b 24 t h24).trans (sum_blockDot m c h b)

end Cert.KernelIdeal.Hand

end
-- ==== Proof.KernelIdealValue.lean ====
/-
  The kernel's result array on the extended reals.

  The output window has one block, the whole 4096 × 128 array, and the pipeline writes it back at the last point
  only; what that point stores at (b, h) is the normalised entry h of the row h' ↦ gelu (accumulator (h', b)), and
  the accumulator then holds the product x · e.  So the array ends holding the specification's result.
-/
import proofs.«103525_g86423331930547_cont_9to1_m_1251_21_alg».proof.Proof.KernelIdealValueAcc
import Idealize.ShloMosaic.Lib.Pipeline.Value
import Idealize.ShloMosaic.Lib.ValueIdx

-- membership in a rectangle of these extents recurses once per coordinate of the long axes
set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Array

variable {F : FTy → Type} [FloatOps F]

variable (m : (ℓ : Loc nD τ sig) → Buf (Elt F) ℓ) (ρ : Dev nD → PrngReg)

theorem idx5 : ∀ t : Fin cfg0.N, win0_5.index t 0 = 0 ∧ win0_5.index t 1 = 0 :=
  (by decide +kernel : ∀ t : Fin grid0.N, win0_5.index t 0 = 0 ∧ win0_5.index t 1 = 0)

theorem xsize5 : ∀ t : Fin cfg0.N, win0_5.xsize (grid0.coords t) 0 = 4096 ∧ win0_5.xsize (grid0.coords t) 1 = 128 :=
  (by decide +kernel : ∀ t : Fin grid0.N, win0_5.xsize (grid0.coords t) 0 = 4096 ∧ win0_5.xsize (grid0.coords t) 1 = 128)

/-- The last grid point. -/
abbrev tLast : Fin cfg0.N := ⟨24, by rw [show cfg0.N = 25 from N_0]; decide⟩

theorem arr5_of (c : Dev nD) (G : Buf (Elt F) ((c : Thread nD τ).loc main_v3))
    (hG : ∀ t : Fin cfg0.N, t.val = 24 → (outsAt m ρ c t.val t.isLt).1 = G) :
    (dat0 m ρ c).arrAt 5 cfg0.N = G :=
  (dat0 m ρ c).arrAt_eq_of_cover 5 G (fun t hf => by
      have hN : cfg0.N = 25 := N_0
      have h24 : t.val = 24 := by have := (flush0_5 t).mp hf; have := t.isLt; omega
      show (cfg0.win 5).cut (grid0.coords t) ((dat0 m ρ c).after 5 t) = _
      rw [after5, hG t h24]
      have hz' : (fun a => win0_5.index t a * main_v3.ty.shape.size a) = fun _ => 0 := funext fun a => by
        match a with
        | ⟨0, _⟩ => show win0_5.index t 0 * 4096 = 0; rw [(idx5 t).1]
        | ⟨1, _⟩ => show win0_5.index t 1 * 128 = 0; rw [(idx5 t).2]
      exact (Memref.read_access_unit_zero (Elt F) main_v3 hz' (fun a => by rw [congrFun hz' a]; simp) G).symm)
    (fun i => ⟨tLast, (flush0_5 tLast).mpr rfl, by
      show i ∈ ((View.whole main_v3).slice (win0_5.rect tLast)).set
      rw [View.set_slice_whole, Rect.mem_set_unit]
      intro a
      have h0 : (i 0 : Nat) < 4096 := (i 0).isLt
      have h1 : (i 1 : Nat) < 128 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [(idx5 tLast).1, (xsize5 tLast).1]; omega
      | ⟨1, _⟩ =>
        show win0_5.index tLast 1 * win0_5.size 1 ≤ (i 1 : Nat) ∧ (i 1 : Nat) < win0_5.index tLast 1 * win0_5.size 1 + win0_5.xsize (grid0.coords tLast) 1
        rw [(idx5 tLast).2, (xsize5 tLast).2]; omega⟩)

end Array

variable (m : (ℓ : Loc nD τ sig) → Buf (Elt Ideal) ℓ) (ρ : Dev nD → PrngReg)

/-- What the last point stores in the output block, at (b, h). -/
theorem out_block (c : Dev nD) (t : Fin cfg0.N) (h24 : t.val = 24) (b : Fin 4096) (h : Fin 128) :
    (outsAt (F := Ideal) m ρ c t.val t.isLt).1 (ix2 b h)
      = Cert.Embedder.result (m ((c.tc : Thread nD τ).loc main_arg0)) (m ((c.tc : Thread nD τ).loc main_arg1))
          (m ((c.tc : Thread nD τ).loc main_arg2)) (m ((c.tc : Thread nD τ).loc main_arg3)) (ix2 b h) := by
  have hN : cfg0.N = 25 := N_0
  have h0 : t.val ≠ 0 := by omega
  have hF : ¬condFirst (grid0.coords t) := fun h' => h0 ((hcondFirst t).mp h')
  have hL : condLater (grid0.coords t) := (hcondLater t).mpr h0
  have hE : condLast (grid0.coords t) := (hcondLast t).mpr h24
  have hlt : t.val - 1 < cfg0.N := Nat.lt_of_le_of_lt (Nat.sub_le _ _) t.isLt
  have e := outsAt_last m ρ c t h24 hF hL hE
  have e1 := congrArg Prod.fst e
  have e2 := congrArg Prod.snd e
  dsimp only at e1 e2
  rw [e1, outLast5_apply, ← e2, Cert.Embedder.result_apply]
  have a1 : (fun h' : Fin 128 => Cert.Embedder.gelu ((outsAt (F := Ideal) m ρ c t.val t.isLt).2 (ix2 h' b)))
      = Cert.Embedder.act (fun b g => m ((c.tc : Thread nD τ).loc main_arg0) (ix2 b g))
          (fun g h => m ((c.tc : Thread nD τ).loc main_arg1) (ix2 g h)) b :=
    funext fun h' => congrArg Cert.Embedder.gelu (acc_last m ρ c t h24 h' b)
  have a2 : (fun h' : Fin 128 => (iblk m ρ c 3 t : Vec Ideal S128x1 .f32) (ix2 h' 0))
      = fun h' => m ((c.tc : Thread nD τ).loc main_arg2) (ix1 h') :=
    funext fun h' => (iblk3_apply m ρ c t h' 0).trans (V_v1_apply m ρ c h' 0)
  have a3 : (fun h' : Fin 128 => (iblk m ρ c 4 t : Vec Ideal S128x1 .f32) (ix2 h' 0))
      = fun h' => m ((c.tc : Thread nD τ).loc main_arg3) (ix1 h') :=
    funext fun h' => (iblk4_apply m ρ c t h' 0).trans (V_v2_apply m ρ c h' 0)
  have key : ∀ (f f' s s' u u' : Fin 128 → EReal), f = f' → s = s' → u = u' →
      Cert.Embedder.norm f s u h = Cert.Embedder.norm f' s' u' h := by
    intro _ _ _ _ _ _ q1 q2 q3; rw [q1, q2, q3]
  exact key _ _ _ _ _ _ a1 a2 a3

/-- The result array after the run: the specification's result of the four argument arrays. -/
theorem out_value (c : Dev nD) :
    (dat0 (F := Ideal) m ρ c).arrAt 5 cfg0.N
      = Cert.Embedder.result (m ((c.tc : Thread nD τ).loc main_arg0)) (m ((c.tc : Thread nD τ).loc main_arg1))
          (m ((c.tc : Thread nD τ).loc main_arg2)) (m ((c.tc : Thread nD τ).loc main_arg3)) :=
  arr5_of m ρ c _ fun t h24 => funext fun y => by
    obtain ⟨b, h, rfl⟩ : ∃ (b : Fin 4096) (h : Fin 128), y = ix2 b h := ⟨y 0, y 1, eq_ix2 y⟩
    exact out_block m ρ c t h24 b h

end Cert.KernelIdeal.Hand

end
-- ==== Proof.RefRun.lean ====
/-
  The reference program's run.

  @main is a straight line of host operations once its two helper functions are unfolded at their calls: the rows of
  the embedding table taken at the indices 0 … 19999 (a clamp of the indices, a gather, a mask), the matrix product,
  the activation, each row's mean, each row's variance (the helper that divides the sum of squared deviations by the
  row length less a correction and keeps the quotient where that divisor is positive), and the normalisation with its
  scale and shift.  The line is listed once, cut into four consecutive stretches — take, product and activation and
  mean, variance, normalisation — and what each stretch leaves in the buffers the later ones read is named as a pure
  function of what it found there.  The run then says: every weakly fair execution ends with the result buffer at the
  composition of those functions on the four argument arrays, the index buffer at the iota, the arguments unchanged.
-/
import proofs.«103525_g86423331930547_cont_9to1_m_1251_21_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## What each stretch computes, as pure functions -/

/-- The start indices of the gather: an index below zero moved up by the table's length, as a column. -/
def idxT (io : (⟨S20000, .i32⟩ : BufTy).Contents (Elt F)) :
    (⟨S20000x1, .i32⟩ : BufTy).Contents (Elt F) :=
  (broadcastInDim S20000x1 ![0] bcast_S20000_S20000x1_0) (select ((cmpi .slt) io ((broadcastInDim S20000 ![] bcast_S_S20000) (constantI S_ 32 0#32))) (addi io ((broadcastInDim S20000 ![] bcast_S_S20000) (constantI S_ 32 20000#32))) io)

/-- Which rows' start indices lie inside the table. -/
def maskT (io : (⟨S20000, .i32⟩ : BufTy).Contents (Elt F)) :
    (⟨S20000, .i1⟩ : BufTy).Contents (Elt F) :=
  Host.reduce IntOp.andi (andi ((cmpi .sge) (idxT io) ((broadcastInDim S20000x1 ![] bcast_S_S20000x1) (constantI S_ 32 0#32))) ((cmpi .sle) (idxT io) ((broadcastInDim S20000x1 ![0, 1] bcast_S1x1_S20000x1_0_1) ((broadcastInDim S1x1 ![1] bcast_S1_S1x1_1) (constantI S1 32 19999#32))))) (constantI S_ 1 1#1) reducesTo_S20000x1_S20000_d1 h_S_

/-- The rows of the table `e` taken at the indices `io`: the gathered row where the index is inside the table, the fill word elsewhere. -/
def takeT (e : (⟨S20000x128, .f32⟩ : BufTy).Contents (Elt F)) (io : (⟨S20000, .i32⟩ : BufTy).Contents (Elt F)) :
    (⟨S20000x128, .f32⟩ : BufTy).Contents (Elt F) :=
  select ((broadcastInDim S20000x128 ![0] bcast_S20000_S20000x128_0) (maskT io)) (Host.gather gather_S20000x128_S20000x1_S20000x128_1_0_n_n_0_1_1128 e (idxT io)) ((broadcastInDim S20000x128 ![] bcast_S_S20000x128) (constant (F := F) S_ .f32 0x7FC00000#32))

/-- The matrix product. -/
def dotT (x : (⟨S4096x20000, .f32⟩ : BufTy).Contents (Elt F)) (e : (⟨S20000x128, .f32⟩ : BufTy).Contents (Elt F)) :
    (⟨S4096x128, .f32⟩ : BufTy).Contents (Elt F) :=
  Host.dotGeneral dot_S4096x20000_S20000x128_S4096x128_1_0_0_1_n_n none x e

/-- The activation, entry by entry, in its tanh form. -/
def geluT (z : (⟨S4096x128, .f32⟩ : BufTy).Contents (Elt F)) :
    (⟨S4096x128, .f32⟩ : BufTy).Contents (Elt F) :=
  mulf z (mulf ((broadcastInDim S4096x128 ![] bcast_S_S4096x128) (constant (F := F) S_ .f32 0x3F000000#32)) (addf ((broadcastInDim S4096x128 ![] bcast_S_S4096x128) (constant (F := F) S_ .f32 0x3F800000#32)) (Host.tanh (mulf ((broadcastInDim S4096x128 ![] bcast_S_S4096x128) (constant (F := F) S_ .f32 0x3F4C422A#32)) (addf z (mulf ((broadcastInDim S4096x128 ![] bcast_S_S4096x128) (constant (F := F) S_ .f32 0x3D372713#32)) (mulf (mulf z z) z)))))))

/-- Each row's mean, as a column. -/
def meanT (a : (⟨S4096x128, .f32⟩ : BufTy).Contents (Elt F)) :
    (⟨S4096x1, .f32⟩ : BufTy).Contents (Elt F) :=
  Host.divf ((broadcastInDim S4096x1 ![0] bcast_S4096_S4096x1_0) (Host.reduceAdd a (constant (F := F) S_ .f32 0x00000000#32) reducesTo_S4096x128_S4096_d1 h_S_)) ((broadcastInDim S4096x1 ![] bcast_S_S4096x1) (constant (F := F) S_ .f32 0x43000000#32))

/-- The variance's divisor: the row length less the correction `k`. -/
def lenT (k : (⟨S_, .i32⟩ : BufTy).Contents (Elt F)) :
    (⟨S_, .f32⟩ : BufTy).Contents (Elt F) :=
  subf (constant (F := F) S_ .f32 0x43000000#32) ((sitofp .f32) k)

/-- Each row's variance with correction `k`, as a column: the quotient where the divisor is positive, the fill word elsewhere. -/
def varT (a : (⟨S4096x128, .f32⟩ : BufTy).Contents (Elt F)) (k : (⟨S_, .i32⟩ : BufTy).Contents (Elt F)) :
    (⟨S4096x1, .f32⟩ : BufTy).Contents (Elt F) :=
  select (broadcastInDim S4096x1 ![] bcast_S_S4096x1 ((cmpf .ogt) (lenT k) (constant (F := F) S_ .f32 0x00000000#32))) (Host.divf ((broadcastInDim S4096x1 ![0] bcast_S4096_S4096x1_0) (Host.reduceAdd (mulf (subf a ((broadcastInDim S4096x128 ![0, 1] bcast_S4096x1_S4096x128_0_1) (meanT a))) (subf a ((broadcastInDim S4096x128 ![0, 1] bcast_S4096x1_S4096x128_0_1) (meanT a)))) (constant (F := F) S_ .f32 0x00000000#32) reducesTo_S4096x128_S4096_d1 h_S_)) ((broadcastInDim S4096x1 ![] bcast_S_S4096x1) (lenT k))) ((broadcastInDim S4096x1 ![] bcast_S_S4096x1) (id (constant (F := F) S_ .f32 0x7FC00000#32)))

/-- The normalisation of `a` by the column of means `mu` and the column of variances `vr`, scaled by `s` and shifted by `t`. -/
def outT (a : (⟨S4096x128, .f32⟩ : BufTy).Contents (Elt F)) (mu : (⟨S4096x1, .f32⟩ : BufTy).Contents (Elt F)) (vr : (⟨S4096x1, .f32⟩ : BufTy).Contents (Elt F)) (s : (⟨S128, .f32⟩ : BufTy).Contents (Elt F)) (t : (⟨S128, .f32⟩ : BufTy).Contents (Elt F)) :
    (⟨S4096x128, .f32⟩ : BufTy).Contents (Elt F) :=
  addf (mulf (mulf (subf a ((broadcastInDim S4096x128 ![0, 1] bcast_S4096x1_S4096x128_0_1) mu)) ((broadcastInDim S4096x128 ![0, 1] bcast_S4096x1_S4096x128_0_1) (Host.rsqrt (addf vr ((broadcastInDim S4096x1 ![] bcast_S_S4096x1) (constant (F := F) S_ .f32 0x3727C5AC#32)))))) ((broadcastInDim S4096x128 ![0, 1] bcast_S1x128_S4096x128_0_1) ((broadcastInDim S1x128 ![1] bcast_S128_S1x128_1) s))) ((broadcastInDim S4096x128 ![0, 1] bcast_S1x128_S4096x128_0_1) ((broadcastInDim S1x128 ![1] bcast_S128_S1x128_1) t))

/-- The activated product with the table taken at the indices 0 … 19999. -/
def actT (x : (⟨S4096x20000, .f32⟩ : BufTy).Contents (Elt F)) (e : (⟨S20000x128, .f32⟩ : BufTy).Contents (Elt F)) :
    (⟨S4096x128, .f32⟩ : BufTy).Contents (Elt F) :=
  geluT (dotT x (takeT e (iotaInDim S20000 32 0)))

/-- The result array as one function of the four argument arrays. -/
def refOut (x : (⟨S4096x20000, .f32⟩ : BufTy).Contents (Elt F)) (e : (⟨S20000x128, .f32⟩ : BufTy).Contents (Elt F))
    (s : (⟨S128, .f32⟩ : BufTy).Contents (Elt F)) (t : (⟨S128, .f32⟩ : BufTy).Contents (Elt F)) :
    (⟨S4096x128, .f32⟩ : BufTy).Contents (Elt F) :=
  outT (actT x e) (meanT (actT x e)) (varT (actT x e) (constantI S_ 32 0#32)) s t

/-! ## The operations -/

/-- @main's 86 operations, in order, the helper functions' operations standing at their calls. -/
abbrev ops : List (HloOp τ sig (Elt F)) :=
  [ nullary main_v0 (iotaInDim S20000 32 0),
    TRef.nullary main_call0.c (constantI S_ 32 0#32),
    TRef.unary main_call0.c main_call0.v0 (broadcastInDim S20000 ![] bcast_S_S20000),
    TRef.binary (TRef.of (T := ⟨S20000, .i32⟩) main_v0) main_call0.v0 main_call0.v1 (cmpi .slt),
    TRef.nullary main_call0.c_0 (constantI S_ 32 20000#32),
    TRef.unary main_call0.c_0 main_call0.v2 (broadcastInDim S20000 ![] bcast_S_S20000),
    TRef.binary (TRef.of (T := ⟨S20000, .i32⟩) main_v0) main_call0.v2 main_call0.v3 addi,
    TRef.ternary main_call0.v1 main_call0.v3 (TRef.of (T := ⟨S20000, .i32⟩) main_v0) main_call0.call0.v0 select,
    TRef.unary main_call0.call0.v0 main_call0.v5 (broadcastInDim S20000x1 ![0] bcast_S20000_S20000x1_0),
    TRef.nullary main_call0.c_1 (constantI S1 32 19999#32),
    TRef.nullary main_call0.c_2 (constantI S_ 32 0#32),
    TRef.unary main_call0.c_2 main_call0.v6 (broadcastInDim S20000x1 ![] bcast_S_S20000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S20000x1 ![0, 1] bcast_S1x1_S20000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S20000x1_S20000_d1 h_S_),
    TRef.binary (TRef.of (T := ⟨S20000x128, .f32⟩) main_arg1) main_call0.v5 main_call0.v13 (fun x i => Host.gather gather_S20000x128_S20000x1_S20000x128_1_0_n_n_0_1_1128 x i),
    TRef.unary main_call0.v12 main_call0.v14 (broadcastInDim S20000x128 ![0] bcast_S20000_S20000x128_0),
    TRef.nullary main_call0.cst (constant S_ .f32 0x7FC00000#32),
    TRef.unary main_call0.cst main_call0.v15 (broadcastInDim S20000x128 ![] bcast_S_S20000x128),
    TRef.ternary main_call0.v14 main_call0.v13 main_call0.v15 main_call0.v16 select,
    binary main_arg0 main_v1 main_v2 ((fun l r => Host.dotGeneral dot_S4096x20000_S20000x128_S4096x128_1_0_0_1_n_n none l r) : (⟨S4096x20000, .f32⟩ : BufTy).Contents (Elt F) → (⟨S20000x128, .f32⟩ : BufTy).Contents (Elt F) → (⟨S4096x128, .f32⟩ : BufTy).Contents (Elt F)),
    binary main_v2 main_v2 main_v3 (mulf : (⟨S4096x128, .f32⟩ : BufTy).Contents (Elt F) → (⟨S4096x128, .f32⟩ : BufTy).Contents (Elt F) → (⟨S4096x128, .f32⟩ : BufTy).Contents (Elt F)),
    binary main_v3 main_v2 main_v4 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x3D372713#32),
    unary main_cst main_v5 (broadcastInDim S4096x128 ![] bcast_S_S4096x128 : (⟨S_, .f32⟩ : BufTy).Contents (Elt F) → (⟨S4096x128, .f32⟩ : BufTy).Contents (Elt F)),
    binary main_v5 main_v4 main_v6 (mulf : (⟨S4096x128, .f32⟩ : BufTy).Contents (Elt F) → (⟨S4096x128, .f32⟩ : BufTy).Contents (Elt F) → (⟨S4096x128, .f32⟩ : BufTy).Contents (Elt F)),
    binary main_v2 main_v6 main_v7 (addf : (⟨S4096x128, .f32⟩ : BufTy).Contents (Elt F) → (⟨S4096x128, .f32⟩ : BufTy).Contents (Elt F) → (⟨S4096x128, .f32⟩ : BufTy).Contents (Elt F)),
    nullary main_cst_0 (constant S_ .f32 0x3F4C422A#32),
    unary main_cst_0 main_v8 (broadcastInDim S4096x128 ![] bcast_S_S4096x128 : (⟨S_, .f32⟩ : BufTy).Contents (Elt F) → (⟨S4096x128, .f32⟩ : BufTy).Contents (Elt F)),
    binary main_v8 main_v7 main_v9 (mulf : (⟨S4096x128, .f32⟩ : BufTy).Contents (Elt F) → (⟨S4096x128, .f32⟩ : BufTy).Contents (Elt F) → (⟨S4096x128, .f32⟩ : BufTy).Contents (Elt F)),
    unary main_v9 main_v10 (Host.tanh : (⟨S4096x128, .f32⟩ : BufTy).Contents (Elt F) → (⟨S4096x128, .f32⟩ : BufTy).Contents (Elt F)),
    nullary main_cst_1 (constant S_ .f32 0x3F800000#32),
    unary main_cst_1 main_v11 (broadcastInDim S4096x128 ![] bcast_S_S4096x128 : (⟨S_, .f32⟩ : BufTy).Contents (Elt F) → (⟨S4096x128, .f32⟩ : BufTy).Contents (Elt F)),
    binary main_v11 main_v10 main_v12 (addf : (⟨S4096x128, .f32⟩ : BufTy).Contents (Elt F) → (⟨S4096x128, .f32⟩ : BufTy).Contents (Elt F) → (⟨S4096x128, .f32⟩ : BufTy).Contents (Elt F)),
    nullary main_cst_2 (constant S_ .f32 0x3F000000#32),
    unary main_cst_2 main_v13 (broadcastInDim S4096x128 ![] bcast_S_S4096x128 : (⟨S_, .f32⟩ : BufTy).Contents (Elt F) → (⟨S4096x128, .f32⟩ : BufTy).Contents (Elt F)),
    binary main_v13 main_v12 main_v14 (mulf : (⟨S4096x128, .f32⟩ : BufTy).Contents (Elt F) → (⟨S4096x128, .f32⟩ : BufTy).Contents (Elt F) → (⟨S4096x128, .f32⟩ : BufTy).Contents (Elt F)),
    binary main_v2 main_v14 main_v15 (mulf : (⟨S4096x128, .f32⟩ : BufTy).Contents (Elt F) → (⟨S4096x128, .f32⟩ : BufTy).Contents (Elt F) → (⟨S4096x128, .f32⟩ : BufTy).Contents (Elt F)),
    nullary main_cst_3 (constant S_ .f32 0x00000000#32),
    binary main_v15 main_cst_3 main_v16 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v16 main_v17 (broadcastInDim S4096x1 ![0] bcast_S4096_S4096x1_0 : (⟨S4096, .f32⟩ : BufTy).Contents (Elt F) → (⟨S4096x1, .f32⟩ : BufTy).Contents (Elt F)),
    nullary main_cst_4 (constant S_ .f32 0x43000000#32),
    unary main_cst_4 main_v18 (broadcastInDim S4096x1 ![] bcast_S_S4096x1 : (⟨S_, .f32⟩ : BufTy).Contents (Elt F) → (⟨S4096x1, .f32⟩ : BufTy).Contents (Elt F)),
    binary main_v17 main_v18 main_v19 (Host.divf : (⟨S4096x1, .f32⟩ : BufTy).Contents (Elt F) → (⟨S4096x1, .f32⟩ : BufTy).Contents (Elt F) → (⟨S4096x1, .f32⟩ : BufTy).Contents (Elt F)),
    nullary main_c (constantI S_ 32 0#32),
    TRef.nullary main_call1.cst (constant S_ .f32 0x00000000#32),
    TRef.binary (TRef.of (T := ⟨S4096x128, .f32⟩) main_v15) main_call1.cst main_call1.v0 (fun x v => Host.reduceAdd x v reducesTo_S4096x128_S4096_d1 h_S_),
    TRef.unary main_call1.v0 main_call1.v1 (broadcastInDim S4096x1 ![0] bcast_S4096_S4096x1_0),
    TRef.nullary main_call1.cst_0 (constant S_ .f32 0x43000000#32),
    TRef.unary main_call1.cst_0 main_call1.v2 (broadcastInDim S4096x1 ![] bcast_S_S4096x1),
    TRef.binary main_call1.v1 main_call1.v2 main_call1.v3 Host.divf,
    TRef.unary main_call1.v3 main_call1.v4 (broadcastInDim S4096x128 ![0, 1] bcast_S4096x1_S4096x128_0_1),
    TRef.binary (TRef.of (T := ⟨S4096x128, .f32⟩) main_v15) main_call1.v4 main_call1.v5 subf,
    TRef.binary main_call1.v5 main_call1.v5 main_call1.v6 mulf,
    TRef.unary (TRef.of (T := ⟨S_, .i32⟩) main_c) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4096x128_S4096_d1 h_S_),
    TRef.unary main_call1.v9 main_call1.v10 (broadcastInDim S4096x1 ![0] bcast_S4096_S4096x1_0),
    TRef.unary main_call1.v8 main_call1.v11 (broadcastInDim S4096x1 ![] bcast_S_S4096x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S4096x1 ![] bcast_S_S4096x1),
    TRef.ternary main_call1.v13 main_call1.v12 main_call1.call0.v1 main_call1.call0.v2 (fun p a b => select (broadcastInDim S4096x1 ![] bcast_S_S4096x1 p) a b),
    unary main_v19 main_v21 (broadcastInDim S4096x128 ![0, 1] bcast_S4096x1_S4096x128_0_1 : (⟨S4096x1, .f32⟩ : BufTy).Contents (Elt F) → (⟨S4096x128, .f32⟩ : BufTy).Contents (Elt F)),
    binary main_v15 main_v21 main_v22 (subf : (⟨S4096x128, .f32⟩ : BufTy).Contents (Elt F) → (⟨S4096x128, .f32⟩ : BufTy).Contents (Elt F) → (⟨S4096x128, .f32⟩ : BufTy).Contents (Elt F)),
    nullary main_cst_5 (constant S_ .f32 0x3727C5AC#32),
    unary main_cst_5 main_v23 (broadcastInDim S4096x1 ![] bcast_S_S4096x1 : (⟨S_, .f32⟩ : BufTy).Contents (Elt F) → (⟨S4096x1, .f32⟩ : BufTy).Contents (Elt F)),
    binary main_v20 main_v23 main_v24 (addf : (⟨S4096x1, .f32⟩ : BufTy).Contents (Elt F) → (⟨S4096x1, .f32⟩ : BufTy).Contents (Elt F) → (⟨S4096x1, .f32⟩ : BufTy).Contents (Elt F)),
    unary main_v24 main_v25 (Host.rsqrt : (⟨S4096x1, .f32⟩ : BufTy).Contents (Elt F) → (⟨S4096x1, .f32⟩ : BufTy).Contents (Elt F)),
    unary main_v25 main_v26 (broadcastInDim S4096x128 ![0, 1] bcast_S4096x1_S4096x128_0_1 : (⟨S4096x1, .f32⟩ : BufTy).Contents (Elt F) → (⟨S4096x128, .f32⟩ : BufTy).Contents (Elt F)),
    binary main_v22 main_v26 main_v27 (mulf : (⟨S4096x128, .f32⟩ : BufTy).Contents (Elt F) → (⟨S4096x128, .f32⟩ : BufTy).Contents (Elt F) → (⟨S4096x128, .f32⟩ : BufTy).Contents (Elt F)),
    unary main_arg2 main_v28 (broadcastInDim S1x128 ![1] bcast_S128_S1x128_1 : (⟨S128, .f32⟩ : BufTy).Contents (Elt F) → (⟨S1x128, .f32⟩ : BufTy).Contents (Elt F)),
    unary main_v28 main_v29 (broadcastInDim S4096x128 ![0, 1] bcast_S1x128_S4096x128_0_1 : (⟨S1x128, .f32⟩ : BufTy).Contents (Elt F) → (⟨S4096x128, .f32⟩ : BufTy).Contents (Elt F)),
    binary main_v27 main_v29 main_v30 (mulf : (⟨S4096x128, .f32⟩ : BufTy).Contents (Elt F) → (⟨S4096x128, .f32⟩ : BufTy).Contents (Elt F) → (⟨S4096x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S4096x128 ![0, 1] bcast_S1x128_S4096x128_0_1 : (⟨S1x128, .f32⟩ : BufTy).Contents (Elt F) → (⟨S4096x128, .f32⟩ : BufTy).Contents (Elt F)),
    binary main_v30 main_v32 main_v33 (addf : (⟨S4096x128, .f32⟩ : BufTy).Contents (Elt F) → (⟨S4096x128, .f32⟩ : BufTy).Contents (Elt F) → (⟨S4096x128, .f32⟩ : BufTy).Contents (Elt F)) ]

/-- The index buffer and the take: operations 1 … 24. -/
def opsA : List (HloOp τ sig (Elt F)) :=
  [ nullary main_v0 (iotaInDim S20000 32 0),
    TRef.nullary main_call0.c (constantI S_ 32 0#32),
    TRef.unary main_call0.c main_call0.v0 (broadcastInDim S20000 ![] bcast_S_S20000),
    TRef.binary (TRef.of (T := ⟨S20000, .i32⟩) main_v0) main_call0.v0 main_call0.v1 (cmpi .slt),
    TRef.nullary main_call0.c_0 (constantI S_ 32 20000#32),
    TRef.unary main_call0.c_0 main_call0.v2 (broadcastInDim S20000 ![] bcast_S_S20000),
    TRef.binary (TRef.of (T := ⟨S20000, .i32⟩) main_v0) main_call0.v2 main_call0.v3 addi,
    TRef.ternary main_call0.v1 main_call0.v3 (TRef.of (T := ⟨S20000, .i32⟩) main_v0) main_call0.call0.v0 select,
    TRef.unary main_call0.call0.v0 main_call0.v5 (broadcastInDim S20000x1 ![0] bcast_S20000_S20000x1_0),
    TRef.nullary main_call0.c_1 (constantI S1 32 19999#32),
    TRef.nullary main_call0.c_2 (constantI S_ 32 0#32),
    TRef.unary main_call0.c_2 main_call0.v6 (broadcastInDim S20000x1 ![] bcast_S_S20000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S20000x1 ![0, 1] bcast_S1x1_S20000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S20000x1_S20000_d1 h_S_),
    TRef.binary (TRef.of (T := ⟨S20000x128, .f32⟩) main_arg1) main_call0.v5 main_call0.v13 (fun x i => Host.gather gather_S20000x128_S20000x1_S20000x128_1_0_n_n_0_1_1128 x i),
    TRef.unary main_call0.v12 main_call0.v14 (broadcastInDim S20000x128 ![0] bcast_S20000_S20000x128_0),
    TRef.nullary main_call0.cst (constant S_ .f32 0x7FC00000#32),
    TRef.unary main_call0.cst main_call0.v15 (broadcastInDim S20000x128 ![] bcast_S_S20000x128),
    TRef.ternary main_call0.v14 main_call0.v13 main_call0.v15 main_call0.v16 select ]

/-- The product, the activation, the rows' means and the correction's zero: operations 25 … 49. -/
def opsB : List (HloOp τ sig (Elt F)) :=
  [ binary main_arg0 main_v1 main_v2 ((fun l r => Host.dotGeneral dot_S4096x20000_S20000x128_S4096x128_1_0_0_1_n_n none l r) : (⟨S4096x20000, .f32⟩ : BufTy).Contents (Elt F) → (⟨S20000x128, .f32⟩ : BufTy).Contents (Elt F) → (⟨S4096x128, .f32⟩ : BufTy).Contents (Elt F)),
    binary main_v2 main_v2 main_v3 (mulf : (⟨S4096x128, .f32⟩ : BufTy).Contents (Elt F) → (⟨S4096x128, .f32⟩ : BufTy).Contents (Elt F) → (⟨S4096x128, .f32⟩ : BufTy).Contents (Elt F)),
    binary main_v3 main_v2 main_v4 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x3D372713#32),
    unary main_cst main_v5 (broadcastInDim S4096x128 ![] bcast_S_S4096x128 : (⟨S_, .f32⟩ : BufTy).Contents (Elt F) → (⟨S4096x128, .f32⟩ : BufTy).Contents (Elt F)),
    binary main_v5 main_v4 main_v6 (mulf : (⟨S4096x128, .f32⟩ : BufTy).Contents (Elt F) → (⟨S4096x128, .f32⟩ : BufTy).Contents (Elt F) → (⟨S4096x128, .f32⟩ : BufTy).Contents (Elt F)),
    binary main_v2 main_v6 main_v7 (addf : (⟨S4096x128, .f32⟩ : BufTy).Contents (Elt F) → (⟨S4096x128, .f32⟩ : BufTy).Contents (Elt F) → (⟨S4096x128, .f32⟩ : BufTy).Contents (Elt F)),
    nullary main_cst_0 (constant S_ .f32 0x3F4C422A#32),
    unary main_cst_0 main_v8 (broadcastInDim S4096x128 ![] bcast_S_S4096x128 : (⟨S_, .f32⟩ : BufTy).Contents (Elt F) → (⟨S4096x128, .f32⟩ : BufTy).Contents (Elt F)),
    binary main_v8 main_v7 main_v9 (mulf : (⟨S4096x128, .f32⟩ : BufTy).Contents (Elt F) → (⟨S4096x128, .f32⟩ : BufTy).Contents (Elt F) → (⟨S4096x128, .f32⟩ : BufTy).Contents (Elt F)),
    unary main_v9 main_v10 (Host.tanh : (⟨S4096x128, .f32⟩ : BufTy).Contents (Elt F) → (⟨S4096x128, .f32⟩ : BufTy).Contents (Elt F)),
    nullary main_cst_1 (constant S_ .f32 0x3F800000#32),
    unary main_cst_1 main_v11 (broadcastInDim S4096x128 ![] bcast_S_S4096x128 : (⟨S_, .f32⟩ : BufTy).Contents (Elt F) → (⟨S4096x128, .f32⟩ : BufTy).Contents (Elt F)),
    binary main_v11 main_v10 main_v12 (addf : (⟨S4096x128, .f32⟩ : BufTy).Contents (Elt F) → (⟨S4096x128, .f32⟩ : BufTy).Contents (Elt F) → (⟨S4096x128, .f32⟩ : BufTy).Contents (Elt F)),
    nullary main_cst_2 (constant S_ .f32 0x3F000000#32),
    unary main_cst_2 main_v13 (broadcastInDim S4096x128 ![] bcast_S_S4096x128 : (⟨S_, .f32⟩ : BufTy).Contents (Elt F) → (⟨S4096x128, .f32⟩ : BufTy).Contents (Elt F)),
    binary main_v13 main_v12 main_v14 (mulf : (⟨S4096x128, .f32⟩ : BufTy).Contents (Elt F) → (⟨S4096x128, .f32⟩ : BufTy).Contents (Elt F) → (⟨S4096x128, .f32⟩ : BufTy).Contents (Elt F)),
    binary main_v2 main_v14 main_v15 (mulf : (⟨S4096x128, .f32⟩ : BufTy).Contents (Elt F) → (⟨S4096x128, .f32⟩ : BufTy).Contents (Elt F) → (⟨S4096x128, .f32⟩ : BufTy).Contents (Elt F)),
    nullary main_cst_3 (constant S_ .f32 0x00000000#32),
    binary main_v15 main_cst_3 main_v16 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v16 main_v17 (broadcastInDim S4096x1 ![0] bcast_S4096_S4096x1_0 : (⟨S4096, .f32⟩ : BufTy).Contents (Elt F) → (⟨S4096x1, .f32⟩ : BufTy).Contents (Elt F)),
    nullary main_cst_4 (constant S_ .f32 0x43000000#32),
    unary main_cst_4 main_v18 (broadcastInDim S4096x1 ![] bcast_S_S4096x1 : (⟨S_, .f32⟩ : BufTy).Contents (Elt F) → (⟨S4096x1, .f32⟩ : BufTy).Contents (Elt F)),
    binary main_v17 main_v18 main_v19 (Host.divf : (⟨S4096x1, .f32⟩ : BufTy).Contents (Elt F) → (⟨S4096x1, .f32⟩ : BufTy).Contents (Elt F) → (⟨S4096x1, .f32⟩ : BufTy).Contents (Elt F)),
    nullary main_c (constantI S_ 32 0#32) ]

/-- The rows' variances: operations 50 … 72. -/
def opsC : List (HloOp τ sig (Elt F)) :=
  [ TRef.nullary main_call1.cst (constant S_ .f32 0x00000000#32),
    TRef.binary (TRef.of (T := ⟨S4096x128, .f32⟩) main_v15) main_call1.cst main_call1.v0 (fun x v => Host.reduceAdd x v reducesTo_S4096x128_S4096_d1 h_S_),
    TRef.unary main_call1.v0 main_call1.v1 (broadcastInDim S4096x1 ![0] bcast_S4096_S4096x1_0),
    TRef.nullary main_call1.cst_0 (constant S_ .f32 0x43000000#32),
    TRef.unary main_call1.cst_0 main_call1.v2 (broadcastInDim S4096x1 ![] bcast_S_S4096x1),
    TRef.binary main_call1.v1 main_call1.v2 main_call1.v3 Host.divf,
    TRef.unary main_call1.v3 main_call1.v4 (broadcastInDim S4096x128 ![0, 1] bcast_S4096x1_S4096x128_0_1),
    TRef.binary (TRef.of (T := ⟨S4096x128, .f32⟩) main_v15) main_call1.v4 main_call1.v5 subf,
    TRef.binary main_call1.v5 main_call1.v5 main_call1.v6 mulf,
    TRef.unary (TRef.of (T := ⟨S_, .i32⟩) main_c) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4096x128_S4096_d1 h_S_),
    TRef.unary main_call1.v9 main_call1.v10 (broadcastInDim S4096x1 ![0] bcast_S4096_S4096x1_0),
    TRef.unary main_call1.v8 main_call1.v11 (broadcastInDim S4096x1 ![] bcast_S_S4096x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S4096x1 ![] bcast_S_S4096x1),
    TRef.ternary main_call1.v13 main_call1.v12 main_call1.call0.v1 main_call1.call0.v2 (fun p a b => select (broadcastInDim S4096x1 ![] bcast_S_S4096x1 p) a b) ]

/-- The normalisation: operations 73 … 86. -/
def opsD : List (HloOp τ sig (Elt F)) :=
  [ unary main_v19 main_v21 (broadcastInDim S4096x128 ![0, 1] bcast_S4096x1_S4096x128_0_1 : (⟨S4096x1, .f32⟩ : BufTy).Contents (Elt F) → (⟨S4096x128, .f32⟩ : BufTy).Contents (Elt F)),
    binary main_v15 main_v21 main_v22 (subf : (⟨S4096x128, .f32⟩ : BufTy).Contents (Elt F) → (⟨S4096x128, .f32⟩ : BufTy).Contents (Elt F) → (⟨S4096x128, .f32⟩ : BufTy).Contents (Elt F)),
    nullary main_cst_5 (constant S_ .f32 0x3727C5AC#32),
    unary main_cst_5 main_v23 (broadcastInDim S4096x1 ![] bcast_S_S4096x1 : (⟨S_, .f32⟩ : BufTy).Contents (Elt F) → (⟨S4096x1, .f32⟩ : BufTy).Contents (Elt F)),
    binary main_v20 main_v23 main_v24 (addf : (⟨S4096x1, .f32⟩ : BufTy).Contents (Elt F) → (⟨S4096x1, .f32⟩ : BufTy).Contents (Elt F) → (⟨S4096x1, .f32⟩ : BufTy).Contents (Elt F)),
    unary main_v24 main_v25 (Host.rsqrt : (⟨S4096x1, .f32⟩ : BufTy).Contents (Elt F) → (⟨S4096x1, .f32⟩ : BufTy).Contents (Elt F)),
    unary main_v25 main_v26 (broadcastInDim S4096x128 ![0, 1] bcast_S4096x1_S4096x128_0_1 : (⟨S4096x1, .f32⟩ : BufTy).Contents (Elt F) → (⟨S4096x128, .f32⟩ : BufTy).Contents (Elt F)),
    binary main_v22 main_v26 main_v27 (mulf : (⟨S4096x128, .f32⟩ : BufTy).Contents (Elt F) → (⟨S4096x128, .f32⟩ : BufTy).Contents (Elt F) → (⟨S4096x128, .f32⟩ : BufTy).Contents (Elt F)),
    unary main_arg2 main_v28 (broadcastInDim S1x128 ![1] bcast_S128_S1x128_1 : (⟨S128, .f32⟩ : BufTy).Contents (Elt F) → (⟨S1x128, .f32⟩ : BufTy).Contents (Elt F)),
    unary main_v28 main_v29 (broadcastInDim S4096x128 ![0, 1] bcast_S1x128_S4096x128_0_1 : (⟨S1x128, .f32⟩ : BufTy).Contents (Elt F) → (⟨S4096x128, .f32⟩ : BufTy).Contents (Elt F)),
    binary main_v27 main_v29 main_v30 (mulf : (⟨S4096x128, .f32⟩ : BufTy).Contents (Elt F) → (⟨S4096x128, .f32⟩ : BufTy).Contents (Elt F) → (⟨S4096x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S4096x128 ![0, 1] bcast_S1x128_S4096x128_0_1 : (⟨S1x128, .f32⟩ : BufTy).Contents (Elt F) → (⟨S4096x128, .f32⟩ : BufTy).Contents (Elt F)),
    binary main_v30 main_v32 main_v33 (addf : (⟨S4096x128, .f32⟩ : BufTy).Contents (Elt F) → (⟨S4096x128, .f32⟩ : BufTy).Contents (Elt F) → (⟨S4096x128, .f32⟩ : BufTy).Contents (Elt F)) ]

theorem ops_split : (ops : List (HloOp τ sig (Elt F))) = opsA ++ (opsB ++ (opsC ++ opsD)) := rfl

set_option maxRecDepth 8192 in
set_option maxHeartbeats 4000000 in
/-- @main is that straight line: the helper functions unfolded at their calls, the sequencing reassociated. -/
theorem main_eq (c : Dev nD) : main (F := F) c = seq ops := by
  simp only [main, fn_take.body, fn_where.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## What each stretch leaves in the buffers read after it -/

attribute [local irreducible] Host.reduce Host.gather Host.reduceAdd

theorem A_main_v1 (V : Valuation τ sig (Elt F)) :
    after (opsA (F := F)) V (Proc.devRef .tc main_v1) = takeT (V (Proc.devRef .tc main_arg1)) (iotaInDim S20000 32 0) := by
  unfold opsA
  after_results_simp <;> rfl

theorem A_main_v0 (V : Valuation τ sig (Elt F)) :
    after (opsA (F := F)) V (Proc.devRef .tc main_v0) = iotaInDim S20000 32 0 := by
  unfold opsA
  after_results_simp <;> rfl

theorem B_main_v15 (V : Valuation τ sig (Elt F)) :
    after (opsB (F := F)) V (Proc.devRef .tc main_v15) = geluT (dotT (V (Proc.devRef .tc main_arg0)) (V (Proc.devRef .tc main_v1))) := by
  unfold opsB
  after_results_simp <;> rfl

theorem B_main_v19 (V : Valuation τ sig (Elt F)) :
    after (opsB (F := F)) V (Proc.devRef .tc main_v19) = meanT (geluT (dotT (V (Proc.devRef .tc main_arg0)) (V (Proc.devRef .tc main_v1)))) := by
  unfold opsB
  after_results_simp <;> rfl

theorem B_main_c (V : Valuation τ sig (Elt F)) :
    after (opsB (F := F)) V (Proc.devRef .tc main_c) = constantI S_ 32 0#32 := by
  unfold opsB
  after_results_simp <;> rfl

theorem B_main_v0 (V : Valuation τ sig (Elt F)) :
    after (opsB (F := F)) V (Proc.devRef .tc main_v0) = V (Proc.devRef .tc main_v0) := by
  unfold opsB
  after_results_simp <;> rfl

theorem C_main_v20 (V : Valuation τ sig (Elt F)) :
    after (opsC (F := F)) V (Proc.devRef .tc main_v20) = varT (V (Proc.devRef .tc main_v15)) (V (Proc.devRef .tc main_c)) := by
  unfold opsC
  after_results_simp <;> rfl

theorem C_main_v15 (V : Valuation τ sig (Elt F)) :
    after (opsC (F := F)) V (Proc.devRef .tc main_v15) = V (Proc.devRef .tc main_v15) := by
  unfold opsC
  after_results_simp <;> rfl

theorem C_main_v19 (V : Valuation τ sig (Elt F)) :
    after (opsC (F := F)) V (Proc.devRef .tc main_v19) = V (Proc.devRef .tc main_v19) := by
  unfold opsC
  after_results_simp <;> rfl

theorem C_main_v0 (V : Valuation τ sig (Elt F)) :
    after (opsC (F := F)) V (Proc.devRef .tc main_v0) = V (Proc.devRef .tc main_v0) := by
  unfold opsC
  after_results_simp <;> rfl

theorem D_main_v33 (V : Valuation τ sig (Elt F)) :
    after (opsD (F := F)) V (Proc.devRef .tc main_v33) = outT (V (Proc.devRef .tc main_v15)) (V (Proc.devRef .tc main_v19)) (V (Proc.devRef .tc main_v20)) (V (Proc.devRef .tc main_arg2)) (V (Proc.devRef .tc main_arg3)) := by
  unfold opsD
  after_results_simp <;> rfl

theorem D_main_v0 (V : Valuation τ sig (Elt F)) :
    after (opsD (F := F)) V (Proc.devRef .tc main_v0) = V (Proc.devRef .tc main_v0) := by
  unfold opsD
  after_results_simp <;> rfl

theorem A_main_arg0 (V : Valuation τ sig (Elt F)) :
    after (opsA (F := F)) V (Proc.devRef .tc main_arg0) = V (Proc.devRef .tc main_arg0) := by
  unfold opsA
  after_results_simp <;> rfl

theorem A_main_arg1 (V : Valuation τ sig (Elt F)) :
    after (opsA (F := F)) V (Proc.devRef .tc main_arg1) = V (Proc.devRef .tc main_arg1) := by
  unfold opsA
  after_results_simp <;> rfl

theorem A_main_arg2 (V : Valuation τ sig (Elt F)) :
    after (opsA (F := F)) V (Proc.devRef .tc main_arg2) = V (Proc.devRef .tc main_arg2) := by
  unfold opsA
  after_results_simp <;> rfl

theorem A_main_arg3 (V : Valuation τ sig (Elt F)) :
    after (opsA (F := F)) V (Proc.devRef .tc main_arg3) = V (Proc.devRef .tc main_arg3) := by
  unfold opsA
  after_results_simp <;> rfl

theorem B_main_arg0 (V : Valuation τ sig (Elt F)) :
    after (opsB (F := F)) V (Proc.devRef .tc main_arg0) = V (Proc.devRef .tc main_arg0) := by
  unfold opsB
  after_results_simp <;> rfl

theorem B_main_arg1 (V : Valuation τ sig (Elt F)) :
    after (opsB (F := F)) V (Proc.devRef .tc main_arg1) = V (Proc.devRef .tc main_arg1) := by
  unfold opsB
  after_results_simp <;> rfl

theorem B_main_arg2 (V : Valuation τ sig (Elt F)) :
    after (opsB (F := F)) V (Proc.devRef .tc main_arg2) = V (Proc.devRef .tc main_arg2) := by
  unfold opsB
  after_results_simp <;> rfl

theorem B_main_arg3 (V : Valuation τ sig (Elt F)) :
    after (opsB (F := F)) V (Proc.devRef .tc main_arg3) = V (Proc.devRef .tc main_arg3) := by
  unfold opsB
  after_results_simp <;> rfl

theorem C_main_arg0 (V : Valuation τ sig (Elt F)) :
    after (opsC (F := F)) V (Proc.devRef .tc main_arg0) = V (Proc.devRef .tc main_arg0) := by
  unfold opsC
  after_results_simp <;> rfl

theorem C_main_arg1 (V : Valuation τ sig (Elt F)) :
    after (opsC (F := F)) V (Proc.devRef .tc main_arg1) = V (Proc.devRef .tc main_arg1) := by
  unfold opsC
  after_results_simp <;> rfl

theorem C_main_arg2 (V : Valuation τ sig (Elt F)) :
    after (opsC (F := F)) V (Proc.devRef .tc main_arg2) = V (Proc.devRef .tc main_arg2) := by
  unfold opsC
  after_results_simp <;> rfl

theorem C_main_arg3 (V : Valuation τ sig (Elt F)) :
    after (opsC (F := F)) V (Proc.devRef .tc main_arg3) = V (Proc.devRef .tc main_arg3) := by
  unfold opsC
  after_results_simp <;> rfl

theorem D_main_arg0 (V : Valuation τ sig (Elt F)) :
    after (opsD (F := F)) V (Proc.devRef .tc main_arg0) = V (Proc.devRef .tc main_arg0) := by
  unfold opsD
  after_results_simp <;> rfl

theorem D_main_arg1 (V : Valuation τ sig (Elt F)) :
    after (opsD (F := F)) V (Proc.devRef .tc main_arg1) = V (Proc.devRef .tc main_arg1) := by
  unfold opsD
  after_results_simp <;> rfl

theorem D_main_arg2 (V : Valuation τ sig (Elt F)) :
    after (opsD (F := F)) V (Proc.devRef .tc main_arg2) = V (Proc.devRef .tc main_arg2) := by
  unfold opsD
  after_results_simp <;> rfl

theorem D_main_arg3 (V : Valuation τ sig (Elt F)) :
    after (opsD (F := F)) V (Proc.devRef .tc main_arg3) = V (Proc.devRef .tc main_arg3) := by
  unfold opsD
  after_results_simp <;> rfl

/-! ## The whole line -/

theorem after_ops (V : Valuation τ sig (Elt F)) :
    after (ops (F := F)) V = after opsD (after opsC (after opsB (after opsA V))) := by
  rw [ops_split, after_append, after_append, after_append]

theorem after_v33 (V : Valuation τ sig (Elt F)) :
    after (ops (F := F)) V (Proc.devRef .tc main_v33)
      = refOut (V (Proc.devRef .tc main_arg0)) (V (Proc.devRef .tc main_arg1)) (V (Proc.devRef .tc main_arg2)) (V (Proc.devRef .tc main_arg3)) := by
  rw [after_ops, D_main_v33, C_main_v15, C_main_v19, C_main_v20, C_main_arg2, C_main_arg3,
    B_main_v15, B_main_v19, B_main_c, B_main_arg2, B_main_arg3, A_main_v1, A_main_arg0, A_main_arg2, A_main_arg3]
  rfl

theorem after_v0 (V : Valuation τ sig (Elt F)) :
    after (ops (F := F)) V (Proc.devRef .tc main_v0) = iotaInDim S20000 32 0 := by
  rw [after_ops, D_main_v0, C_main_v0, B_main_v0, A_main_v0]

theorem after_main_arg0 (V : Valuation τ sig (Elt F)) :
    after (ops (F := F)) V (Proc.devRef .tc main_arg0) = V (Proc.devRef .tc main_arg0) := by
  rw [after_ops, D_main_arg0, C_main_arg0, B_main_arg0, A_main_arg0]

theorem after_main_arg1 (V : Valuation τ sig (Elt F)) :
    after (ops (F := F)) V (Proc.devRef .tc main_arg1) = V (Proc.devRef .tc main_arg1) := by
  rw [after_ops, D_main_arg1, C_main_arg1, B_main_arg1, A_main_arg1]

theorem after_main_arg2 (V : Valuation τ sig (Elt F)) :
    after (ops (F := F)) V (Proc.devRef .tc main_arg2) = V (Proc.devRef .tc main_arg2) := by
  rw [after_ops, D_main_arg2, C_main_arg2, B_main_arg2, A_main_arg2]

theorem after_main_arg3 (V : Valuation τ sig (Elt F)) :
    after (ops (F := F)) V (Proc.devRef .tc main_arg3) = V (Proc.devRef .tc main_arg3) := by
  rw [after_ops, D_main_arg3, C_main_arg3, B_main_arg3, A_main_arg3]

set_option maxRecDepth 8192 in
/-- On every device, for any float values, from any memory with zero counters: every weakly fair execution of @main
    terminates with the result buffer at `refOut` of the arguments, the index buffer at the iota, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v0) = iotaInDim S20000 32 0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v33).trans (by rw [after_v33]),
      (h c main_v0).trans (after_v0 _),
      (h c main_arg0).trans (by rw [after_main_arg0]),
      (h c main_arg1).trans (by rw [after_main_arg1]),
      (h c main_arg2).trans (by rw [after_main_arg2]),
      (h c main_arg3).trans (by rw [after_main_arg3])⟩)
    (run_seq scopedRefs_eq scopedSems_eq defs main (fun _ => ops) main_eq (fun _ => ops_sub) m ρ)

end Cert.ReferenceIdeal.Hand

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.RefValueTake.lean ====
/-
  The take is the identity here.

  The reference takes the rows of the embedding table at the indices 0, 1, …, 19999 — all of its rows, in order.  An
  index i below 20000, read as a signed 32-bit word, is i itself: it is not negative, so the wrap-around of negative
  indices leaves it alone; it lies between 0 and 19999, so the in-range mask is true at every row and the gather's
  clamp does nothing.  The select therefore keeps the gathered row everywhere and the fill word is never read: the
  array taken is the table.  Nothing here depends on how floats are read.
-/
import proofs.«103525_g86423331930547_cont_9to1_m_1251_21_alg».proof.Proof.RefRun
import proofs.«103525_g86423331930547_cont_9to1_m_1251_21_alg».proof.Proof.LibGatherFlatRows
import proofs.«103525_g86423331930547_cont_9to1_m_1251_21_alg».proof.Proof.LibHostRows
import Idealize.ShloMosaic.Lib.IdealHost

noncomputable section

namespace Cert.ReferenceIdeal.Hand

open Cert.ReferenceIdeal Cert.ReferenceIdeal.Gen Idealize.ShloMosaic Idealize.ShloMosaic.ValueIdx

/-! ## Small words read signed -/

theorem toNat_small (n : Nat) (h : n < 20000) : (BitVec.ofNat 32 n).toNat = n := by
  rw [BitVec.toNat_ofNat]; omega

/-- A number below 20000, as a 32-bit word read signed, is itself. -/
theorem toInt_small (n : Nat) (h : n < 20000) : (BitVec.ofNat 32 n).toInt = (n : Int) := by
  have h1 := toNat_small n h
  rw [BitVec.toInt_eq_toNat_of_lt (by omega), h1]

/-- It is not below zero … -/
theorem slt_small (n : Nat) (h : n < 20000) : IntOp.cmpi .slt (BitVec.ofNat 32 n) 0#32 = 0#1 := by
  have h1 := toInt_small n h
  have h2 : (0#32 : BitVec 32).toInt = 0 := by decide
  have hn : ¬ ((n : Int) < 0) := by omega
  show BitVec.ofBool ((BitVec.ofNat 32 n).slt 0#32) = 0#1
  unfold BitVec.slt
  rw [h1, h2]
  simp [hn]

/-- … it is at most 19999 … -/
theorem sle_small (n : Nat) (h : n < 20000) : IntOp.cmpi .sle (BitVec.ofNat 32 n) 19999#32 = 1#1 := by
  have h1 := toInt_small n h
  have h2 : (19999#32 : BitVec 32).toInt = 19999 := by decide
  have hn : ((n : Int) ≤ 19999) := by omega
  show BitVec.ofBool ((BitVec.ofNat 32 n).sle 19999#32) = 1#1
  unfold BitVec.sle
  rw [h1, h2]
  simp [hn]

/-- … and at least zero. -/
theorem sge_small (n : Nat) (h : n < 20000) : IntOp.cmpi .sge (BitVec.ofNat 32 n) 0#32 = 1#1 := by
  have h1 := toInt_small n h
  have h2 : (0#32 : BitVec 32).toInt = 0 := by decide
  have hn : ((0 : Int) ≤ (n : Int)) := by omega
  show BitVec.ofBool ((0#32 : BitVec 32).sle (BitVec.ofNat 32 n)) = 1#1
  unfold BitVec.sle
  rw [h1, h2]
  simp [hn]

/-! ## A reduce by `and` over bits that are all one -/

theorem foldl_andi_const_one {ι : Type} : ∀ (l : List ι), l.foldl (fun r _ => IntOp.andi r 1#1) 1#1 = 1#1
  | [] => rfl
  | _ :: l => by
    rw [List.foldl_cons, show IntOp.andi 1#1 1#1 = 1#1 from rfl]
    exact foldl_andi_const_one l

/-- A reduce by `and` from the bit one, over an array of ones, is one everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  have hx' : x = fun _ => 1#1 := funext hx
  subst hx'
  unfold Host.reduce
  rw [hi]
  exact foldl_andi_const_one _

/-- An `[a]` vector repeated along `b` columns reads, at `(r, k)`, the vector at `r`. -/
theorem bcast_a_ab_at {α : Type} {a b : ℕ} (dims : Fin (⟨1, ![a]⟩ : Shape).rank → Fin (⟨2, ![a, b]⟩ : Shape).rank) (hd : dims 0 = 0)
    (h : (⟨1, ![a]⟩ : Shape).BroadcastsInDim ⟨2, ![a, b]⟩ dims) (x : (⟨1, ![a]⟩ : Shape).Idx → α) (r : Fin a) (k : Fin b) :
    broadcastInDim ⟨2, ![a, b]⟩ dims h x (ix2 r k) = x (ix1 r) := by
  refine broadcastInDim_apply dims h x (ix2 r k) (ix1 r) fun ax => ?_
  match ax with
  | ⟨0, _⟩ =>
    show r.val = if a = 1 then 0 else (ix2 r k (dims 0)).val
    rw [hd]
    split
    · have := r.isLt; omega
    · rfl

/-! ## The take at the indices 0 … 19999 -/

variable {F : FTy → Type} [FloatOps F]

/-- The start index of row i is i. -/
theorem idxT_iota (i : Fin 20000) (u : Fin 1) :
    idxT (F := F) (iotaInDim S20000 32 0) (ix2 i u) = BitVec.ofNat 32 i.val := by
  unfold idxT
  refine (Cert.LibHostRows.bcast_a_a1_at (a := 20000) ![0] rfl _ _ i u).trans ?_
  rw [select_apply]
  have hc : cmpi .slt (iotaInDim S20000 32 0) (broadcastInDim S20000 ![] bcast_S_S20000 (constantI S_ 32 0#32)) (ix1 i) = 0#1 :=
    slt_small i.val i.isLt
  rw [hc, select_zero]
  rfl

/-- Every row's start index is inside the table. -/
theorem maskT_iota (i : Fin 20000) : maskT (F := F) (iotaInDim S20000 32 0) (ix1 i) = 1#1 := by
  unfold maskT
  refine reduce_andi_of_all_one _ _ _ _ (fun j => ?_) rfl _
  obtain ⟨g, u, rfl⟩ : ∃ (g : Fin 20000) (u : Fin 1), j = ix2 g u := ⟨j 0, j 1, eq_ix2 j⟩
  show IntOp.andi (IntOp.cmpi .sge (idxT (F := F) (iotaInDim S20000 32 0) (ix2 g u)) 0#32)
      (IntOp.cmpi .sle (idxT (F := F) (iotaInDim S20000 32 0) (ix2 g u)) 19999#32) = 1#1
  rw [idxT_iota, sge_small _ g.isLt, sle_small _ g.isLt]
  rfl

/-- The row the gather reads for start index i is row i: the clamp into 0 … 19999 does nothing. -/
theorem rowOf_small (g : Fin 20000) :
    Cert.LibGatherFlatRows.rowOf 20000 (by decide) (BitVec.ofNat 32 g.val) = g := by
  refine Fin.ext ?_
  show min (BitVec.ofNat 32 g.val).toInt.toNat (20000 - 1) = g.val
  rw [toInt_small _ g.isLt, Int.toNat_natCast]
  have := g.isLt
  omega

/-- THE TAKE: the rows of `e` at the indices 0 … 19999 are `e`. -/
theorem takeT_iota (e : (⟨S20000x128, .f32⟩ : BufTy).Contents (Elt F)) :
    takeT e (iotaInDim S20000 32 0) = e := by
  funext j
  obtain ⟨g, h, rfl⟩ : ∃ (g : Fin 20000) (h : Fin 128), j = ix2 g h := ⟨j 0, j 1, eq_ix2 j⟩
  unfold takeT
  rw [select_apply]
  have hm : broadcastInDim S20000x128 ![0] bcast_S20000_S20000x128_0 (maskT (F := F) (iotaInDim S20000 32 0)) (ix2 g h) = 1#1 := by
    refine (bcast_a_ab_at (a := 20000) (b := 128) ![0] rfl _ _ g h).trans ?_
    exact maskT_iota g
  rw [hm, select_one]
  refine (Cert.LibGatherFlatRows.gather_rows_apply (N := 20000) (D := 128) (E := 20000) (w := 32) (by decide)
    gather_S20000x128_S20000x1_S20000x128_1_0_n_n_0_1_1128_wf e (idxT (F := F) (iotaInDim S20000 32 0)) g h).trans ?_
  rw [idxT_iota, rowOf_small]

end Cert.ReferenceIdeal.Hand

end
-- ==== Proof.RefValueRows.lean ====
/-
  The reference's stages read at an entry, on the extended reals.

  The matrix product at (b, h) is the sum over the 20000 genes of x(b, g) · e(g, h).  The activation is applied entry by
  entry.  A row's mean is its sum divided by the word 128.  The variance helper divides the row's sum of squared
  deviations by 128 − float(0) and keeps the quotient where that divisor is positive: the integer zero converts to the
  real zero, the divisor is the word 128's value, which is positive, so the quotient is kept and the fill word never
  read.  The normalisation reads its column of means and its column of variances at the entry's row, its scale and its
  shift at the entry's column.
-/
import proofs.«103525_g86423331930547_cont_9to1_m_1251_21_alg».proof.Proof.RefRun
import proofs.«103525_g86423331930547_cont_9to1_m_1251_21_alg».proof.Proof.LibHostRows
import proofs.«103525_g86423331930547_cont_9to1_m_1251_21_alg».proof.Proof.Spec
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.Embedder

/-! ## The matrix product -/

theorem lhs_row (i : S4096x128.Idx) (q : dot_S4096x20000_S20000x128_S4096x128_1_0_0_1_n_n.contr.Idx) :
    (dot_S4096x20000_S20000x128_S4096x128_1_0_0_1_n_n.lhsIdx i q 0).val = (i 0).val := by
  unfold DotDims.lhsIdx
  rw [dif_neg (show ¬(0 : Fin S4096x20000.rank) ∈ dot_S4096x20000_S20000x128_S4096x128_1_0_0_1_n_n.lhsBatch by decide),
    dif_pos (show (0 : Fin S4096x20000.rank) ∈ dot_S4096x20000_S20000x128_S4096x128_1_0_0_1_n_n.lhsNonContracting by decide)]
  rfl
theorem lhs_col (i : S4096x128.Idx) (q : dot_S4096x20000_S20000x128_S4096x128_1_0_0_1_n_n.contr.Idx) :
    (dot_S4096x20000_S20000x128_S4096x128_1_0_0_1_n_n.lhsIdx i q 1).val = (q ⟨0, by decide⟩).val :=
  dot_S4096x20000_S20000x128_S4096x128_1_0_0_1_n_n.lhsIdx_val_of_single rfl i q
theorem rhs_row (i : S4096x128.Idx) (q : dot_S4096x20000_S20000x128_S4096x128_1_0_0_1_n_n.contr.Idx) :
    (dot_S4096x20000_S20000x128_S4096x128_1_0_0_1_n_n.rhsIdx i q 0).val = (q ⟨0, by decide⟩).val :=
  dot_S4096x20000_S20000x128_S4096x128_1_0_0_1_n_n.rhsIdx_val_of_single rfl i q
theorem rhs_col (i : S4096x128.Idx) (q : dot_S4096x20000_S20000x128_S4096x128_1_0_0_1_n_n.contr.Idx) :
    (dot_S4096x20000_S20000x128_S4096x128_1_0_0_1_n_n.rhsIdx i q 1).val = (i 1).val := by
  unfold DotDims.rhsIdx
  rw [dif_neg (show ¬(1 : Fin S20000x128.rank) ∈ dot_S4096x20000_S20000x128_S4096x128_1_0_0_1_n_n.rhsBatch by decide),
    dif_pos (show (1 : Fin S20000x128.rank) ∈ dot_S4096x20000_S20000x128_S4096x128_1_0_0_1_n_n.rhsNonContracting by decide)]
  rfl

/-- Entry (b, h) of the product: the sum over the genes. -/
theorem dotT_apply (x : (⟨S4096x20000, .f32⟩ : BufTy).Contents (Elt Ideal)) (e : (⟨S20000x128, .f32⟩ : BufTy).Contents (Elt Ideal)) (b : Fin 4096) (h : Fin 128) :
    dotT (F := Ideal) x e (ix2 b h) = ∑ g : Fin 20000, x (ix2 b g) * e (ix2 g h) := by
  unfold dotT
  simp only [Host.dotGeneral]
  rw [Ideal.dotGeneral_apply, ← Equiv.sum_comp (ValueIdx.contrEquiv1 dot_S4096x20000_S20000x128_S4096x128_1_0_0_1_n_n 20000 rfl rfl).symm]
  refine Finset.sum_congr rfl fun k _ => ?_
  have hk := ValueIdx.contrEquiv1_symm_val dot_S4096x20000_S20000x128_S4096x128_1_0_0_1_n_n 20000 rfl rfl k
  have el : dot_S4096x20000_S20000x128_S4096x128_1_0_0_1_n_n.lhsIdx (ix2 b h) ((ValueIdx.contrEquiv1 dot_S4096x20000_S20000x128_S4096x128_1_0_0_1_n_n 20000 rfl rfl).symm k) = ix2 b k :=
    funext fun a => Fin.ext (by
      match a with
      | ⟨0, _⟩ => exact lhs_row _ _
      | ⟨1, _⟩ => exact (lhs_col _ _).trans hk)
  have er : dot_S4096x20000_S20000x128_S4096x128_1_0_0_1_n_n.rhsIdx (ix2 b h) ((ValueIdx.contrEquiv1 dot_S4096x20000_S20000x128_S4096x128_1_0_0_1_n_n 20000 rfl rfl).symm k) = ix2 k h :=
    funext fun a => Fin.ext (by
      match a with
      | ⟨0, _⟩ => exact (rhs_row _ _).trans hk
      | ⟨1, _⟩ => exact rhs_col _ _)
  rw [el, er]

/-! ## The activation -/

/-- The activation at an entry is gelu of the entry. -/
theorem geluT_apply (z : (⟨S4096x128, .f32⟩ : BufTy).Contents (Elt Ideal)) (j : S4096x128.Idx) :
    geluT (F := Ideal) z j = gelu (z j) := rfl

/-! ## The rows' means and variances -/

/-- The mean column at row b is the mean of row b. -/
theorem meanT_apply (a : (⟨S4096x128, .f32⟩ : BufTy).Contents (Elt Ideal)) (b : Fin 4096) (u : Fin 1) :
    meanT (F := Ideal) a (ix2 b u) = mean (fun h => a (ix2 b h)) := by
  unfold meanT mean
  rw [hostDivf_apply]
  refine congrArg₂ Ideal.div ?_ rfl
  refine (Cert.LibHostRows.bcast_a_a1_at (a := 4096) ![0] rfl _ _ b u).trans ?_
  rw [Cert.LibHostRows.hostReduceAdd_rows (a := 4096) (b := 128) a _ _ (by decide) _ b]
  show Ideal.ofBits .f32 0x00000000#32 + _ = _
  rw [Ideal.ofBits_zero_f32, zero_add]

/-- The word 128 is the real 128. -/
theorem ofBits_128 : Ideal.ofBits .f32 0x43000000#32 = ((128 : ℝ) : EReal) := by
  simp [Ideal.ofBits, Ideal.ieee, -EReal.coe_mul]; norm_num

/-- The variance's divisor with correction zero is the row length. -/
theorem lenT_zero : lenT (F := Ideal) (constantI S_ 32 0#32) ix0 = cLen := by
  show Ideal.ofBits .f32 0x43000000#32 - (((0#32 : BitVec 32).toInt : ℝ) : EReal) = cLen
  simp [cLen]

/-- The row length is positive. -/
theorem len_pos : FloatOps.cmpf (F := Ideal) .ogt cLen (Ideal.ofBits .f32 0x00000000#32) = 1#1 := by
  unfold cLen
  rw [Ideal.cmpf_def, ofBits_128, Ideal.ofBits_zero_f32]
  simp [Ideal.cmp]

/-- The variance column at row b, with correction zero, is the variance of row b. -/
theorem varT_apply (a : (⟨S4096x128, .f32⟩ : BufTy).Contents (Elt Ideal)) (b : Fin 4096) (u : Fin 1) :
    varT (F := Ideal) a (constantI S_ 32 0#32) (ix2 b u) = var (fun h => a (ix2 b h)) := by
  unfold varT
  rw [select_apply]
  have hc : broadcastInDim S4096x1 ![] bcast_S_S4096x1
      (cmpf .ogt (lenT (F := Ideal) (constantI S_ 32 0#32)) (constant (F := Ideal) S_ .f32 0x00000000#32)) (ix2 b u) = 1#1 := by
    rw [broadcastInDim_scalar_apply, cmpf_apply, lenT_zero]
    exact len_pos
  rw [hc, select_one, hostDivf_apply]
  unfold var
  refine congrArg₂ Ideal.div ?_ ?_
  · refine (Cert.LibHostRows.bcast_a_a1_at (a := 4096) ![0] rfl _ _ b u).trans ?_
    rw [Cert.LibHostRows.hostReduceAdd_rows (a := 4096) (b := 128) _ _ _ (by decide) _ b]
    show Ideal.ofBits .f32 0x00000000#32 + _ = _
    rw [Ideal.ofBits_zero_f32, zero_add]
    refine Finset.sum_congr rfl fun d _ => ?_
    rw [mulf_apply, subf_apply, Cert.LibHostRows.bcast_a1_ab_at (a := 4096) (b := 128) ![0, 1] rfl rfl _ _ b d, meanT_apply]
  · rw [broadcastInDim_scalar_apply, lenT_zero]

/-! ## The normalisation -/

/-- The normalised entry (b, h). -/
theorem outT_apply (a : (⟨S4096x128, .f32⟩ : BufTy).Contents (Elt Ideal)) (mu vr : (⟨S4096x1, .f32⟩ : BufTy).Contents (Elt Ideal))
    (s t : (⟨S128, .f32⟩ : BufTy).Contents (Elt Ideal)) (b : Fin 4096) (h : Fin 128) :
    outT (F := Ideal) a mu vr s t (ix2 b h)
      = ((a (ix2 b h) - mu (ix2 b (0 : Fin 1))) * Ideal.rsqrt (vr (ix2 b (0 : Fin 1)) + cEps)) * s (ix1 h) + t (ix1 h) := by
  unfold outT
  rw [addf_apply, mulf_apply, mulf_apply, subf_apply,
    Cert.LibHostRows.bcast_a1_ab_at (a := 4096) (b := 128) ![0, 1] rfl rfl _ mu b h,
    Cert.LibHostRows.bcast_a1_ab_at (a := 4096) (b := 128) ![0, 1] rfl rfl _ _ b h,
    Cert.LibHostRows.bcast_1b_ab_at (a := 4096) (b := 128) ![0, 1] rfl rfl _ _ b h,
    Cert.LibHostRows.bcast_b_1b_at (b := 128) ![1] rfl _ s (0 : Fin 1) h,
    Cert.LibHostRows.bcast_1b_ab_at (a := 4096) (b := 128) ![0, 1] rfl rfl _ _ b h,
    Cert.LibHostRows.bcast_b_1b_at (b := 128) ![1] rfl _ t (0 : Fin 1) h]
  rfl

end Cert.ReferenceIdeal.Hand

end
-- ==== Proof.RefValue.lean ====
/-
  The reference computes the specification.

  Entry (b, h) of the reference's result is the normalisation of row b of the activated product: the take returns the
  embedding table itself, the product's entry is the sum over the genes, the activation is gelu entry by entry, the
  mean and the variance the reference subtracts and divides by are those of that same row, and the scale and the shift
  are read at column h.  That is the specification's entry, term for term; no law of arithmetic is used.  The run of
  the reference then ends with the result buffer at the specification of the four argument arrays, the index buffer
  at the indices 0 … 19999, and the arguments unchanged.
-/
import proofs.«103525_g86423331930547_cont_9to1_m_1251_21_alg».proof.Proof.RefRun
import proofs.«103525_g86423331930547_cont_9to1_m_1251_21_alg».proof.Proof.RefValueTake
import proofs.«103525_g86423331930547_cont_9to1_m_1251_21_alg».proof.Proof.RefValueRows
import proofs.«103525_g86423331930547_cont_9to1_m_1251_21_alg».proof.Proof.Spec

noncomputable section

open scoped BigOperators

namespace Cert.ReferenceIdeal.Hand

open Cert.ReferenceIdeal Cert.ReferenceIdeal.Gen Idealize.ShloMosaic Idealize.ShloMosaic.ValueIdx Idealize.ShloMosaic.TcCoe
  Idealize.SL.Sem Cert.Embedder

/-- Row b of the activated product is the specification's row b after the activation. -/
theorem actT_row (x : (⟨S4096x20000, .f32⟩ : BufTy).Contents (Elt Ideal)) (e : (⟨S20000x128, .f32⟩ : BufTy).Contents (Elt Ideal)) (b : Fin 4096) :
    (fun h : Fin 128 => actT (F := Ideal) x e (ix2 b h)) = act (fun b g => x (ix2 b g)) (fun g h => e (ix2 g h)) b := by
  funext h
  unfold actT act
  rw [takeT_iota, geluT_apply, dotT_apply]
  rfl

/-- THE REFERENCE'S RESULT IS THE SPECIFICATION, entry by entry. -/
theorem refOut_eq (x : (⟨S4096x20000, .f32⟩ : BufTy).Contents (Elt Ideal)) (e : (⟨S20000x128, .f32⟩ : BufTy).Contents (Elt Ideal))
    (s t : (⟨S128, .f32⟩ : BufTy).Contents (Elt Ideal)) :
    refOut (F := Ideal) x e s t = Cert.Embedder.result x e s t := by
  funext j
  obtain ⟨b, h, rfl⟩ : ∃ (b : Fin 4096) (h : Fin 128), j = ix2 b h := ⟨j 0, j 1, eq_ix2 j⟩
  rw [result_apply]
  unfold refOut
  rw [outT_apply, meanT_apply, varT_apply]
  have hA := actT_row x e b
  have hAh : actT (F := Ideal) x e (ix2 b h) = act (fun b g => x (ix2 b g)) (fun g h => e (ix2 g h)) b h := congrFun hA h
  rw [hA, hAh]
  rfl

/-- At the extended reals, from any memory with zero counters: every weakly fair execution of the reference terminates
    with its result buffer at the specification of the four argument arrays, its index buffer at the indices
    0 … 19999, and the argument arrays unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33)
          = Cert.Embedder.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v0) = iotaInDim S20000 32 0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (refOut_eq _ _ _ _), (h c).2⟩) (run (F := Ideal) m ρ)

end Cert.ReferenceIdeal.Hand

end
-- ==== Proof.lean ====
/-
  The certificate of the embedding kernel against its jnp reference.

  Both programs compute, for a cell-by-gene matrix x, an embedding table, a scale and a bias:
  layernorm (gelu (x · emb)) · scale + bias, and the iota over the genes.  The kernel streams xᵀ in two column
  halves and the table in blocks of 800 rows over 25 grid points, accumulating the [128, 4096] product in a scratch,
  and normalises at the last point; the reference gathers the table's rows at the iota (every row, in order),
  multiplies once, and normalises through jnp's mean and variance.  At the ideal instance the two results are one
  function of the arguments (Spec.lean): the 20000-term sum is the sum of the 25 block sums (addition on the
  extended reals is commutative and associative, so no finiteness is needed), products commute, and every float
  constant is the same f32 word on both sides.

  The frames (each program runs to the end, faults nowhere, and leaves its arguments as launched): for the kernel,
  at the word level and at the ideal instance, one proof generic in the float instance — the body at each of its
  three cases, the pipeline's proof data, and the launch over the program's segments; for the reference its run.
  The idealization rewrote nothing, so `preserves` is trivial.
-/
import proofs.«103525_g86423331930547_cont_9to1_m_1251_21_alg».proof.Proof.Gen.Kernel
import proofs.«103525_g86423331930547_cont_9to1_m_1251_21_alg».proof.Proof.Gen.KernelIdeal
import proofs.«103525_g86423331930547_cont_9to1_m_1251_21_alg».proof.Proof.Gen.ReferenceIdeal
import proofs.«103525_g86423331930547_cont_9to1_m_1251_21_alg».proof.Proof.Gen.Pre_finite_inputs
import proofs.«103525_g86423331930547_cont_9to1_m_1251_21_alg».proof.Proof.KernelEnd
import proofs.«103525_g86423331930547_cont_9to1_m_1251_21_alg».proof.Proof.KernelIdealEnd
import proofs.«103525_g86423331930547_cont_9to1_m_1251_21_alg».proof.Proof.KernelIdealValue
import proofs.«103525_g86423331930547_cont_9to1_m_1251_21_alg».proof.Proof.RefValue
import proofs.«103525_g86423331930547_cont_9to1_m_1251_21_alg».proof.Defs
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Hand.frame (F := Bits) m ρ

/-- The idealized kernel runs and keeps its arguments. -/
theorem frame_kernelIdeal : Cert.frame_KernelIdeal := fun m ρ _ => Cert.KernelIdeal.Hand.frame (F := Ideal) m ρ

/-- The idealized reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Hand.run_result m ρ)

/-- From memories agreeing on the arguments both idealized programs end with the normalised activation of x · emb
    (`Cert.Embedder.result`) and the iota. -/
theorem algebraic : Cert.algebraic_KernelIdeal_ReferenceIdeal := by
  intro m ρ m' ρ' _ hagree
  refine ⟨fun c => Cert.Embedder.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun _ => iotaInDim Cert.KernelIdeal.S20000 32 0, ?_, ?_⟩
  · exact (θ_run Cert.KernelIdeal.defs _ _).mono
      (fun _ h c => ⟨(h c).1.trans (Cert.KernelIdeal.Hand.out_value m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Hand.run_result m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
